-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v153)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v220) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S4x128x128 : Shape := ⟨3, ![4, 128, 128]⟩
abbrev S4x128 : Shape := ⟨2, ![4, 128]⟩
abbrev S5x64x128 : Shape := ⟨3, ![5, 64, 128]⟩
abbrev S5x64 : Shape := ⟨2, ![5, 64]⟩
abbrev S5x1x64 : Shape := ⟨3, ![5, 1, 64]⟩
abbrev S5x1 : Shape := ⟨2, ![5, 1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S5x64x128 : S_.BroadcastsInDim S5x64x128 (![] : Fin 0 → Fin S5x64x128.rank)
  reducesTo_S5x64x128_S_d0_1_2 : S5x64x128.ReducesTo [0, 1, 2] S_
  bcast_S_S5x64 : S_.BroadcastsInDim S5x64 (![] : Fin 0 → Fin S5x64.rank)
  reducesTo_S5x64_S_d0_1 : S5x64.ReducesTo [0, 1] S_
  bcast_S_S5x1x64 : S_.BroadcastsInDim S5x1x64 (![] : Fin 0 → Fin S5x1x64.rank)
  reducesTo_S5x1x64_S_d0_1_2 : S5x1x64.ReducesTo [0, 1, 2] S_
  bcast_S_S5x1 : S_.BroadcastsInDim S5x1 (![] : Fin 0 → Fin S5x1.rank)
  reducesTo_S5x1_S_d0_1 : S5x1.ReducesTo [0, 1] S_

variable [Facts]

def fn_part3 {F : FTy → Type} [FloatOps F] (main_arg12 : FVec F S5x1 .f32) (main_v48 : IVec S_ 1) (main_v49 : FVec F S5x1x64 .f32) (main_v50 : FVec F S5x1x64 .f32) : IVec S_ 1 :=
  let main_v51 : IVec S5x1x64 1 := cmpf .olt main_v49 main_v50
  let main_c_19 : IVec S_ 1 := constantI S_ 1 1#1
  let main_v52 : IVec S_ 1 := (fun x v => Host.reduce IntOp.andi x v reducesTo_S5x1x64_S_d0_1_2 h_S_) main_v51 main_c_19
  let main_v53 : IVec S_ 1 := andi main_v48 main_v52
  let main_v54 : FVec F S5x1 .f32 := Host.absf main_arg12
  let main_cst_20 : FVec F S_ .f32 := constant S_ .f32 0x7F800000#32
  let main_v55 : FVec F S5x1 .f32 := broadcastInDim S5x1 ![] bcast_S_S5x1 main_cst_20
  let main_v56 : IVec S5x1 1 := cmpf .olt main_v54 main_v55
  let main_c_21 : IVec S_ 1 := constantI S_ 1 1#1
  let main_v57 : IVec S_ 1 := (fun x v => Host.reduce IntOp.andi x v reducesTo_S5x1_S_d0_1 h_S_) main_v56 main_c_21
  let main_v58 : IVec S_ 1 := andi main_v53 main_v57
  main_v58

def fn_part2 {F : FTy → Type} [FloatOps F] (main_arg8 : FVec F S4x128 .f32) (main_arg9 : FVec F S5x64x128 .f32) (main_arg10 : FVec F S5x64 .f32) (main_arg11 : FVec F S5x1x64 .f32) (main_arg12 : FVec F S5x1 .f32) (main_v33 : IVec S_ 1) : IVec S_ 1 :=
  let main_v34 : FVec F S4x128 .f32 := Host.absf main_arg8
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S5x64x128 .f32 := Host.absf main_arg9
  let main_cst_14 : FVec F S_ .f32 := constant S_ .f32 0x7F800000#32
  let main_v40 : FVec F S5x64x128 .f32 := broadcastInDim S5x64x128 ![] bcast_S_S5x64x128 main_cst_14
  let main_v41 : IVec S5x64x128 1 := cmpf .olt main_v39 main_v40
  let main_c_15 : IVec S_ 1 := constantI S_ 1 1#1
  let main_v42 : IVec S_ 1 := (fun x v => Host.reduce IntOp.andi x v reducesTo_S5x64x128_S_d0_1_2 h_S_) main_v41 main_c_15
  let main_v43 : IVec S_ 1 := andi main_v38 main_v42
  let main_v44 : FVec F S5x64 .f32 := Host.absf main_arg10
  let main_cst_16 : FVec F S_ .f32 := constant S_ .f32 0x7F800000#32
  let main_v45 : FVec F S5x64 .f32 := broadcastInDim S5x64 ![] bcast_S_S5x64 main_cst_16
  let main_v46 : IVec S5x64 1 := cmpf .olt main_v44 main_v45
  let main_c_17 : IVec S_ 1 := constantI S_ 1 1#1
  let main_v47 : IVec S_ 1 := (fun x v => Host.reduce IntOp.andi x v reducesTo_S5x64_S_d0_1 h_S_) main_v46 main_c_17
  let main_v48 : IVec S_ 1 := andi main_v43 main_v47
  let main_v49 : FVec F S5x1x64 .f32 := Host.absf main_arg11
  let main_cst_18 : FVec F S_ .f32 := constant S_ .f32 0x7F800000#32
  let main_v50 : FVec F S5x1x64 .f32 := broadcastInDim S5x1x64 ![] bcast_S_S5x1x64 main_cst_18
  fn_part3 (F := F) main_arg12 main_v48 main_v49 main_v50

def fn_part1 {F : FTy → Type} [FloatOps F] (main_arg5 : FVec F S4x128 .f32) (main_arg6 : FVec F S4x128 .f32) (main_arg7 : FVec F S4x128 .f32) (main_arg8 : FVec F S4x128 .f32) (main_arg9 : FVec F S5x64x128 .f32) (main_arg10 : FVec F S5x64 .f32) (main_arg11 : FVec F S5x1x64 .f32) (main_arg12 : FVec F S5x1 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg5
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg6
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg7
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x1600000 32) (main_arg2 : FVec F S4x128x128 .f32) (main_arg3 : FVec F S4x128 .f32) (main_arg4 : FVec F S4x128x128 .f32) (main_arg5 : FVec F S4x128 .f32) (main_arg6 : FVec F S4x128 .f32) (main_arg7 : FVec F S4x128 .f32) (main_arg8 : FVec F S4x128 .f32) (main_arg9 : FVec F S5x64x128 .f32) (main_arg10 : FVec F S5x64 .f32) (main_arg11 : FVec F S5x1x64 .f32) (main_arg12 : FVec F S5x1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128x128 .f32 := Host.absf main_arg2
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg3
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg4
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S4x128x128 : Shape := ⟨3, ![4, 128, 128]⟩
abbrev S4x128 : Shape := ⟨2, ![4, 128]⟩
abbrev S5x64x128 : Shape := ⟨3, ![5, 64, 128]⟩
abbrev S5x64 : Shape := ⟨2, ![5, 64]⟩
abbrev S5x1x64 : Shape := ⟨3, ![5, 1, 64]⟩
abbrev S5x1 : Shape := ⟨2, ![5, 1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S5x128x64 : Shape := ⟨3, ![5, 128, 64]⟩
abbrev S5x64x1 : Shape := ⟨3, ![5, 64, 1]⟩
abbrev S100000x5 : Shape := ⟨2, ![100000, 5]⟩
abbrev S5000x5 : Shape := ⟨2, ![5000, 5]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S1x64x1 : Shape := ⟨3, ![1, 64, 1]⟩
abbrev S64x1 : Shape := ⟨2, ![64, 1]⟩
abbrev S1x1 : Shape := ⟨2, ![1, 1]⟩
abbrev S1 : Shape := ⟨1, ![1]⟩
abbrev S5000x64 : Shape := ⟨2, ![5000, 64]⟩
abbrev S5000x1 : Shape := ⟨2, ![5000, 1]⟩
abbrev S5x100000 : Shape := ⟨2, ![5, 100000]⟩
abbrev S5x100000x1 : Shape := ⟨3, ![5, 100000, 1]⟩

abbrev nBuf : Space → Nat
  | .hbm => 183
  | .vmem => 60
  | .smem => 0
  | _ => 0

abbrev hbmTy0_0 (i : Nat) : BufTy := match i % 128 with
  | 0 => ⟨S100000x128, .f32⟩
  | 1 => ⟨S2x1600000, .i32⟩
  | 2 => ⟨S4x128x128, .f32⟩
  | 3 => ⟨S4x128, .f32⟩
  | 4 => ⟨S4x128x128, .f32⟩
  | 5 => ⟨S4x128, .f32⟩
  | 6 => ⟨S4x128, .f32⟩
  | 7 => ⟨S4x128, .f32⟩
  | 8 => ⟨S4x128, .f32⟩
  | 9 => ⟨S5x64x128, .f32⟩
  | 10 => ⟨S5x64, .f32⟩
  | 11 => ⟨S5x1x64, .f32⟩
  | 12 => ⟨S5x1, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S100000x1, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S100000x128, .f32⟩
  | 44 => ⟨S100000x128, .f32⟩
  | 45 => ⟨S1x128x128, .f32⟩
  | 46 => ⟨S128x128, .f32⟩
  | 47 => ⟨S128x128, .f32⟩
  | 48 => ⟨S1x128x128, .f32⟩
  | 49 => ⟨S128x128, .f32⟩
  | 50 => ⟨S128x128, .f32⟩
  | 51 => ⟨S1x128, .f32⟩
  | 52 => ⟨S128, .f32⟩
  | 53 => ⟨S1x128, .f32⟩
  | 54 => ⟨S128, .f32⟩
  | 55 => ⟨S1x128, .f32⟩
  | 56 => ⟨S128, .f32⟩
  | 57 => ⟨S1x128, .f32⟩
  | 58 => ⟨S128, .f32⟩
  | 59 => ⟨S1x128, .f32⟩
  | 60 => ⟨S128, .f32⟩
  | 61 => ⟨S1x128, .f32⟩
  | 62 => ⟨S1x128, .f32⟩
  | 63 => ⟨S1x128, .f32⟩
  | 64 => ⟨S1x128, .f32⟩
  | 65 => ⟨S1x128, .f32⟩
  | 66 => ⟨S100000x128, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x128, .f32⟩
  | 76 => ⟨S_, .f32⟩
  | 77 => ⟨S100000x128, .f32⟩
  | 78 => ⟨S1600000x1, .i32⟩
  | 79 => ⟨S100000x128, .f32⟩
  | 80 => ⟨S100000x128, .f32⟩
  | 81 => ⟨S100000x128, .f32⟩
  | 82 => ⟨S1x128x128, .f32⟩
  | 83 => ⟨S128x128, .f32⟩
  | 84 => ⟨S128x128, .f32⟩
  | 85 => ⟨S1x128x128, .f32⟩
  | 86 => ⟨S128x128, .f32⟩
  | 87 => ⟨S128x128, .f32⟩
  | 88 => ⟨S1x128, .f32⟩
  | 89 => ⟨S128, .f32⟩
  | 90 => ⟨S1x128, .f32⟩
  | 91 => ⟨S128, .f32⟩
  | 92 => ⟨S1x128, .f32⟩
  | 93 => ⟨S128, .f32⟩
  | 94 => ⟨S1x128, .f32⟩
  | 95 => ⟨S128, .f32⟩
  | 96 => ⟨S1x128, .f32⟩
  | 97 => ⟨S128, .f32⟩
  | 98 => ⟨S1x128, .f32⟩
  | 99 => ⟨S1x128, .f32⟩
  | 100 => ⟨S1x128, .f32⟩
  | 101 => ⟨S1x128, .f32⟩
  | 102 => ⟨S1x128, .f32⟩
  | 103 => ⟨S100000x128, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x128, .f32⟩
  | 113 => ⟨S_, .f32⟩
  | 114 => ⟨S100000x128, .f32⟩
  | 115 => ⟨S1600000x1, .i32⟩
  | 116 => ⟨S100000x128, .f32⟩
  | 117 => ⟨S100000x128, .f32⟩
  | 118 => ⟨S100000x128, .f32⟩
  | 119 => ⟨S1x128x128, .f32⟩
  | 120 => ⟨S128x128, .f32⟩
  | 121 => ⟨S128x128, .f32⟩
  | 122 => ⟨S1x128x128, .f32⟩
  | 123 => ⟨S128x128, .f32⟩
  | 124 => ⟨S128x128, .f32⟩
  | 125 => ⟨S1x128, .f32⟩
  | 126 => ⟨S128, .f32⟩
  | 127 => ⟨S1x128, .f32⟩
  | _ => ⟨S100000x128, .f32⟩

abbrev hbmTy0_1 (i : Nat) : BufTy := match i % 128 with
  | 0 => ⟨S128, .f32⟩
  | 1 => ⟨S1x128, .f32⟩
  | 2 => ⟨S128, .f32⟩
  | 3 => ⟨S1x128, .f32⟩
  | 4 => ⟨S128, .f32⟩
  | 5 => ⟨S1x128, .f32⟩
  | 6 => ⟨S128, .f32⟩
  | 7 => ⟨S1x128, .f32⟩
  | 8 => ⟨S1x128, .f32⟩
  | 9 => ⟨S1x128, .f32⟩
  | 10 => ⟨S1x128, .f32⟩
  | 11 => ⟨S1x128, .f32⟩
  | 12 => ⟨S100000x128, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x128, .f32⟩
  | 22 => ⟨S_, .f32⟩
  | 23 => ⟨S100000x128, .f32⟩
  | 24 => ⟨S1600000x1, .i32⟩
  | 25 => ⟨S100000x128, .f32⟩
  | 26 => ⟨S100000x128, .f32⟩
  | 27 => ⟨S100000x128, .f32⟩
  | 28 => ⟨S1x128x128, .f32⟩
  | 29 => ⟨S128x128, .f32⟩
  | 30 => ⟨S128x128, .f32⟩
  | 31 => ⟨S1x128x128, .f32⟩
  | 32 => ⟨S128x128, .f32⟩
  | 33 => ⟨S128x128, .f32⟩
  | 34 => ⟨S1x128, .f32⟩
  | 35 => ⟨S128, .f32⟩
  | 36 => ⟨S1x128, .f32⟩
  | 37 => ⟨S128, .f32⟩
  | 38 => ⟨S1x128, .f32⟩
  | 39 => ⟨S128, .f32⟩
  | 40 => ⟨S1x128, .f32⟩
  | 41 => ⟨S128, .f32⟩
  | 42 => ⟨S1x128, .f32⟩
  | 43 => ⟨S128, .f32⟩
  | 44 => ⟨S1x128, .f32⟩
  | 45 => ⟨S1x128, .f32⟩
  | 46 => ⟨S1x128, .f32⟩
  | 47 => ⟨S1x128, .f32⟩
  | 48 => ⟨S1x128, .f32⟩
  | 49 => ⟨S100000x128, .f32⟩
  | 50 => ⟨S5x128x64, .f32⟩
  | 51 => ⟨S5x64x1, .f32⟩
  | 52 => ⟨S100000x5, .f32⟩
  | 53 => ⟨S5x100000, .f32⟩
  | 54 => ⟨S5x100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S128x128, .f32⟩
  | .local _ .vmem, ⟨44, _⟩ => ⟨S1x128, .f32⟩
  | .local _ .vmem, ⟨45, _⟩ => ⟨S128x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5x128x64, .f32⟩
  | .local _ .vmem, ⟨55, _⟩ => ⟨S5x64, .f32⟩
  | .local _ .vmem, ⟨56, _⟩ => ⟨S5x64x1, .f32⟩
  | .local _ .vmem, ⟨57, _⟩ => ⟨S5x1, .f32⟩
  | .local _ .vmem, ⟨58, _⟩ => ⟨S5000x5, .f32⟩
  | .local _ .vmem, ⟨59, _⟩ => ⟨S5000x5, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_5 : Ref sig .tc := ⟨.hbm, 67, rfl⟩
abbrev main_v47 : Ref sig .tc := ⟨.hbm, 68, rfl⟩
abbrev main_v48 : Ref sig .tc := ⟨.hbm, 69, rfl⟩
abbrev main_c_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_c_8 : Ref sig .tc := ⟨.hbm, 104, rfl⟩
abbrev main_v81 : Ref sig .tc := ⟨.hbm, 105, rfl⟩
abbrev main_v82 : Ref sig .tc := ⟨.hbm, 106, rfl⟩
abbrev main_c_9 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_10 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_c_11 : Ref sig .tc := ⟨.hbm, 141, rfl⟩
abbrev main_v115 : Ref sig .tc := ⟨.hbm, 142, rfl⟩
abbrev main_v116 : Ref sig .tc := ⟨.hbm, 143, rfl⟩
abbrev main_c_12 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_cst_13 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg9_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg7_0 : Ref sig .tc := ⟨.vmem, 48, rfl⟩
abbrev cc3_stg8_0 : Ref sig .tc := ⟨.vmem, 49, rfl⟩
abbrev cc3_stg9_0 : Ref sig .tc := ⟨.vmem, 50, rfl⟩
abbrev cc3_stg9_1 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg2_0 : Ref sig .tc := ⟨.vmem, 55, rfl⟩
abbrev cc4_stg3_0 : Ref sig .tc := ⟨.vmem, 56, rfl⟩
abbrev cc4_stg4_0 : Ref sig .tc := ⟨.vmem, 57, rfl⟩
abbrev cc4_stg5_0 : Ref sig .tc := ⟨.vmem, 58, rfl⟩
abbrev cc4_stg5_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem9_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem3_0 : DmaSem sig := 44
abbrev cc3_sem4_0 : DmaSem sig := 45
abbrev cc3_sem5_0 : DmaSem sig := 46
abbrev cc3_sem6_0 : DmaSem sig := 47
abbrev cc3_sem7_0 : DmaSem sig := 48
abbrev cc3_sem8_0 : DmaSem sig := 49
abbrev cc3_sem9_0 : DmaSem sig := 50
abbrev cc3_sem9_1 : DmaSem sig := 51
abbrev cc4_sem0_0 : DmaSem sig := 52
abbrev cc4_sem0_1 : DmaSem sig := 53
abbrev cc4_sem1_0 : DmaSem sig := 54
abbrev cc4_sem2_0 : DmaSem sig := 55
abbrev cc4_sem3_0 : DmaSem sig := 56
abbrev cc4_sem4_0 : DmaSem sig := 57
abbrev cc4_sem5_0 : DmaSem sig := 58
abbrev cc4_sem5_1 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S5x128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S5x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S5x64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S5x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x5 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S4x128x128_S1x128x128_0_0_0 : S4x128x128.Slices ![0, 0, 0] S1x128x128
  shapeCasts_S1x128x128_S128x128 : S1x128x128.ShapeCasts S128x128
  transposes_S128x128_S128x128_1_0 : S128x128.Transposes [1, 0] S128x128
  slices_S4x128_S1x128_0_0 : S4x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  transposes_S5x64x128_S5x128x64_0_2_1 : S5x64x128.Transposes [0, 2, 1] S5x128x64
  transposes_S5x1x64_S5x64x1_0_2_1 : S5x1x64.Transposes [0, 2, 1] S5x64x1
  inb_S5x128x64_S1x128x64_0_0_0 : ∀ a, (![0, 0, 0] : Fin 3 → Nat) a + S1x128x64.size a ≤ S5x128x64.size a
  h_S1x128x64 : 0 < S1x128x64.numel
  shapeCasts_S1x128x64_S128x64 : S1x128x64.ShapeCasts S128x64
  inb_S5x64_S1x64_0_0 : ∀ a, (![0, 0] : Fin 2 → Nat) a + S1x64.size a ≤ S5x64.size a
  h_S1x64 : 0 < S1x64.numel
  shapeCasts_S1x64_S64 : S1x64.ShapeCasts S64
  inb_S5x64x1_S1x64x1_0_0_0 : ∀ a, (![0, 0, 0] : Fin 3 → Nat) a + S1x64x1.size a ≤ S5x64x1.size a
  h_S1x64x1 : 0 < S1x64x1.numel
  shapeCasts_S1x64x1_S64x1 : S1x64x1.ShapeCasts S64x1
  inb_S5x1_S1x1_0_0 : ∀ a, (![0, 0] : Fin 2 → Nat) a + S1x1.size a ≤ S5x1.size a
  h_S1x1 : 0 < S1x1.numel
  shapeCasts_S1x1_S1 : S1x1.ShapeCasts S1
  shapeCasts_S64_S1x64 : S64.ShapeCasts S1x64
  broadcasts_S1x64_S5000x64 : S1x64.Broadcasts S5000x64
  shapeCasts_S1_S1x1 : S1.ShapeCasts S1x1
  broadcasts_S1x1_S5000x1 : S1x1.Broadcasts S5000x1
  inb_S5x128x64_S1x128x64_1_0_0 : ∀ a, (![1, 0, 0] : Fin 3 → Nat) a + S1x128x64.size a ≤ S5x128x64.size a
  inb_S5x64_S1x64_1_0 : ∀ a, (![1, 0] : Fin 2 → Nat) a + S1x64.size a ≤ S5x64.size a
  inb_S5x64x1_S1x64x1_1_0_0 : ∀ a, (![1, 0, 0] : Fin 3 → Nat) a + S1x64x1.size a ≤ S5x64x1.size a
  inb_S5x1_S1x1_1_0 : ∀ a, (![1, 0] : Fin 2 → Nat) a + S1x1.size a ≤ S5x1.size a
  inb_S5x128x64_S1x128x64_2_0_0 : ∀ a, (![2, 0, 0] : Fin 3 → Nat) a + S1x128x64.size a ≤ S5x128x64.size a
  inb_S5x64_S1x64_2_0 : ∀ a, (![2, 0] : Fin 2 → Nat) a + S1x64.size a ≤ S5x64.size a
  inb_S5x64x1_S1x64x1_2_0_0 : ∀ a, (![2, 0, 0] : Fin 3 → Nat) a + S1x64x1.size a ≤ S5x64x1.size a
  inb_S5x1_S1x1_2_0 : ∀ a, (![2, 0] : Fin 2 → Nat) a + S1x1.size a ≤ S5x1.size a
  inb_S5x128x64_S1x128x64_3_0_0 : ∀ a, (![3, 0, 0] : Fin 3 → Nat) a + S1x128x64.size a ≤ S5x128x64.size a
  inb_S5x64_S1x64_3_0 : ∀ a, (![3, 0] : Fin 2 → Nat) a + S1x64.size a ≤ S5x64.size a
  inb_S5x64x1_S1x64x1_3_0_0 : ∀ a, (![3, 0, 0] : Fin 3 → Nat) a + S1x64x1.size a ≤ S5x64x1.size a
  inb_S5x1_S1x1_3_0 : ∀ a, (![3, 0] : Fin 2 → Nat) a + S1x1.size a ≤ S5x1.size a
  inb_S5x128x64_S1x128x64_4_0_0 : ∀ a, (![4, 0, 0] : Fin 3 → Nat) a + S1x128x64.size a ≤ S5x128x64.size a
  inb_S5x64_S1x64_4_0 : ∀ a, (![4, 0] : Fin 2 → Nat) a + S1x64.size a ≤ S5x64.size a
  inb_S5x64x1_S1x64x1_4_0_0 : ∀ a, (![4, 0, 0] : Fin 3 → Nat) a + S1x64x1.size a ≤ S5x64x1.size a
  inb_S5x1_S1x1_4_0 : ∀ a, (![4, 0] : Fin 2 → Nat) a + S1x1.size a ≤ S5x1.size a
  concatenates_S5000x1_S5000x1_S5000x1_S5000x1_S5000x1_S5000x5_d1 : Shape.Concatenates [S5000x1, S5000x1, S5000x1, S5000x1, S5000x1] S5000x5 1
  inb_S5000x5_S5000x5_0_0 : ∀ a, (![0, 0] : Fin 2 → Nat) a + S5000x5.size a ≤ S5000x5.size a
  h_S5000x5 : 0 < S5000x5.numel
  transposes_S100000x5_S5x100000_1_0 : S100000x5.Transposes [1, 0] S5x100000
  bcast_S5x100000_S5x100000x1_0_1 : S5x100000.BroadcastsInDim S5x100000x1 (![0, 1] : Fin 2 → Fin S5x100000x1.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S100000x128.size a
  hwx0_9 : ∀ i : grid0.Coords, EltTy.bits .f32 = 32 ∨ (Rect.block (s := S100000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S100000x128.size a
  hwx1_9 : ∀ i : grid1.Coords, EltTy.bits .f32 = 32 ∨ (Rect.block (s := S100000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S100000x128.size a
  hwx2_9 : ∀ i : grid2.Coords, EltTy.bits .f32 = 32 ∨ (Rect.block (s := S100000x128) S5000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x128.size a ≤ S100000x128.size a
  hwx3_9 : ∀ i : grid3.Coords, EltTy.bits .f32 = 32 ∨ (Rect.block (s := S100000x128) S5000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S5x128x64.size a ≤ S5x128x64.size a
  hwx4_1 : ∀ i : grid4.Coords, EltTy.bits .f32 = 32 ∨ (Rect.block (s := S5x128x64) S5x128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S5x64.size a ≤ S5x64.size a
  hwx4_2 : ∀ i : grid4.Coords, EltTy.bits .f32 = 32 ∨ (Rect.block (s := S5x64) S5x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S5x64x1.size a ≤ S5x64x1.size a
  hwx4_3 : ∀ i : grid4.Coords, EltTy.bits .f32 = 32 ∨ (Rect.block (s := S5x64x1) S5x64x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S5x1.size a ≤ S5x1.size a
  hwx4_4 : ∀ i : grid4.Coords, EltTy.bits .f32 = 32 ∨ (Rect.block (s := S5x1) S5x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x5.size a ≤ S100000x5.size a
  hwx4_5 : ∀ i : grid4.Coords, EltTy.bits .f32 = 32 ∨ (Rect.block (s := S100000x5) S5000x5.size (cc4_transform_5 i) (hinb4_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v44) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v45) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v46) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v58) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v61) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v75) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v64) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v76) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v77) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v78) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v79) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v80) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v92) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v80) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v95) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v109) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v98) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v110) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v111) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v112) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v113) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v114) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v126) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v114) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v129) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v143) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v132) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v144) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v145) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v146) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v147) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v148) S5000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v148) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v149) S5x128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S5x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v150) S5x64x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg12) S5x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v151) S5000x5.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S4x128x128 : Shape := ⟨3, ![4, 128, 128]⟩
abbrev S4x128 : Shape := ⟨2, ![4, 128]⟩
abbrev S5x64x128 : Shape := ⟨3, ![5, 64, 128]⟩
abbrev S5x64 : Shape := ⟨2, ![5, 64]⟩
abbrev S5x1x64 : Shape := ⟨3, ![5, 1, 64]⟩
abbrev S5x1 : Shape := ⟨2, ![5, 1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5x64x100000 : Shape := ⟨3, ![5, 64, 100000]⟩
abbrev S5x100000x64 : Shape := ⟨3, ![5, 100000, 64]⟩
abbrev S5x100000x1 : Shape := ⟨3, ![5, 100000, 1]⟩
abbrev S5x1x1 : Shape := ⟨3, ![5, 1, 1]⟩

abbrev nBuf : Space → Nat
  | .hbm => 266
  | .vmem => 0
  | .smem => 0
  | _ => 0

abbrev hbmTy0_0 (i : Nat) : BufTy := match i % 128 with
  | 0 => ⟨S100000x128, .f32⟩
  | 1 => ⟨S2x1600000, .i32⟩
  | 2 => ⟨S4x128x128, .f32⟩
  | 3 => ⟨S4x128, .f32⟩
  | 4 => ⟨S4x128x128, .f32⟩
  | 5 => ⟨S4x128, .f32⟩
  | 6 => ⟨S4x128, .f32⟩
  | 7 => ⟨S4x128, .f32⟩
  | 8 => ⟨S4x128, .f32⟩
  | 9 => ⟨S5x64x128, .f32⟩
  | 10 => ⟨S5x64, .f32⟩
  | 11 => ⟨S5x1x64, .f32⟩
  | 12 => ⟨S5x1, .f32⟩
  | 13 => ⟨S1x1600000, .i32⟩
  | 14 => ⟨S1600000, .i32⟩
  | 15 => ⟨S1x1600000, .i32⟩
  | 16 => ⟨S1600000, .i32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S100000x1, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S100000x128, .f32⟩
  | 44 => ⟨S100000x128, .f32⟩
  | 45 => ⟨S1x128x128, .f32⟩
  | 46 => ⟨S128x128, .f32⟩
  | 47 => ⟨S128x128, .f32⟩
  | 48 => ⟨S100000x128, .f32⟩
  | 49 => ⟨S1x128, .f32⟩
  | 50 => ⟨S128, .f32⟩
  | 51 => ⟨S1x128, .f32⟩
  | 52 => ⟨S100000x128, .f32⟩
  | 53 => ⟨S100000x128, .f32⟩
  | 54 => ⟨S1x128x128, .f32⟩
  | 55 => ⟨S128x128, .f32⟩
  | 56 => ⟨S128x128, .f32⟩
  | 57 => ⟨S100000x128, .f32⟩
  | 58 => ⟨S100000x128, .f32⟩
  | 59 => ⟨S1x128, .f32⟩
  | 60 => ⟨S128, .f32⟩
  | 61 => ⟨S1x128, .f32⟩
  | 62 => ⟨S100000x128, .f32⟩
  | 63 => ⟨S100000x128, .f32⟩
  | 64 => ⟨S1x128, .f32⟩
  | 65 => ⟨S128, .f32⟩
  | 66 => ⟨S1x128, .f32⟩
  | 67 => ⟨S128, .f32⟩
  | 68 => ⟨S_, .f32⟩
  | 69 => ⟨S128, .f32⟩
  | 70 => ⟨S128, .f32⟩
  | 71 => ⟨S128, .f32⟩
  | 72 => ⟨S128, .f32⟩
  | 73 => ⟨S1x128, .f32⟩
  | 74 => ⟨S100000x128, .f32⟩
  | 75 => ⟨S100000x128, .f32⟩
  | 76 => ⟨S1x128, .f32⟩
  | 77 => ⟨S128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x128, .f32⟩
  | 93 => ⟨S_, .f32⟩
  | 94 => ⟨S100000x128, .f32⟩
  | 95 => ⟨S1600000x1, .i32⟩
  | 96 => ⟨S100000x128, .f32⟩
  | 97 => ⟨S100000x128, .f32⟩
  | 98 => ⟨S100000x128, .f32⟩
  | 99 => ⟨S1x128x128, .f32⟩
  | 100 => ⟨S128x128, .f32⟩
  | 101 => ⟨S128x128, .f32⟩
  | 102 => ⟨S100000x128, .f32⟩
  | 103 => ⟨S1x128, .f32⟩
  | 104 => ⟨S128, .f32⟩
  | 105 => ⟨S1x128, .f32⟩
  | 106 => ⟨S100000x128, .f32⟩
  | 107 => ⟨S100000x128, .f32⟩
  | 108 => ⟨S1x128x128, .f32⟩
  | 109 => ⟨S128x128, .f32⟩
  | 110 => ⟨S128x128, .f32⟩
  | 111 => ⟨S100000x128, .f32⟩
  | 112 => ⟨S100000x128, .f32⟩
  | 113 => ⟨S1x128, .f32⟩
  | 114 => ⟨S128, .f32⟩
  | 115 => ⟨S1x128, .f32⟩
  | 116 => ⟨S100000x128, .f32⟩
  | 117 => ⟨S100000x128, .f32⟩
  | 118 => ⟨S1x128, .f32⟩
  | 119 => ⟨S128, .f32⟩
  | 120 => ⟨S1x128, .f32⟩
  | 121 => ⟨S128, .f32⟩
  | 122 => ⟨S_, .f32⟩
  | 123 => ⟨S128, .f32⟩
  | 124 => ⟨S128, .f32⟩
  | 125 => ⟨S128, .f32⟩
  | 126 => ⟨S128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S1x128, .f32⟩
  | 3 => ⟨S128, .f32⟩
  | 4 => ⟨S1x128, .f32⟩
  | 5 => ⟨S100000x128, .f32⟩
  | 6 => ⟨S100000x128, .f32⟩
  | 7 => ⟨S_, .f32⟩
  | 8 => ⟨S100000x128, .f32⟩
  | 9 => ⟨S100000x128, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x128, .f32⟩
  | 19 => ⟨S_, .f32⟩
  | 20 => ⟨S100000x128, .f32⟩
  | 21 => ⟨S1600000x1, .i32⟩
  | 22 => ⟨S100000x128, .f32⟩
  | 23 => ⟨S100000x128, .f32⟩
  | 24 => ⟨S100000x128, .f32⟩
  | 25 => ⟨S1x128x128, .f32⟩
  | 26 => ⟨S128x128, .f32⟩
  | 27 => ⟨S128x128, .f32⟩
  | 28 => ⟨S100000x128, .f32⟩
  | 29 => ⟨S1x128, .f32⟩
  | 30 => ⟨S128, .f32⟩
  | 31 => ⟨S1x128, .f32⟩
  | 32 => ⟨S100000x128, .f32⟩
  | 33 => ⟨S100000x128, .f32⟩
  | 34 => ⟨S1x128x128, .f32⟩
  | 35 => ⟨S128x128, .f32⟩
  | 36 => ⟨S128x128, .f32⟩
  | 37 => ⟨S100000x128, .f32⟩
  | 38 => ⟨S100000x128, .f32⟩
  | 39 => ⟨S1x128, .f32⟩
  | 40 => ⟨S128, .f32⟩
  | 41 => ⟨S1x128, .f32⟩
  | 42 => ⟨S100000x128, .f32⟩
  | 43 => ⟨S100000x128, .f32⟩
  | 44 => ⟨S1x128, .f32⟩
  | 45 => ⟨S128, .f32⟩
  | 46 => ⟨S1x128, .f32⟩
  | 47 => ⟨S128, .f32⟩
  | 48 => ⟨S_, .f32⟩
  | 49 => ⟨S128, .f32⟩
  | 50 => ⟨S128, .f32⟩
  | 51 => ⟨S128, .f32⟩
  | 52 => ⟨S128, .f32⟩
  | 53 => ⟨S1x128, .f32⟩
  | 54 => ⟨S100000x128, .f32⟩
  | 55 => ⟨S100000x128, .f32⟩
  | 56 => ⟨S1x128, .f32⟩
  | 57 => ⟨S128, .f32⟩
  | 58 => ⟨S1x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x128, .f32⟩
  | 73 => ⟨S_, .f32⟩
  | 74 => ⟨S100000x128, .f32⟩
  | 75 => ⟨S1600000x1, .i32⟩
  | 76 => ⟨S100000x128, .f32⟩
  | 77 => ⟨S100000x128, .f32⟩
  | 78 => ⟨S100000x128, .f32⟩
  | 79 => ⟨S1x128x128, .f32⟩
  | 80 => ⟨S128x128, .f32⟩
  | 81 => ⟨S128x128, .f32⟩
  | 82 => ⟨S100000x128, .f32⟩
  | 83 => ⟨S1x128, .f32⟩
  | 84 => ⟨S128, .f32⟩
  | 85 => ⟨S1x128, .f32⟩
  | 86 => ⟨S100000x128, .f32⟩
  | 87 => ⟨S100000x128, .f32⟩
  | 88 => ⟨S1x128x128, .f32⟩
  | 89 => ⟨S128x128, .f32⟩
  | 90 => ⟨S128x128, .f32⟩
  | 91 => ⟨S100000x128, .f32⟩
  | 92 => ⟨S100000x128, .f32⟩
  | 93 => ⟨S1x128, .f32⟩
  | 94 => ⟨S128, .f32⟩
  | 95 => ⟨S1x128, .f32⟩
  | 96 => ⟨S100000x128, .f32⟩
  | 97 => ⟨S100000x128, .f32⟩
  | 98 => ⟨S1x128, .f32⟩
  | 99 => ⟨S128, .f32⟩
  | 100 => ⟨S1x128, .f32⟩
  | 101 => ⟨S128, .f32⟩
  | 102 => ⟨S_, .f32⟩
  | 103 => ⟨S128, .f32⟩
  | 104 => ⟨S128, .f32⟩
  | 105 => ⟨S128, .f32⟩
  | 106 => ⟨S128, .f32⟩
  | 107 => ⟨S1x128, .f32⟩
  | 108 => ⟨S100000x128, .f32⟩
  | 109 => ⟨S100000x128, .f32⟩
  | 110 => ⟨S1x128, .f32⟩
  | 111 => ⟨S128, .f32⟩
  | 112 => ⟨S1x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S5x64x100000, .f32⟩
  | 119 => ⟨S5x100000x64, .f32⟩
  | 120 => ⟨S5x1x64, .f32⟩
  | 121 => ⟨S5x100000x64, .f32⟩
  | 122 => ⟨S5x100000x64, .f32⟩
  | 123 => ⟨S_, .f32⟩
  | 124 => ⟨S5x100000x64, .f32⟩
  | 125 => ⟨S5x100000x64, .f32⟩
  | 126 => ⟨S5x100000x1, .f32⟩
  | 127 => ⟨S5x1x1, .f32⟩
  | _ => ⟨S100000x128, .f32⟩

abbrev hbmTy0_2 (i : Nat) : BufTy := match i % 128 with
  | 0 => ⟨S5x100000x1, .f32⟩
  | 1 => ⟨S5x100000x1, .f32⟩
  | 2 => ⟨S5x100000x1, .f32⟩
  | 3 => ⟨S5x100000x1, .f32⟩
  | 4 => ⟨S_, .f32⟩
  | 5 => ⟨S5x100000x1, .f32⟩
  | 6 => ⟨S5x100000x1, .f32⟩
  | 7 => ⟨S_, .f32⟩
  | 8 => ⟨S5x100000x1, .f32⟩
  | 9 => ⟨S5x100000x1, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_call0_cst : Ref sig .tc := ⟨.hbm, 81, rfl⟩
abbrev main_call0_v0 : Ref sig .tc := ⟨.hbm, 82, rfl⟩
abbrev main_v60 : Ref sig .tc := ⟨.hbm, 83, rfl⟩
abbrev main_c_6 : Ref sig .tc := ⟨.hbm, 84, rfl⟩
abbrev main_v61 : Ref sig .tc := ⟨.hbm, 85, rfl⟩
abbrev main_v62 : Ref sig .tc := ⟨.hbm, 86, rfl⟩
abbrev main_c_7 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_8 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_9 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_call1_cst : Ref sig .tc := ⟨.hbm, 135, rfl⟩
abbrev main_call1_v0 : Ref sig .tc := ⟨.hbm, 136, rfl⟩
abbrev main_v108 : Ref sig .tc := ⟨.hbm, 137, rfl⟩
abbrev main_c_10 : Ref sig .tc := ⟨.hbm, 138, rfl⟩
abbrev main_v109 : Ref sig .tc := ⟨.hbm, 139, rfl⟩
abbrev main_v110 : Ref sig .tc := ⟨.hbm, 140, rfl⟩
abbrev main_c_11 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_12 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_cst_13 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_call2_cst : Ref sig .tc := ⟨.hbm, 189, rfl⟩
abbrev main_call2_v0 : Ref sig .tc := ⟨.hbm, 190, rfl⟩
abbrev main_v156 : Ref sig .tc := ⟨.hbm, 191, rfl⟩
abbrev main_c_14 : Ref sig .tc := ⟨.hbm, 192, rfl⟩
abbrev main_v157 : Ref sig .tc := ⟨.hbm, 193, rfl⟩
abbrev main_v158 : Ref sig .tc := ⟨.hbm, 194, rfl⟩
abbrev main_c_15 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_cst_16 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_cst_17 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_call3_cst : Ref sig .tc := ⟨.hbm, 243, rfl⟩
abbrev main_call3_v0 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_call4_cst : Ref sig .tc := ⟨.hbm, 251, rfl⟩
abbrev main_call4_v0 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_cst_18 : Ref sig .tc := ⟨.hbm, 260, rfl⟩
abbrev main_v217 : Ref sig .tc := ⟨.hbm, 261, rfl⟩
abbrev main_v218 : Ref sig .tc := ⟨.hbm, 262, rfl⟩
abbrev main_cst_19 : Ref sig .tc := ⟨.hbm, 263, rfl⟩
abbrev main_v219 : Ref sig .tc := ⟨.hbm, 264, rfl⟩
abbrev main_v220 : Ref sig .tc := ⟨.hbm, 265, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S4x128x128_S1x128x128_0_0_0 : S4x128x128.Slices ![0, 0, 0] S1x128x128
  shapeCasts_S1x128x128_S128x128 : S1x128x128.ShapeCasts S128x128
  transposes_S128x128_S128x128_1_0 : S128x128.Transposes [1, 0] S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  transposes_S5x64x100000_S5x100000x64_0_2_1 : S5x64x100000.Transposes [0, 2, 1] S5x100000x64
  bcast_S5x64_S5x1x64_0_2 : S5x64.BroadcastsInDim S5x1x64 (![0, 2] : Fin 2 → Fin S5x1x64.rank)
  bcast_S5x1x64_S5x100000x64_0_1_2 : S5x1x64.BroadcastsInDim S5x100000x64 (![0, 1, 2] : Fin 3 → Fin S5x100000x64.rank)
  bcast_S_S5x100000x64 : S_.BroadcastsInDim S5x100000x64 (![] : Fin 0 → Fin S5x100000x64.rank)
  bcast_S5x1_S5x1x1_0_2 : S5x1.BroadcastsInDim S5x1x1 (![0, 2] : Fin 2 → Fin S5x1x1.rank)
  bcast_S5x1x1_S5x100000x1_0_1_2 : S5x1x1.BroadcastsInDim S5x100000x1 (![0, 1, 2] : Fin 3 → Fin S5x100000x1.rank)
  bcast_S_S5x100000x1 : S_.BroadcastsInDim S5x100000x1 (![] : Fin 0 → Fin S5x100000x1.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S5x64x128_S100000x128_S5x64x100000_2_1_01_0_n_n_wf : DotDims.WF S5x64x128 S100000x128 S5x64x100000 [2] [1] [0, 1] [0] [] []
  dot_S5x100000x64_S5x1x64_S5x100000x1_2_2_1_1_0_0_wf : DotDims.WF S5x100000x64 S5x1x64 S5x100000x1 [2] [2] [1] [1] [0] [0]

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S5x64x128_S100000x128_S5x64x100000_2_1_01_0_n_n : DotDims S5x64x128 S100000x128 S5x64x100000 where
  lhsContracting := [2]
  rhsContracting := [1]
  lhsNonContracting := [0, 1]
  rhsNonContracting := [0]
  lhsBatch := []
  rhsBatch := []
  wf := dot_S5x64x128_S100000x128_S5x64x100000_2_1_01_0_n_n_wf
def dot_S5x100000x64_S5x1x64_S5x100000x1_2_2_1_1_0_0 : DotDims S5x100000x64 S5x1x64 S5x100000x1 where
  lhsContracting := [2]
  rhsContracting := [2]
  lhsNonContracting := [1]
  rhsNonContracting := [1]
  lhsBatch := [0]
  rhsBatch := [0]
  wf := dot_S5x100000x64_S5x1x64_S5x100000x1_2_2_1_1_0_0_wf

class Facts : Prop extends Facts₀ where

variable [Facts]
-- ==== Proof.KernelChain.lean ====
/-
  What the idealized kernel program's buffers hold at each boundary between a stretch of host operations and a
  pallas region, written in the reference program's own named stages.

  The program is: host operations (degree, inverse degree, neighbour mean, weight slices) — layer kernel — host
  operations (neighbour mean of the new features, next weight slices) — layer kernel — … four times, then two
  transposes of the head weights, the head kernel, and a transpose and a reshape of its [100000,5] result.
  The host operations between two kernels are the SAME operations the reference applies (gather of rows by source
  node, accumulating scatter by destination node, product with the inverse degree; slice, reshape and transpose of the
  stacked weights), so each is carried as the reference's stage applied to the same inputs and never opened.
  A buffer that a stretch does not write keeps its contents; a region changes only its output array.
-/
import proofs.«110522_j10282151707181_1_alg».proof.Proof.Gen.KernelIdeal.Frame
import proofs.«110522_j10282151707181_1_alg».proof.Proof.RefRead
import Idealize.ShloMosaic.Lib.StableHlo.Run
import Idealize.ShloMosaic.PureOps.Ideal

set_option maxRecDepth 16384
-- the argument shorthands below mention a projection, which the notation pre-check cannot look into
set_option quotPrecheck false

noncomputable section

namespace Cert.KernelIdeal.Chain

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
local notation "A10" => m ((c : Thread nD τ).loc main_arg10)
local notation "A11" => m ((c : Thread nD τ).loc main_arg11)
local notation "A12" => m ((c : Thread nD τ).loc main_arg12)

/-- A buffer that no operation of a stretch writes holds after the stretch what it held before. -/
macro "keep_host" : tactic => `(tactic| exact StableHlo.after_of_forall_not_mem _ _ (List.forall_iff_forall_mem.mp (by
  simp only [hostOps0, hostOps1, hostOps2, hostOps3, hostOps4, hostOps5, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

/-! ## The buffers every stretch reads again: the two index rows, the inverse degree, the stacked parameters -/

set_option maxHeartbeats 4000000 in
theorem at1_main_v1 : W1 m ρ c (Proc.devRef .tc main_v1) = val_main_v1 (F := Ideal) A1 := by
  show StableHlo.after hostOps0 (W0 m ρ c) (Proc.devRef .tc main_v1) = _
  after_results_simp
  try rfl
set_option maxHeartbeats 4000000 in
theorem at1_main_v3 : W1 m ρ c (Proc.devRef .tc main_v3) = val_main_v3 (F := Ideal) A1 := by
  show StableHlo.after hostOps0 (W0 m ρ c) (Proc.devRef .tc main_v3) = _
  after_results_simp
  try rfl
set_option maxHeartbeats 4000000 in
theorem at1_main_v12 : W1 m ρ c (Proc.devRef .tc main_v12) = val_main_v12 (F := Ideal) A1 := by
  show StableHlo.after hostOps0 (W0 m ρ c) (Proc.devRef .tc main_v12) = _
  after_results_simp
  try rfl
theorem at1_main_arg2 : W1 m ρ c (Proc.devRef .tc main_arg2) = A2 :=
  (show StableHlo.after hostOps0 (W0 m ρ c) (Proc.devRef .tc main_arg2) = W0 m ρ c (Proc.devRef .tc main_arg2) by keep_host).trans rfl
theorem at1_main_arg3 : W1 m ρ c (Proc.devRef .tc main_arg3) = A3 :=
  (show StableHlo.after hostOps0 (W0 m ρ c) (Proc.devRef .tc main_arg3) = W0 m ρ c (Proc.devRef .tc main_arg3) by keep_host).trans rfl
theorem at1_main_arg4 : W1 m ρ c (Proc.devRef .tc main_arg4) = A4 :=
  (show StableHlo.after hostOps0 (W0 m ρ c) (Proc.devRef .tc main_arg4) = W0 m ρ c (Proc.devRef .tc main_arg4) by keep_host).trans rfl
theorem at1_main_arg5 : W1 m ρ c (Proc.devRef .tc main_arg5) = A5 :=
  (show StableHlo.after hostOps0 (W0 m ρ c) (Proc.devRef .tc main_arg5) = W0 m ρ c (Proc.devRef .tc main_arg5) by keep_host).trans rfl
theorem at1_main_arg6 : W1 m ρ c (Proc.devRef .tc main_arg6) = A6 :=
  (show StableHlo.after hostOps0 (W0 m ρ c) (Proc.devRef .tc main_arg6) = W0 m ρ c (Proc.devRef .tc main_arg6) by keep_host).trans rfl
theorem at1_main_arg7 : W1 m ρ c (Proc.devRef .tc main_arg7) = A7 :=
  (show StableHlo.after hostOps0 (W0 m ρ c) (Proc.devRef .tc main_arg7) = W0 m ρ c (Proc.devRef .tc main_arg7) by keep_host).trans rfl
theorem at1_main_arg8 : W1 m ρ c (Proc.devRef .tc main_arg8) = A8 :=
  (show StableHlo.after hostOps0 (W0 m ρ c) (Proc.devRef .tc main_arg8) = W0 m ρ c (Proc.devRef .tc main_arg8) by keep_host).trans rfl
theorem at1_main_arg9 : W1 m ρ c (Proc.devRef .tc main_arg9) = A9 :=
  (show StableHlo.after hostOps0 (W0 m ρ c) (Proc.devRef .tc main_arg9) = W0 m ρ c (Proc.devRef .tc main_arg9) by keep_host).trans rfl
theorem at1_main_arg10 : W1 m ρ c (Proc.devRef .tc main_arg10) = A10 :=
  (show StableHlo.after hostOps0 (W0 m ρ c) (Proc.devRef .tc main_arg10) = W0 m ρ c (Proc.devRef .tc main_arg10) by keep_host).trans rfl
theorem at1_main_arg11 : W1 m ρ c (Proc.devRef .tc main_arg11) = A11 :=
  (show StableHlo.after hostOps0 (W0 m ρ c) (Proc.devRef .tc main_arg11) = W0 m ρ c (Proc.devRef .tc main_arg11) by keep_host).trans rfl
theorem at1_main_arg12 : W1 m ρ c (Proc.devRef .tc main_arg12) = A12 :=
  (show StableHlo.after hostOps0 (W0 m ρ c) (Proc.devRef .tc main_arg12) = W0 m ρ c (Proc.devRef .tc main_arg12) by keep_host).trans rfl
theorem at2_main_v1 : W2 m ρ c (Proc.devRef .tc main_v1) = val_main_v1 (F := Ideal) A1 :=
  (W2_of_ne m ρ c main_v1 (by decide)).trans (at1_main_v1 m ρ c)
theorem at3_main_v1 : W3 m ρ c (Proc.devRef .tc main_v1) = val_main_v1 (F := Ideal) A1 :=
  (show StableHlo.after hostOps1 (W2 m ρ c) (Proc.devRef .tc main_v1) = W2 m ρ c (Proc.devRef .tc main_v1) by keep_host).trans (at2_main_v1 m ρ c)
theorem at4_main_v1 : W4 m ρ c (Proc.devRef .tc main_v1) = val_main_v1 (F := Ideal) A1 :=
  (W4_of_ne m ρ c main_v1 (by decide)).trans (at3_main_v1 m ρ c)
theorem at5_main_v1 : W5 m ρ c (Proc.devRef .tc main_v1) = val_main_v1 (F := Ideal) A1 :=
  (show StableHlo.after hostOps2 (W4 m ρ c) (Proc.devRef .tc main_v1) = W4 m ρ c (Proc.devRef .tc main_v1) by keep_host).trans (at4_main_v1 m ρ c)
theorem at6_main_v1 : W6 m ρ c (Proc.devRef .tc main_v1) = val_main_v1 (F := Ideal) A1 :=
  (W6_of_ne m ρ c main_v1 (by decide)).trans (at5_main_v1 m ρ c)
theorem at2_main_v3 : W2 m ρ c (Proc.devRef .tc main_v3) = val_main_v3 (F := Ideal) A1 :=
  (W2_of_ne m ρ c main_v3 (by decide)).trans (at1_main_v3 m ρ c)
theorem at3_main_v3 : W3 m ρ c (Proc.devRef .tc main_v3) = val_main_v3 (F := Ideal) A1 :=
  (show StableHlo.after hostOps1 (W2 m ρ c) (Proc.devRef .tc main_v3) = W2 m ρ c (Proc.devRef .tc main_v3) by keep_host).trans (at2_main_v3 m ρ c)
theorem at4_main_v3 : W4 m ρ c (Proc.devRef .tc main_v3) = val_main_v3 (F := Ideal) A1 :=
  (W4_of_ne m ρ c main_v3 (by decide)).trans (at3_main_v3 m ρ c)
theorem at5_main_v3 : W5 m ρ c (Proc.devRef .tc main_v3) = val_main_v3 (F := Ideal) A1 :=
  (show StableHlo.after hostOps2 (W4 m ρ c) (Proc.devRef .tc main_v3) = W4 m ρ c (Proc.devRef .tc main_v3) by keep_host).trans (at4_main_v3 m ρ c)
theorem at6_main_v3 : W6 m ρ c (Proc.devRef .tc main_v3) = val_main_v3 (F := Ideal) A1 :=
  (W6_of_ne m ρ c main_v3 (by decide)).trans (at5_main_v3 m ρ c)
theorem at2_main_v12 : W2 m ρ c (Proc.devRef .tc main_v12) = val_main_v12 (F := Ideal) A1 :=
  (W2_of_ne m ρ c main_v12 (by decide)).trans (at1_main_v12 m ρ c)
theorem at3_main_v12 : W3 m ρ c (Proc.devRef .tc main_v12) = val_main_v12 (F := Ideal) A1 :=
  (show StableHlo.after hostOps1 (W2 m ρ c) (Proc.devRef .tc main_v12) = W2 m ρ c (Proc.devRef .tc main_v12) by keep_host).trans (at2_main_v12 m ρ c)
theorem at4_main_v12 : W4 m ρ c (Proc.devRef .tc main_v12) = val_main_v12 (F := Ideal) A1 :=
  (W4_of_ne m ρ c main_v12 (by decide)).trans (at3_main_v12 m ρ c)
theorem at5_main_v12 : W5 m ρ c (Proc.devRef .tc main_v12) = val_main_v12 (F := Ideal) A1 :=
  (show StableHlo.after hostOps2 (W4 m ρ c) (Proc.devRef .tc main_v12) = W4 m ρ c (Proc.devRef .tc main_v12) by keep_host).trans (at4_main_v12 m ρ c)
theorem at6_main_v12 : W6 m ρ c (Proc.devRef .tc main_v12) = val_main_v12 (F := Ideal) A1 :=
  (W6_of_ne m ρ c main_v12 (by decide)).trans (at5_main_v12 m ρ c)
theorem at2_main_arg2 : W2 m ρ c (Proc.devRef .tc main_arg2) = A2 :=
  (W2_of_ne m ρ c main_arg2 (by decide)).trans (at1_main_arg2 m ρ c)
theorem at3_main_arg2 : W3 m ρ c (Proc.devRef .tc main_arg2) = A2 :=
  (show StableHlo.after hostOps1 (W2 m ρ c) (Proc.devRef .tc main_arg2) = W2 m ρ c (Proc.devRef .tc main_arg2) by keep_host).trans (at2_main_arg2 m ρ c)
theorem at4_main_arg2 : W4 m ρ c (Proc.devRef .tc main_arg2) = A2 :=
  (W4_of_ne m ρ c main_arg2 (by decide)).trans (at3_main_arg2 m ρ c)
theorem at5_main_arg2 : W5 m ρ c (Proc.devRef .tc main_arg2) = A2 :=
  (show StableHlo.after hostOps2 (W4 m ρ c) (Proc.devRef .tc main_arg2) = W4 m ρ c (Proc.devRef .tc main_arg2) by keep_host).trans (at4_main_arg2 m ρ c)
theorem at6_main_arg2 : W6 m ρ c (Proc.devRef .tc main_arg2) = A2 :=
  (W6_of_ne m ρ c main_arg2 (by decide)).trans (at5_main_arg2 m ρ c)
theorem at2_main_arg3 : W2 m ρ c (Proc.devRef .tc main_arg3) = A3 :=
  (W2_of_ne m ρ c main_arg3 (by decide)).trans (at1_main_arg3 m ρ c)
theorem at3_main_arg3 : W3 m ρ c (Proc.devRef .tc main_arg3) = A3 :=
  (show StableHlo.after hostOps1 (W2 m ρ c) (Proc.devRef .tc main_arg3) = W2 m ρ c (Proc.devRef .tc main_arg3) by keep_host).trans (at2_main_arg3 m ρ c)
theorem at4_main_arg3 : W4 m ρ c (Proc.devRef .tc main_arg3) = A3 :=
  (W4_of_ne m ρ c main_arg3 (by decide)).trans (at3_main_arg3 m ρ c)
theorem at5_main_arg3 : W5 m ρ c (Proc.devRef .tc main_arg3) = A3 :=
  (show StableHlo.after hostOps2 (W4 m ρ c) (Proc.devRef .tc main_arg3) = W4 m ρ c (Proc.devRef .tc main_arg3) by keep_host).trans (at4_main_arg3 m ρ c)
theorem at6_main_arg3 : W6 m ρ c (Proc.devRef .tc main_arg3) = A3 :=
  (W6_of_ne m ρ c main_arg3 (by decide)).trans (at5_main_arg3 m ρ c)
theorem at2_main_arg4 : W2 m ρ c (Proc.devRef .tc main_arg4) = A4 :=
  (W2_of_ne m ρ c main_arg4 (by decide)).trans (at1_main_arg4 m ρ c)
theorem at3_main_arg4 : W3 m ρ c (Proc.devRef .tc main_arg4) = A4 :=
  (show StableHlo.after hostOps1 (W2 m ρ c) (Proc.devRef .tc main_arg4) = W2 m ρ c (Proc.devRef .tc main_arg4) by keep_host).trans (at2_main_arg4 m ρ c)
theorem at4_main_arg4 : W4 m ρ c (Proc.devRef .tc main_arg4) = A4 :=
  (W4_of_ne m ρ c main_arg4 (by decide)).trans (at3_main_arg4 m ρ c)
theorem at5_main_arg4 : W5 m ρ c (Proc.devRef .tc main_arg4) = A4 :=
  (show StableHlo.after hostOps2 (W4 m ρ c) (Proc.devRef .tc main_arg4) = W4 m ρ c (Proc.devRef .tc main_arg4) by keep_host).trans (at4_main_arg4 m ρ c)
theorem at6_main_arg4 : W6 m ρ c (Proc.devRef .tc main_arg4) = A4 :=
  (W6_of_ne m ρ c main_arg4 (by decide)).trans (at5_main_arg4 m ρ c)
theorem at2_main_arg5 : W2 m ρ c (Proc.devRef .tc main_arg5) = A5 :=
  (W2_of_ne m ρ c main_arg5 (by decide)).trans (at1_main_arg5 m ρ c)
theorem at3_main_arg5 : W3 m ρ c (Proc.devRef .tc main_arg5) = A5 :=
  (show StableHlo.after hostOps1 (W2 m ρ c) (Proc.devRef .tc main_arg5) = W2 m ρ c (Proc.devRef .tc main_arg5) by keep_host).trans (at2_main_arg5 m ρ c)
theorem at4_main_arg5 : W4 m ρ c (Proc.devRef .tc main_arg5) = A5 :=
  (W4_of_ne m ρ c main_arg5 (by decide)).trans (at3_main_arg5 m ρ c)
theorem at5_main_arg5 : W5 m ρ c (Proc.devRef .tc main_arg5) = A5 :=
  (show StableHlo.after hostOps2 (W4 m ρ c) (Proc.devRef .tc main_arg5) = W4 m ρ c (Proc.devRef .tc main_arg5) by keep_host).trans (at4_main_arg5 m ρ c)
theorem at6_main_arg5 : W6 m ρ c (Proc.devRef .tc main_arg5) = A5 :=
  (W6_of_ne m ρ c main_arg5 (by decide)).trans (at5_main_arg5 m ρ c)
theorem at2_main_arg6 : W2 m ρ c (Proc.devRef .tc main_arg6) = A6 :=
  (W2_of_ne m ρ c main_arg6 (by decide)).trans (at1_main_arg6 m ρ c)
theorem at3_main_arg6 : W3 m ρ c (Proc.devRef .tc main_arg6) = A6 :=
  (show StableHlo.after hostOps1 (W2 m ρ c) (Proc.devRef .tc main_arg6) = W2 m ρ c (Proc.devRef .tc main_arg6) by keep_host).trans (at2_main_arg6 m ρ c)
theorem at4_main_arg6 : W4 m ρ c (Proc.devRef .tc main_arg6) = A6 :=
  (W4_of_ne m ρ c main_arg6 (by decide)).trans (at3_main_arg6 m ρ c)
theorem at5_main_arg6 : W5 m ρ c (Proc.devRef .tc main_arg6) = A6 :=
  (show StableHlo.after hostOps2 (W4 m ρ c) (Proc.devRef .tc main_arg6) = W4 m ρ c (Proc.devRef .tc main_arg6) by keep_host).trans (at4_main_arg6 m ρ c)
theorem at6_main_arg6 : W6 m ρ c (Proc.devRef .tc main_arg6) = A6 :=
  (W6_of_ne m ρ c main_arg6 (by decide)).trans (at5_main_arg6 m ρ c)
theorem at2_main_arg7 : W2 m ρ c (Proc.devRef .tc main_arg7) = A7 :=
  (W2_of_ne m ρ c main_arg7 (by decide)).trans (at1_main_arg7 m ρ c)
theorem at3_main_arg7 : W3 m ρ c (Proc.devRef .tc main_arg7) = A7 :=
  (show StableHlo.after hostOps1 (W2 m ρ c) (Proc.devRef .tc main_arg7) = W2 m ρ c (Proc.devRef .tc main_arg7) by keep_host).trans (at2_main_arg7 m ρ c)
theorem at4_main_arg7 : W4 m ρ c (Proc.devRef .tc main_arg7) = A7 :=
  (W4_of_ne m ρ c main_arg7 (by decide)).trans (at3_main_arg7 m ρ c)
theorem at5_main_arg7 : W5 m ρ c (Proc.devRef .tc main_arg7) = A7 :=
  (show StableHlo.after hostOps2 (W4 m ρ c) (Proc.devRef .tc main_arg7) = W4 m ρ c (Proc.devRef .tc main_arg7) by keep_host).trans (at4_main_arg7 m ρ c)
theorem at6_main_arg7 : W6 m ρ c (Proc.devRef .tc main_arg7) = A7 :=
  (W6_of_ne m ρ c main_arg7 (by decide)).trans (at5_main_arg7 m ρ c)
theorem at2_main_arg8 : W2 m ρ c (Proc.devRef .tc main_arg8) = A8 :=
  (W2_of_ne m ρ c main_arg8 (by decide)).trans (at1_main_arg8 m ρ c)
theorem at3_main_arg8 : W3 m ρ c (Proc.devRef .tc main_arg8) = A8 :=
  (show StableHlo.after hostOps1 (W2 m ρ c) (Proc.devRef .tc main_arg8) = W2 m ρ c (Proc.devRef .tc main_arg8) by keep_host).trans (at2_main_arg8 m ρ c)
theorem at4_main_arg8 : W4 m ρ c (Proc.devRef .tc main_arg8) = A8 :=
  (W4_of_ne m ρ c main_arg8 (by decide)).trans (at3_main_arg8 m ρ c)
theorem at5_main_arg8 : W5 m ρ c (Proc.devRef .tc main_arg8) = A8 :=
  (show StableHlo.after hostOps2 (W4 m ρ c) (Proc.devRef .tc main_arg8) = W4 m ρ c (Proc.devRef .tc main_arg8) by keep_host).trans (at4_main_arg8 m ρ c)
theorem at6_main_arg8 : W6 m ρ c (Proc.devRef .tc main_arg8) = A8 :=
  (W6_of_ne m ρ c main_arg8 (by decide)).trans (at5_main_arg8 m ρ c)
theorem at2_main_arg9 : W2 m ρ c (Proc.devRef .tc main_arg9) = A9 :=
  (W2_of_ne m ρ c main_arg9 (by decide)).trans (at1_main_arg9 m ρ c)
theorem at3_main_arg9 : W3 m ρ c (Proc.devRef .tc main_arg9) = A9 :=
  (show StableHlo.after hostOps1 (W2 m ρ c) (Proc.devRef .tc main_arg9) = W2 m ρ c (Proc.devRef .tc main_arg9) by keep_host).trans (at2_main_arg9 m ρ c)
theorem at4_main_arg9 : W4 m ρ c (Proc.devRef .tc main_arg9) = A9 :=
  (W4_of_ne m ρ c main_arg9 (by decide)).trans (at3_main_arg9 m ρ c)
theorem at5_main_arg9 : W5 m ρ c (Proc.devRef .tc main_arg9) = A9 :=
  (show StableHlo.after hostOps2 (W4 m ρ c) (Proc.devRef .tc main_arg9) = W4 m ρ c (Proc.devRef .tc main_arg9) by keep_host).trans (at4_main_arg9 m ρ c)
theorem at6_main_arg9 : W6 m ρ c (Proc.devRef .tc main_arg9) = A9 :=
  (W6_of_ne m ρ c main_arg9 (by decide)).trans (at5_main_arg9 m ρ c)
theorem at7_main_arg9 : W7 m ρ c (Proc.devRef .tc main_arg9) = A9 :=
  (show StableHlo.after hostOps3 (W6 m ρ c) (Proc.devRef .tc main_arg9) = W6 m ρ c (Proc.devRef .tc main_arg9) by keep_host).trans (at6_main_arg9 m ρ c)
theorem at8_main_arg9 : W8 m ρ c (Proc.devRef .tc main_arg9) = A9 :=
  (W8_of_ne m ρ c main_arg9 (by decide)).trans (at7_main_arg9 m ρ c)
theorem at2_main_arg10 : W2 m ρ c (Proc.devRef .tc main_arg10) = A10 :=
  (W2_of_ne m ρ c main_arg10 (by decide)).trans (at1_main_arg10 m ρ c)
theorem at3_main_arg10 : W3 m ρ c (Proc.devRef .tc main_arg10) = A10 :=
  (show StableHlo.after hostOps1 (W2 m ρ c) (Proc.devRef .tc main_arg10) = W2 m ρ c (Proc.devRef .tc main_arg10) by keep_host).trans (at2_main_arg10 m ρ c)
theorem at4_main_arg10 : W4 m ρ c (Proc.devRef .tc main_arg10) = A10 :=
  (W4_of_ne m ρ c main_arg10 (by decide)).trans (at3_main_arg10 m ρ c)
theorem at5_main_arg10 : W5 m ρ c (Proc.devRef .tc main_arg10) = A10 :=
  (show StableHlo.after hostOps2 (W4 m ρ c) (Proc.devRef .tc main_arg10) = W4 m ρ c (Proc.devRef .tc main_arg10) by keep_host).trans (at4_main_arg10 m ρ c)
theorem at6_main_arg10 : W6 m ρ c (Proc.devRef .tc main_arg10) = A10 :=
  (W6_of_ne m ρ c main_arg10 (by decide)).trans (at5_main_arg10 m ρ c)
theorem at7_main_arg10 : W7 m ρ c (Proc.devRef .tc main_arg10) = A10 :=
  (show StableHlo.after hostOps3 (W6 m ρ c) (Proc.devRef .tc main_arg10) = W6 m ρ c (Proc.devRef .tc main_arg10) by keep_host).trans (at6_main_arg10 m ρ c)
theorem at8_main_arg10 : W8 m ρ c (Proc.devRef .tc main_arg10) = A10 :=
  (W8_of_ne m ρ c main_arg10 (by decide)).trans (at7_main_arg10 m ρ c)
theorem at2_main_arg11 : W2 m ρ c (Proc.devRef .tc main_arg11) = A11 :=
  (W2_of_ne m ρ c main_arg11 (by decide)).trans (at1_main_arg11 m ρ c)
theorem at3_main_arg11 : W3 m ρ c (Proc.devRef .tc main_arg11) = A11 :=
  (show StableHlo.after hostOps1 (W2 m ρ c) (Proc.devRef .tc main_arg11) = W2 m ρ c (Proc.devRef .tc main_arg11) by keep_host).trans (at2_main_arg11 m ρ c)
theorem at4_main_arg11 : W4 m ρ c (Proc.devRef .tc main_arg11) = A11 :=
  (W4_of_ne m ρ c main_arg11 (by decide)).trans (at3_main_arg11 m ρ c)
theorem at5_main_arg11 : W5 m ρ c (Proc.devRef .tc main_arg11) = A11 :=
  (show StableHlo.after hostOps2 (W4 m ρ c) (Proc.devRef .tc main_arg11) = W4 m ρ c (Proc.devRef .tc main_arg11) by keep_host).trans (at4_main_arg11 m ρ c)
theorem at6_main_arg11 : W6 m ρ c (Proc.devRef .tc main_arg11) = A11 :=
  (W6_of_ne m ρ c main_arg11 (by decide)).trans (at5_main_arg11 m ρ c)
theorem at7_main_arg11 : W7 m ρ c (Proc.devRef .tc main_arg11) = A11 :=
  (show StableHlo.after hostOps3 (W6 m ρ c) (Proc.devRef .tc main_arg11) = W6 m ρ c (Proc.devRef .tc main_arg11) by keep_host).trans (at6_main_arg11 m ρ c)
theorem at8_main_arg11 : W8 m ρ c (Proc.devRef .tc main_arg11) = A11 :=
  (W8_of_ne m ρ c main_arg11 (by decide)).trans (at7_main_arg11 m ρ c)
theorem at2_main_arg12 : W2 m ρ c (Proc.devRef .tc main_arg12) = A12 :=
  (W2_of_ne m ρ c main_arg12 (by decide)).trans (at1_main_arg12 m ρ c)
theorem at3_main_arg12 : W3 m ρ c (Proc.devRef .tc main_arg12) = A12 :=
  (show StableHlo.after hostOps1 (W2 m ρ c) (Proc.devRef .tc main_arg12) = W2 m ρ c (Proc.devRef .tc main_arg12) by keep_host).trans (at2_main_arg12 m ρ c)
theorem at4_main_arg12 : W4 m ρ c (Proc.devRef .tc main_arg12) = A12 :=
  (W4_of_ne m ρ c main_arg12 (by decide)).trans (at3_main_arg12 m ρ c)
theorem at5_main_arg12 : W5 m ρ c (Proc.devRef .tc main_arg12) = A12 :=
  (show StableHlo.after hostOps2 (W4 m ρ c) (Proc.devRef .tc main_arg12) = W4 m ρ c (Proc.devRef .tc main_arg12) by keep_host).trans (at4_main_arg12 m ρ c)
theorem at6_main_arg12 : W6 m ρ c (Proc.devRef .tc main_arg12) = A12 :=
  (W6_of_ne m ρ c main_arg12 (by decide)).trans (at5_main_arg12 m ρ c)
theorem at7_main_arg12 : W7 m ρ c (Proc.devRef .tc main_arg12) = A12 :=
  (show StableHlo.after hostOps3 (W6 m ρ c) (Proc.devRef .tc main_arg12) = W6 m ρ c (Proc.devRef .tc main_arg12) by keep_host).trans (at6_main_arg12 m ρ c)
theorem at8_main_arg12 : W8 m ρ c (Proc.devRef .tc main_arg12) = A12 :=
  (W8_of_ne m ρ c main_arg12 (by decide)).trans (at7_main_arg12 m ρ c)
theorem at9_main_arg10 : W9 m ρ c (Proc.devRef .tc main_arg10) = A10 :=
  (show StableHlo.after hostOps4 (W8 m ρ c) (Proc.devRef .tc main_arg10) = W8 m ρ c (Proc.devRef .tc main_arg10) by keep_host).trans (at8_main_arg10 m ρ c)
theorem at9_main_arg12 : W9 m ρ c (Proc.devRef .tc main_arg12) = A12 :=
  (show StableHlo.after hostOps4 (W8 m ρ c) (Proc.devRef .tc main_arg12) = W8 m ρ c (Proc.devRef .tc main_arg12) by keep_host).trans (at8_main_arg12 m ρ c)

/-! ## What each layer kernel finds in its nine input arrays

For layer 1 the stretch before it reads the launch memory. For a later layer the stretch reads the previous layer's
output array (hypothesis `hX`: it holds the reference's previous layer output), the two index rows and the inverse
degree computed once, and the stacked parameters. Aggregated features, node features and the two weight matrices are
the reference's stages; the five rows are the reference's [128] vectors reshaped to one row. -/

set_option maxHeartbeats 4000000 in
theorem in0_agg : W1 m ρ c (Proc.devRef .tc main_v24) = val_main_v24 (F := Ideal) A0 A1 := by
  show StableHlo.after hostOps0 (W0 m ρ c) (Proc.devRef .tc main_v24) = _
  after_results_simp
  try rfl
theorem in0_x : W1 m ρ c (Proc.devRef .tc main_arg0) = A0 :=
  (show StableHlo.after hostOps0 (W0 m ρ c) (Proc.devRef .tc main_arg0) = W0 m ρ c (Proc.devRef .tc main_arg0) by keep_host).trans rfl
set_option maxHeartbeats 4000000 in
theorem in0_wl : W1 m ρ c (Proc.devRef .tc main_v27) = val_main_v27 (F := Ideal) A2 := by
  show StableHlo.after hostOps0 (W0 m ρ c) (Proc.devRef .tc main_v27) = _
  after_results_simp
  try rfl
set_option maxHeartbeats 4000000 in
theorem in0_wr : W1 m ρ c (Proc.devRef .tc main_v30) = val_main_v36 (F := Ideal) A4 := by
  show StableHlo.after hostOps0 (W0 m ρ c) (Proc.devRef .tc main_v30) = _
  after_results_simp
  try rfl
set_option maxHeartbeats 4000000 in
theorem in0_bl : W1 m ρ c (Proc.devRef .tc main_v41) = shapeCast S1x128 (val_main_v30 (F := Ideal) A3) shapeCasts_S128_S1x128 := by
  show StableHlo.after hostOps0 (W0 m ρ c) (Proc.devRef .tc main_v41) = _
  after_results_simp
  try rfl
set_option maxHeartbeats 4000000 in
theorem in0_g : W1 m ρ c (Proc.devRef .tc main_v42) = shapeCast S1x128 (val_main_v45 (F := Ideal) A5) shapeCasts_S128_S1x128 := by
  show StableHlo.after hostOps0 (W0 m ρ c) (Proc.devRef .tc main_v42) = _
  after_results_simp
  try rfl
set_option maxHeartbeats 4000000 in
theorem in0_be : W1 m ρ c (Proc.devRef .tc main_v43) = shapeCast S1x128 (val_main_v56 (F := Ideal) A6) shapeCasts_S128_S1x128 := by
  show StableHlo.after hostOps0 (W0 m ρ c) (Proc.devRef .tc main_v43) = _
  after_results_simp
  try rfl
set_option maxHeartbeats 4000000 in
theorem in0_rm : W1 m ρ c (Proc.devRef .tc main_v44) = shapeCast S1x128 (val_main_v40 (F := Ideal) A7) shapeCasts_S128_S1x128 := by
  show StableHlo.after hostOps0 (W0 m ρ c) (Proc.devRef .tc main_v44) = _
  after_results_simp
  try rfl
set_option maxHeartbeats 4000000 in
theorem in0_rv : W1 m ρ c (Proc.devRef .tc main_v45) = shapeCast S1x128 (val_main_v47 (F := Ideal) A8) shapeCasts_S128_S1x128 := by
  show StableHlo.after hostOps0 (W0 m ρ c) (Proc.devRef .tc main_v45) = _
  after_results_simp
  try rfl
set_option maxHeartbeats 4000000 in
theorem in1_agg (hX : W2 m ρ c (Proc.devRef .tc main_v46) = val_main_v60 (F := Ideal) A0 A1 A2 A3 A4 A5 A6 A7 A8) : W3 m ρ c (Proc.devRef .tc main_v58) = val_main_v72 (F := Ideal) A0 A1 A2 A3 A4 A5 A6 A7 A8 := by
  show StableHlo.after hostOps1 (W2 m ρ c) (Proc.devRef .tc main_v58) = _
  after_results_simp
  rw [hX, at2_main_v1 m ρ c, at2_main_v3 m ρ c, at2_main_v12 m ρ c]
  try rfl
theorem in1_x (hX : W2 m ρ c (Proc.devRef .tc main_v46) = val_main_v60 (F := Ideal) A0 A1 A2 A3 A4 A5 A6 A7 A8) : W3 m ρ c (Proc.devRef .tc main_v46) = val_main_v60 (F := Ideal) A0 A1 A2 A3 A4 A5 A6 A7 A8 :=
  (show StableHlo.after hostOps1 (W2 m ρ c) (Proc.devRef .tc main_v46) = W2 m ρ c (Proc.devRef .tc main_v46) by keep_host).trans hX
set_option maxHeartbeats 4000000 in
theorem in1_wl : W3 m ρ c (Proc.devRef .tc main_v61) = val_main_v75 (F := Ideal) A2 := by
  show StableHlo.after hostOps1 (W2 m ρ c) (Proc.devRef .tc main_v61) = _
  after_results_simp
  rw [at2_main_arg2 m ρ c]
  try rfl
set_option maxHeartbeats 4000000 in
theorem in1_wr : W3 m ρ c (Proc.devRef .tc main_v64) = val_main_v84 (F := Ideal) A4 := by
  show StableHlo.after hostOps1 (W2 m ρ c) (Proc.devRef .tc main_v64) = _
  after_results_simp
  rw [at2_main_arg4 m ρ c]
  try rfl
set_option maxHeartbeats 4000000 in
theorem in1_bl : W3 m ρ c (Proc.devRef .tc main_v75) = shapeCast S1x128 (val_main_v78 (F := Ideal) A3) shapeCasts_S128_S1x128 := by
  show StableHlo.after hostOps1 (W2 m ρ c) (Proc.devRef .tc main_v75) = _
  after_results_simp
  rw [at2_main_arg3 m ρ c]
  try rfl
set_option maxHeartbeats 4000000 in
theorem in1_g : W3 m ρ c (Proc.devRef .tc main_v76) = shapeCast S1x128 (val_main_v93 (F := Ideal) A5) shapeCasts_S128_S1x128 := by
  show StableHlo.after hostOps1 (W2 m ρ c) (Proc.devRef .tc main_v76) = _
  after_results_simp
  rw [at2_main_arg5 m ρ c]
  try rfl
set_option maxHeartbeats 4000000 in
theorem in1_be : W3 m ρ c (Proc.devRef .tc main_v77) = shapeCast S1x128 (val_main_v104 (F := Ideal) A6) shapeCasts_S128_S1x128 := by
  show StableHlo.after hostOps1 (W2 m ρ c) (Proc.devRef .tc main_v77) = _
  after_results_simp
  rw [at2_main_arg6 m ρ c]
  try rfl
set_option maxHeartbeats 4000000 in
theorem in1_rm : W3 m ρ c (Proc.devRef .tc main_v78) = shapeCast S1x128 (val_main_v88 (F := Ideal) A7) shapeCasts_S128_S1x128 := by
  show StableHlo.after hostOps1 (W2 m ρ c) (Proc.devRef .tc main_v78) = _
  after_results_simp
  rw [at2_main_arg7 m ρ c]
  try rfl
set_option maxHeartbeats 4000000 in
theorem in1_rv : W3 m ρ c (Proc.devRef .tc main_v79) = shapeCast S1x128 (val_main_v95 (F := Ideal) A8) shapeCasts_S128_S1x128 := by
  show StableHlo.after hostOps1 (W2 m ρ c) (Proc.devRef .tc main_v79) = _
  after_results_simp
  rw [at2_main_arg8 m ρ c]
  try rfl
set_option maxHeartbeats 4000000 in
theorem in2_agg (hX : W4 m ρ c (Proc.devRef .tc main_v80) = val_main_v108 (F := Ideal) A0 A1 A2 A3 A4 A5 A6 A7 A8) : W5 m ρ c (Proc.devRef .tc main_v92) = val_main_v120 (F := Ideal) A0 A1 A2 A3 A4 A5 A6 A7 A8 := by
  show StableHlo.after hostOps2 (W4 m ρ c) (Proc.devRef .tc main_v92) = _
  after_results_simp
  rw [hX, at4_main_v1 m ρ c, at4_main_v3 m ρ c, at4_main_v12 m ρ c]
  try rfl
theorem in2_x (hX : W4 m ρ c (Proc.devRef .tc main_v80) = val_main_v108 (F := Ideal) A0 A1 A2 A3 A4 A5 A6 A7 A8) : W5 m ρ c (Proc.devRef .tc main_v80) = val_main_v108 (F := Ideal) A0 A1 A2 A3 A4 A5 A6 A7 A8 :=
  (show StableHlo.after hostOps2 (W4 m ρ c) (Proc.devRef .tc main_v80) = W4 m ρ c (Proc.devRef .tc main_v80) by keep_host).trans hX
set_option maxHeartbeats 4000000 in
theorem in2_wl : W5 m ρ c (Proc.devRef .tc main_v95) = val_main_v123 (F := Ideal) A2 := by
  show StableHlo.after hostOps2 (W4 m ρ c) (Proc.devRef .tc main_v95) = _
  after_results_simp
  rw [at4_main_arg2 m ρ c]
  try rfl
set_option maxHeartbeats 4000000 in
theorem in2_wr : W5 m ρ c (Proc.devRef .tc main_v98) = val_main_v132 (F := Ideal) A4 := by
  show StableHlo.after hostOps2 (W4 m ρ c) (Proc.devRef .tc main_v98) = _
  after_results_simp
  rw [at4_main_arg4 m ρ c]
  try rfl
set_option maxHeartbeats 4000000 in
theorem in2_bl : W5 m ρ c (Proc.devRef .tc main_v109) = shapeCast S1x128 (val_main_v126 (F := Ideal) A3) shapeCasts_S128_S1x128 := by
  show StableHlo.after hostOps2 (W4 m ρ c) (Proc.devRef .tc main_v109) = _
  after_results_simp
  rw [at4_main_arg3 m ρ c]
  try rfl
set_option maxHeartbeats 4000000 in
theorem in2_g : W5 m ρ c (Proc.devRef .tc main_v110) = shapeCast S1x128 (val_main_v141 (F := Ideal) A5) shapeCasts_S128_S1x128 := by
  show StableHlo.after hostOps2 (W4 m ρ c) (Proc.devRef .tc main_v110) = _
  after_results_simp
  rw [at4_main_arg5 m ρ c]
  try rfl
set_option maxHeartbeats 4000000 in
theorem in2_be : W5 m ρ c (Proc.devRef .tc main_v111) = shapeCast S1x128 (val_main_v152 (F := Ideal) A6) shapeCasts_S128_S1x128 := by
  show StableHlo.after hostOps2 (W4 m ρ c) (Proc.devRef .tc main_v111) = _
  after_results_simp
  rw [at4_main_arg6 m ρ c]
  try rfl
set_option maxHeartbeats 4000000 in
theorem in2_rm : W5 m ρ c (Proc.devRef .tc main_v112) = shapeCast S1x128 (val_main_v136 (F := Ideal) A7) shapeCasts_S128_S1x128 := by
  show StableHlo.after hostOps2 (W4 m ρ c) (Proc.devRef .tc main_v112) = _
  after_results_simp
  rw [at4_main_arg7 m ρ c]
  try rfl
set_option maxHeartbeats 4000000 in
theorem in2_rv : W5 m ρ c (Proc.devRef .tc main_v113) = shapeCast S1x128 (val_main_v143 (F := Ideal) A8) shapeCasts_S128_S1x128 := by
  show StableHlo.after hostOps2 (W4 m ρ c) (Proc.devRef .tc main_v113) = _
  after_results_simp
  rw [at4_main_arg8 m ρ c]
  try rfl
set_option maxHeartbeats 4000000 in
theorem in3_agg (hX : W6 m ρ c (Proc.devRef .tc main_v114) = val_main_v156 (F := Ideal) A0 A1 A2 A3 A4 A5 A6 A7 A8) : W7 m ρ c (Proc.devRef .tc main_v126) = val_main_v168 (F := Ideal) A0 A1 A2 A3 A4 A5 A6 A7 A8 := by
  show StableHlo.after hostOps3 (W6 m ρ c) (Proc.devRef .tc main_v126) = _
  after_results_simp
  rw [hX, at6_main_v1 m ρ c, at6_main_v3 m ρ c, at6_main_v12 m ρ c]
  try rfl
theorem in3_x (hX : W6 m ρ c (Proc.devRef .tc main_v114) = val_main_v156 (F := Ideal) A0 A1 A2 A3 A4 A5 A6 A7 A8) : W7 m ρ c (Proc.devRef .tc main_v114) = val_main_v156 (F := Ideal) A0 A1 A2 A3 A4 A5 A6 A7 A8 :=
  (show StableHlo.after hostOps3 (W6 m ρ c) (Proc.devRef .tc main_v114) = W6 m ρ c (Proc.devRef .tc main_v114) by keep_host).trans hX
set_option maxHeartbeats 4000000 in
theorem in3_wl : W7 m ρ c (Proc.devRef .tc main_v129) = val_main_v171 (F := Ideal) A2 := by
  show StableHlo.after hostOps3 (W6 m ρ c) (Proc.devRef .tc main_v129) = _
  after_results_simp
  rw [at6_main_arg2 m ρ c]
  try rfl
set_option maxHeartbeats 4000000 in
theorem in3_wr : W7 m ρ c (Proc.devRef .tc main_v132) = val_main_v180 (F := Ideal) A4 := by
  show StableHlo.after hostOps3 (W6 m ρ c) (Proc.devRef .tc main_v132) = _
  after_results_simp
  rw [at6_main_arg4 m ρ c]
  try rfl
set_option maxHeartbeats 4000000 in
theorem in3_bl : W7 m ρ c (Proc.devRef .tc main_v143) = shapeCast S1x128 (val_main_v174 (F := Ideal) A3) shapeCasts_S128_S1x128 := by
  show StableHlo.after hostOps3 (W6 m ρ c) (Proc.devRef .tc main_v143) = _
  after_results_simp
  rw [at6_main_arg3 m ρ c]
  try rfl
set_option maxHeartbeats 4000000 in
theorem in3_g : W7 m ρ c (Proc.devRef .tc main_v144) = shapeCast S1x128 (val_main_v189 (F := Ideal) A5) shapeCasts_S128_S1x128 := by
  show StableHlo.after hostOps3 (W6 m ρ c) (Proc.devRef .tc main_v144) = _
  after_results_simp
  rw [at6_main_arg5 m ρ c]
  try rfl
set_option maxHeartbeats 4000000 in
theorem in3_be : W7 m ρ c (Proc.devRef .tc main_v145) = shapeCast S1x128 (val_main_v200 (F := Ideal) A6) shapeCasts_S128_S1x128 := by
  show StableHlo.after hostOps3 (W6 m ρ c) (Proc.devRef .tc main_v145) = _
  after_results_simp
  rw [at6_main_arg6 m ρ c]
  try rfl
set_option maxHeartbeats 4000000 in
theorem in3_rm : W7 m ρ c (Proc.devRef .tc main_v146) = shapeCast S1x128 (val_main_v184 (F := Ideal) A7) shapeCasts_S128_S1x128 := by
  show StableHlo.after hostOps3 (W6 m ρ c) (Proc.devRef .tc main_v146) = _
  after_results_simp
  rw [at6_main_arg7 m ρ c]
  try rfl
set_option maxHeartbeats 4000000 in
theorem in3_rv : W7 m ρ c (Proc.devRef .tc main_v147) = shapeCast S1x128 (val_main_v191 (F := Ideal) A8) shapeCasts_S128_S1x128 := by
  show StableHlo.after hostOps3 (W6 m ρ c) (Proc.devRef .tc main_v147) = _
  after_results_simp
  rw [at6_main_arg8 m ρ c]
  try rfl

/-! ## What the head kernel finds, and what the last two host operations make of its result -/

theorem in4_x (hX : W8 m ρ c (Proc.devRef .tc main_v148) = val_main_v204 (F := Ideal) A0 A1 A2 A3 A4 A5 A6 A7 A8) :
    W9 m ρ c (Proc.devRef .tc main_v148) = val_main_v204 (F := Ideal) A0 A1 A2 A3 A4 A5 A6 A7 A8 :=
  (show StableHlo.after hostOps4 (W8 m ρ c) (Proc.devRef .tc main_v148) = W8 m ρ c (Proc.devRef .tc main_v148) by keep_host).trans hX

/-- The first head weights, each head's matrix transposed. -/
theorem in4_w1 : W9 m ρ c (Proc.devRef .tc main_v149) = transpose S5x128x64 [0, 2, 1] A9 transposes_S5x64x128_S5x128x64_0_2_1 := by
  show StableHlo.after hostOps4 (W8 m ρ c) (Proc.devRef .tc main_v149) = _
  after_results_simp
  rw [at8_main_arg9 m ρ c]
  try rfl

/-- The second head weights, each head's row transposed to a column. -/
theorem in4_w2 : W9 m ρ c (Proc.devRef .tc main_v150) = transpose S5x64x1 [0, 2, 1] A11 transposes_S5x1x64_S5x64x1_0_2_1 := by
  show StableHlo.after hostOps4 (W8 m ρ c) (Proc.devRef .tc main_v150) = _
  after_results_simp
  rw [at8_main_arg11 m ρ c]
  try rfl

/-- The result: the head kernel's [100000,5] array transposed to [5,100000] and given a trailing unit axis. -/
theorem tail : W11 m ρ c (Proc.devRef .tc main_v153)
    = broadcastInDim S5x100000x1 ![0, 1] bcast_S5x100000_S5x100000x1_0_1
        (transpose S5x100000 [1, 0] (W10 m ρ c (Proc.devRef .tc main_v151)) transposes_S100000x5_S5x100000_1_0) := by
  show StableHlo.after hostOps5 (W10 m ρ c) (Proc.devRef .tc main_v153) = _
  after_results_simp

end Cert.KernelIdeal.Chain

end
-- ==== Proof.SageSpec.lean ====
/-
  One entry of a mean-aggregation graph layer followed by inference-mode batch normalisation and a
  rectifier, and one entry of a two-layer sigmoid head, written on the extended reals.

  A layer's entry at (node r, channel q) depends on row r of the aggregated features `a` and of the
  node features `x`, on column q of the two weight matrices `wl`, `wr`, and on entry q of the bias
  and of the four normalisation vectors:
      max ( ((Σₖ a k · wl k + Σₖ x k · wr k) + bl − rm) · (g · rsqrt (rv + ε)) + be ) 0 .
  A head's entry at (node r, head h) depends on row r of the features and on head h's two weight
  arrays and biases:
      σ ( Σₒ max (Σₖ x k · w1 k o + b1 o) 0 · w2 o + b2 ) ,  σ t = 1 / (1 + e^(−t)).
  The two float words that occur (ε and 0) are kept as the words both programs print.
-/
import Idealize.ShloMosaic.PureOps.Ideal

noncomputable section

open scoped BigOperators

namespace Cert.Sage

open Idealize.ShloMosaic

/-- The batch-norm epsilon: the extended real the printed f32 word denotes. -/
def eps : EReal := Ideal.ofBits .f32 0x3727C5AC#32

/-- The rectifier's floor: the extended real the zero word denotes. -/
def zero : EReal := Ideal.ofBits .f32 0x00000000#32

/-- One entry of a layer's output. -/
def layerAt (a x wl wr : Fin 128 → EReal) (bl g be rm rv : EReal) : EReal :=
  max ((((∑ k, a k * wl k) + (∑ k, x k * wr k)) + bl - rm) * (g * Ideal.rsqrt (rv + eps)) + be) zero

/-- One entry of a head's output. -/
def headAt (x : Fin 128 → EReal) (w1 : Fin 128 → Fin 64 → EReal) (b1 w2 : Fin 64 → EReal) (b2 : EReal) : EReal :=
  Ideal.logistic ((∑ o, max ((∑ k, x k * w1 k o) + b1 o) zero * w2 o) + b2)

end Cert.Sage

end
-- ==== Proof.LibDotSum.lean ====
/-
  A matrix product's contraction as a plain sum over the shared axis, for any record of dimension numbers whose operand
  indices are known coordinate by coordinate (at a printed program's literal records those coordinate facts hold by
  computation). Two forms: rows × columns (rank 2 by rank 2), and the same with one leading batch axis shared by both
  operands and the result (rank 3 by rank 3).
-/
import Idealize.ShloMosaic.Lib.ValueIdx

noncomputable section

open scoped BigOperators

namespace Cert.LibDotSum

open Idealize.ShloMosaic Idealize.ShloMosaic.ValueIdx

/-- `M × K` by `K × N`: the sum over the record's contraction index of a function of the two operand indices is the sum
    over `k : Fin K` of it at `(row, k)` and `(k, column)`. -/
theorem plain {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    {α : Type} [AddCommMonoid α] (f : (⟨2, ![M, K]⟩ : Shape).Idx → (⟨2, ![K, N]⟩ : Shape).Idx → α)
    (j : (⟨2, ![M, N]⟩ : Shape).Idx) :
    ∑ k : d.contr.Idx, f (d.lhsIdx j k) (d.rhsIdx j k) = ∑ k : Fin K, f (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a; apply Fin.ext
    match a with
    | ⟨0, _⟩ => exact hl0 j _
    | ⟨1, _⟩ => exact (hl1 j _).trans (contrEquiv1_symm_val d K hr hs k)
  have e2 : d.rhsIdx j ((contrEquiv1 d K hr hs).symm k) = ix2 k (j 1) := by
    funext a; apply Fin.ext
    match a with
    | ⟨0, _⟩ => exact (hr0 j _).trans (contrEquiv1_symm_val d K hr hs k)
    | ⟨1, _⟩ => exact hr1 j _
  exact congrArg₂ f e1 e2

/-- `B × M × K` by `B × K × N` with the leading axis a batch axis: at result index `(b, row, column)` the sum over `k : Fin K`
    of the function at `(b, row, k)` and `(b, k, column)`. -/
theorem batched {B M K N : Nat} (d : DotDims ⟨3, ![B, M, K]⟩ ⟨3, ![B, K, N]⟩ ⟨3, ![B, M, N]⟩)
    (hr : d.contr.rank = 1) (hs : d.contr.size ⟨0, by omega⟩ = K)
    (hl0 : ∀ j k, (d.lhsIdx j k 0).val = (j 0).val)
    (hl1 : ∀ j k, (d.lhsIdx j k 1).val = (j 1).val)
    (hl2 : ∀ j k, (d.lhsIdx j k 2).val = (k ⟨0, by omega⟩).val)
    (hr0 : ∀ j k, (d.rhsIdx j k 0).val = (j 0).val)
    (hr1 : ∀ j k, (d.rhsIdx j k 1).val = (k ⟨0, by omega⟩).val)
    (hr2 : ∀ j k, (d.rhsIdx j k 2).val = (j 2).val)
    {α : Type} [AddCommMonoid α] (f : (⟨3, ![B, M, K]⟩ : Shape).Idx → (⟨3, ![B, K, N]⟩ : Shape).Idx → α)
    (j : (⟨3, ![B, M, N]⟩ : Shape).Idx) :
    ∑ k : d.contr.Idx, f (d.lhsIdx j k) (d.rhsIdx j k) = ∑ k : Fin K, f (ix3 (j 0) (j 1) k) (ix3 (j 0) k (j 2)) := by
  rw [← Equiv.sum_comp (contrEquiv1 d K hr hs).symm]
  refine Finset.sum_congr rfl fun k _ => ?_
  have e1 : d.lhsIdx j ((contrEquiv1 d K hr hs).symm k) = ix3 (j 0) (j 1) k := by
    funext a; apply Fin.ext
    match a with
    | ⟨0, _⟩ => exact hl0 j _
    | ⟨1, _⟩ => exact hl1 j _
    | ⟨2, _⟩ => exact (hl2 j _).trans (contrEquiv1_symm_val d K hr hs k)
  have e2 : d.rhsIdx j ((contrEquiv1 d K hr hs).symm k) = ix3 (j 0) k (j 2) := by
    funext a; apply Fin.ext
    match a with
    | ⟨0, _⟩ => exact hr0 j _
    | ⟨1, _⟩ => exact (hr1 j _).trans (contrEquiv1_symm_val d K hr hs k)
    | ⟨2, _⟩ => exact hr2 j _
  exact congrArg₂ f e1 e2

end Cert.LibDotSum

end
-- ==== Proof.LibMatProd.lean ====
/-
  Matrix products at the exact (extended-real) reading, element by element. A rows-by-columns product, whether the host's
  `dot_general` or a kernel's matmul into a zero accumulator whose operands were first narrowed to a shorter float format
  (a change of format is the identity on exact values), is at (r, c) the sum over the shared axis of A(r, k) · B(k, c).
  Both are stated for any record of dimension numbers whose operand indices are known coordinate by coordinate.
-/
import Idealize.ShloMosaic.PureOps.Ideal.Laws
import Idealize.ShloMosaic.Lib.ValueIdx
import proofs.«110522_j10282151707181_1_alg».proof.Proof.LibDotSum

noncomputable section

open scoped BigOperators

namespace Cert.Spec

open Idealize.ShloMosaic Idealize.ShloMosaic.ValueIdx

/-- The product of an `M × K` array by a `K × N` array: at (r, c) the sum over k of A(r, k) · B(k, c). -/
def rowsByCols {M K N : Nat} (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- Two `M × N` arrays added, then one row `b` added to every row, then the maximum with a fixed value `z`
    (with `z` zero: bias, then the rectifier). -/
def addRowMax {M N : Nat} (P Q : (⟨2, ![M, N]⟩ : Shape).Idx → EReal) (b : (⟨2, ![1, N]⟩ : Shape).Idx → EReal) (z : EReal) :
    (⟨2, ![M, N]⟩ : Shape).Idx → EReal :=
  fun j => max ((P j + Q j) + b (ix2 (0 : Fin 1) (j 1))) z

/-- One row `b` added to every row of an `M × N` array. -/
def addRow {M N : Nat} (P : (⟨2, ![M, N]⟩ : Shape).Idx → EReal) (b : (⟨2, ![1, N]⟩ : Shape).Idx → EReal) :
    (⟨2, ![M, N]⟩ : Shape).Idx → EReal :=
  fun j => P j + b (ix2 (0 : Fin 1) (j 1))

end Cert.Spec

namespace Cert.MatProd

open Idealize.ShloMosaic Idealize.ShloMosaic.ValueIdx

/-- The host's product of an `M × K` by a `K × N` array, at (r, c): `∑ k, A (r, k) · B (k, c)`. -/
theorem hostDot_apply {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (A : FVec Ideal ⟨2, ![M, K]⟩ .f32) (B : FVec Ideal ⟨2, ![K, N]⟩ .f32) (j : (⟨2, ![M, N]⟩ : Shape).Idx) :
    Host.dotGeneral (F := Ideal) d none A B j = Cert.Spec.rowsByCols A B j := by
  unfold Cert.Spec.rowsByCols
  simp only [Host.dotGeneral]
  rw [Ideal.dotGeneral_apply]
  exact Cert.LibDotSum.plain d hr hs hl0 hl1 hr0 hr1 (fun a b => A a * B b) j

/-- A kernel's matmul of two blocks narrowed to bf16, into the zero accumulator, at (r, c): the same sum of the
    un-narrowed blocks' products. -/
theorem tileDot_apply {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (A : FVec Ideal ⟨2, ![M, K]⟩ .f32) (B : FVec Ideal ⟨2, ![K, N]⟩ .f32)
    (hb : (FTy.bf16).bits < (FTy.f32).bits) (j : (⟨2, ![M, N]⟩ : Shape).Idx) :
    matmul (F := Ideal) d none (truncf .bf16 A hb) (truncf .bf16 B hb) (constant ⟨2, ![M, N]⟩ .f32 0x00000000#32) j
      = Cert.Spec.rowsByCols A B j := by
  unfold Cert.Spec.rowsByCols
  simp only [matmul]
  rw [Ideal.matmul_constant_zero_apply]
  exact Cert.LibDotSum.plain d hr hs hl0 hl1 hr0 hr1 (fun a b => A a * B b) j

end Cert.MatProd

end
-- ==== Proof.LibRowBias.lean ====
/-
  One row added to every row of an array: a [1, b] block broadcast over a rows reads, at (p, c), the block's one row at c.
-/
import Idealize.ShloMosaic.Lib.ValueIdx
import Idealize.ShloMosaic.Lib.ValueLayout
import Idealize.ShloMosaic.Lib.Pipeline.Value

noncomputable section

namespace Cert.RowBias

open Idealize.ShloMosaic Idealize.ShloMosaic.ValueIdx

/-- A `[1, b]` array broadcast to `[a, b]`, read at any index `y`: the one row at `y`'s column. -/
theorem bcastRow_apply {a b : ℕ} {α : Type} (v : (⟨2, ![1, b]⟩ : Shape).Idx → α)
    (h : (⟨2, ![1, b]⟩ : Shape).Broadcasts ⟨2, ![a, b]⟩) (y : (⟨2, ![a, b]⟩ : Shape).Idx) :
    broadcastTo ⟨2, ![a, b]⟩ v h y = v (ix2 (0 : Fin 1) (y 1)) := by
  obtain ⟨p, q, rfl⟩ : ∃ (p : Fin a) (q : Fin b), y = ix2 p q := ⟨y 0, y 1, eq_ix2 y⟩
  exact broadcastTo_1b_ab_apply v h p q

/-- A vector of `b` entries reshaped to one row, read at `(0, c)`: the entry `c`. -/
theorem rowOf_apply {b : ℕ} {α : Type} (x : (⟨1, ![b]⟩ : Shape).Idx → α) (h : (⟨1, ![b]⟩ : Shape).ShapeCasts ⟨2, ![1, b]⟩)
    (c : Fin b) : shapeCast ⟨2, ![1, b]⟩ x h (ix2 (0 : Fin 1) c) = x (ix1 c) :=
  shapeCast_a_1a_apply x h 0 c

end Cert.RowBias

end
-- ==== Proof.LayerKernel.lean ====
/-
  The layer kernel's value, entry by entry. Each of the four layer regions runs one body over twenty row blocks of 5000
  rows: the block's entry (p, q) is the rectified, normalised sum of two rows-by-columns products,
      max ( ((Σₖ a(p,k)·wl(k,q) + Σₖ x(p,k)·wr(k,q)) + bl(q) − rm(q)) · (g(q) · rsqrt (rv(q) + ε)) + be(q) ) 0 ,
  and the blocks tile the 100000 rows, so the output array at (r, q) is that expression of row r of the two large
  arrays, column q of the two weight matrices and entry q of the five row vectors, as the region finds them.
-/
import proofs.«110522_j10282151707181_1_alg».proof.Proof.Gen.KernelIdeal.Frame
import proofs.«110522_j10282151707181_1_alg».proof.Proof.SageSpec
import proofs.«110522_j10282151707181_1_alg».proof.Proof.LibMatProd
import proofs.«110522_j10282151707181_1_alg».proof.Proof.LibRowBias
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.LayerValue

open Cert.KernelIdeal Cert.KernelIdeal.Gen
open Idealize.ShloMosaic Idealize.ShloMosaic.TcCoe Idealize.ShloMosaic.ValueIdx Idealize.SL.Sem
open Idealize.ShloMosaic.Pipeline (Dat)

/-- The zero offsets of a whole-block access. -/
theorem zeroOff : (![0, 0] : Fin 2 → Nat) = fun _ => 0 := funext fun a => by fin_cases a <;> rfl

/-! ## One entry of the body's result, over any nine blocks -/

/-- The product record's coordinate facts: the left operand is read at (row of the entry, k), the right at (k, column). -/
theorem dot_l0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dot_l1 (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single rfl j k
theorem dot_r0 (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single rfl j k
theorem dot_r1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, at (p, q): the row of the left block against the column of the right. -/
theorem prod_apply (A : FVec Ideal S5000x128 .f32) (B : FVec Ideal S128x128 .f32) (hb : (FTy.bf16).bits < (FTy.f32).bits)
    (p : Fin 5000) (q : Fin 128) :
    matmul (F := Ideal) dot_S5000x128_S128x128_S5000x128_1_0_0_1_n_n none (truncf .bf16 A hb) (truncf .bf16 B hb)
        (constant S5000x128 .f32 0x00000000#32) (ix2 p q)
      = ∑ k : Fin 128, A (ix2 p k) * B (ix2 k q) :=
  Cert.MatProd.tileDot_apply dot_S5000x128_S128x128_S5000x128_1_0_0_1_n_n rfl rfl dot_l0 dot_l1 dot_r0 dot_r1 A B hb (ix2 p q)

/-- One entry of the body's arithmetic over any blocks: the rectified, normalised sum of the two block products. -/
theorem body_entry (A X : FVec Ideal S5000x128 .f32) (Wl Wr : FVec Ideal S128x128 .f32) (bl g be rm rv : FVec Ideal S1x128 .f32)
    (hb : (FTy.bf16).bits < (FTy.f32).bits) (hbc : S1x128.Broadcasts S5000x128) (p : Fin 5000) (q : Fin 128) :
    maximumf
        (addf
          (mulf
            (subf
              (addf
                (addf
                  (matmul (F := Ideal) dot_S5000x128_S128x128_S5000x128_1_0_0_1_n_n none (truncf .bf16 A hb) (truncf .bf16 Wl hb) (constant S5000x128 .f32 0x00000000#32))
                  (matmul (F := Ideal) dot_S5000x128_S128x128_S5000x128_1_0_0_1_n_n none (truncf .bf16 X hb) (truncf .bf16 Wr hb) (constant S5000x128 .f32 0x00000000#32)))
                (broadcastTo S5000x128 bl hbc))
              (broadcastTo S5000x128 rm hbc))
            (broadcastTo S5000x128 (mulf g (rsqrt (addf rv (broadcast S1x128 (Scalar.ofBits (F := Ideal) .f32 0x3727C5AC#32))))) hbc))
          (broadcastTo S5000x128 be hbc))
        (broadcast S5000x128 (Scalar.ofBits (F := Ideal) .f32 0x00000000#32)) (ix2 p q)
      = Cert.Sage.layerAt (fun k => A (ix2 p k)) (fun k => X (ix2 p k)) (fun k => Wl (ix2 k q)) (fun k => Wr (ix2 k q))
          (bl (ix2 0 q)) (g (ix2 0 q)) (be (ix2 0 q)) (rm (ix2 0 q)) (rv (ix2 0 q)) := by
  have h1 := prod_apply A Wl hb p q
  have h2 := prod_apply X Wr hb p q
  have h3 := broadcastTo_1b_ab_apply bl hbc p q
  have h4 := broadcastTo_1b_ab_apply rm hbc p q
  have h5 := broadcastTo_1b_ab_apply (mulf g (rsqrt (addf rv (broadcast S1x128 (Scalar.ofBits (F := Ideal) .f32 0x3727C5AC#32))))) hbc p q
  have h6 := broadcastTo_1b_ab_apply be hbc p q
  rw [maximumf_apply, addf_apply, mulf_apply, subf_apply, addf_apply, addf_apply, h1, h2, h3, h4, h5, h6]
  rfl

/-! ## Region 0: one entry of the body's result -/

/-- The body's result block at (p, q), over any nine input blocks. -/
theorem block0 (x0 x1 : Vec Ideal S5000x128 .f32) (x2 : Vec Ideal S128x128 .f32) (x3 : Vec Ideal S1x128 .f32) (x4 : Vec Ideal S128x128 .f32)
    (x5 x6 x7 x8 : Vec Ideal S1x128 .f32) (p : Fin 5000) (q : Fin 128) :
    Gen.out0_9 (F := Ideal) x0 x1 x2 x3 x4 x5 x6 x7 x8 (ix2 p q)
      = Cert.Sage.layerAt (fun k => x0 (ix2 p k)) (fun k => x1 (ix2 p k)) (fun k => x2 (ix2 k q)) (fun k => x4 (ix2 k q))
          (x3 (ix2 0 q)) (x5 (ix2 0 q)) (x6 (ix2 0 q)) (x7 (ix2 0 q)) (x8 (ix2 0 q)) := by
  unfold Gen.out0_9
  rw [View.canon_unit_zero zeroOff]
  simp only [View.ld_unit_zero (S := S5000x128) zeroOff, View.ld_unit_zero (S := S128x128) zeroOff, View.ld_unit_zero (S := S1x128) zeroOff]
  unfold Gen.k0_pay1 Gen.k0_pay2 Gen.k0_pay3
  simp only [shapeCast_self]
  exact body_entry x0 x1 x2 x4 x3 x5 x6 x7 x8 bitsLt_bf16_f32 broadcasts_S1x128_S5000x128 p q

/-! ## Region 0: from the blocks to the array -/

section Region0

variable (V : (c : Dev nD) → (b : Ref sig .tc) → Buf (Elt Ideal) ((c : Thread nD τ).loc b))

/-- The printed index maps over the grid: the three row-blocked windows sit at block row `t`, the small windows at block 0. -/
theorem idx0 : ∀ t : Fin cfg0.N,
    win0_9.index t (0 : Fin 2) = t.val ∧ win0_9.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Window 0's block at point `t` is rows `5000 t …` of its array. -/
theorem rows0_0 (c : Dev nD) (t : Fin cfg0.N) (p : Fin 5000) (k : Fin 128) (r : Fin 100000) (hr : r.val = 5000 * t.val + p.val) :
    (Gen.iblk0 V c 0 t : Vec Ideal S5000x128 .f32) (ix2 p k) = (V c main_v24 : S100000x128.Idx → EReal) (ix2 r k) := by
  obtain ⟨-, -, e0, e1, -⟩ := idx0 t
  unfold Gen.iblk0
  rw [View.read_apply]
  show V c main_v24 _ = V c main_v24 _
  congr 1
  funext a
  apply Fin.ext
  match a with
  | ⟨0, _⟩ => show win0_0.index t (0 : Fin 2) * 5000 + 1 * p.val = r.val; omega
  | ⟨1, _⟩ => show win0_0.index t (1 : Fin 2) * 128 + 1 * k.val = k.val; omega

/-- Window 1's block at point `t` is rows `5000 t …` of its array. -/
theorem rows0_1 (c : Dev nD) (t : Fin cfg0.N) (p : Fin 5000) (k : Fin 128) (r : Fin 100000) (hr : r.val = 5000 * t.val + p.val) :
    (Gen.iblk0 V c 1 t : Vec Ideal S5000x128 .f32) (ix2 p k) = (V c main_arg0 : S100000x128.Idx → EReal) (ix2 r k) := by
  obtain ⟨-, -, -, -, e0, e1, -⟩ := idx0 t
  unfold Gen.iblk0
  rw [View.read_apply]
  show V c main_arg0 _ = V c main_arg0 _
  congr 1
  funext a
  apply Fin.ext
  match a with
  | ⟨0, _⟩ => show win0_1.index t (0 : Fin 2) * 5000 + 1 * p.val = r.val; omega
  | ⟨1, _⟩ => show win0_1.index t (1 : Fin 2) * 128 + 1 * k.val = k.val; omega

/-- Each small window's block, at every point, is its whole array. -/
theorem whole0_2 (c : Dev nD) (t : Fin cfg0.N) : (Gen.iblk0 V c 2 t : Vec Ideal S128x128 .f32) = (V c main_v27 : S128x128.Idx → EReal) := by
  obtain ⟨-, -, -, -, -, -, e0, e1, -⟩ := idx0 t
  funext y
  unfold Gen.iblk0
  rw [View.read_apply]
  show V c main_v27 _ = V c main_v27 _
  congr 1
  funext a
  apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega
theorem whole0_3 (c : Dev nD) (t : Fin cfg0.N) : (Gen.iblk0 V c 3 t : Vec Ideal S1x128 .f32) = (V c main_v41 : S1x128.Idx → EReal) := by
  obtain ⟨-, -, -, -, -, -, -, -, e0, e1, -⟩ := idx0 t
  funext y
  unfold Gen.iblk0
  rw [View.read_apply]
  show V c main_v41 _ = V c main_v41 _
  congr 1
  funext a
  apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega
theorem whole0_4 (c : Dev nD) (t : Fin cfg0.N) : (Gen.iblk0 V c 4 t : Vec Ideal S128x128 .f32) = (V c main_v30 : S128x128.Idx → EReal) := by
  obtain ⟨-, -, -, -, -, -, -, -, -, -, e0, e1, -⟩ := idx0 t
  funext y
  unfold Gen.iblk0
  rw [View.read_apply]
  show V c main_v30 _ = V c main_v30 _
  congr 1
  funext a
  apply Fin.ext
  match a with
  | ⟨0, _⟩ => show win0_4.index t (0 : Fin 2) * 128 + 1 * (y 0).val = (y 0).val; omega
  | ⟨1, _⟩ => show win0_4.index t (1 : Fin 2) * 128 + 1 * (y 1).val = (y 1).val; omega
theorem whole0_5 (c : Dev nD) (t : Fin cfg0.N) : (Gen.iblk0 V c 5 t : Vec Ideal S1x128 .f32) = (V c main_v42 : S1x128.Idx → EReal) := by
  obtain ⟨-, -, -, -, -, -, -, -, -, -, -, -, e0, e1, -⟩ := idx0 t
  funext y
  unfold Gen.iblk0
  rw [View.read_apply]
  show V c main_v42 _ = V c main_v42 _
  congr 1
  funext a
  apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega
theorem whole0_6 (c : Dev nD) (t : Fin cfg0.N) : (Gen.iblk0 V c 6 t : Vec Ideal S1x128 .f32) = (V c main_v43 : S1x128.Idx → EReal) := by
  obtain ⟨-, -, -, -, -, -, -, -, -, -, -, -, -, -, e0, e1, -⟩ := idx0 t
  funext y
  unfold Gen.iblk0
  rw [View.read_apply]
  show V c main_v43 _ = V c main_v43 _
  congr 1
  funext a
  apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega
theorem whole0_7 (c : Dev nD) (t : Fin cfg0.N) : (Gen.iblk0 V c 7 t : Vec Ideal S1x128 .f32) = (V c main_v44 : S1x128.Idx → EReal) := by
  obtain ⟨-, -, -, -, -, -, -, -, -, -, -, -, -, -, -, -, e0, e1, -⟩ := idx0 t
  funext y
  unfold Gen.iblk0
  rw [View.read_apply]
  show V c main_v44 _ = V c main_v44 _
  congr 1
  funext a
  apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega
theorem whole0_8 (c : Dev nD) (t : Fin cfg0.N) : (Gen.iblk0 V c 8 t : Vec Ideal S1x128 .f32) = (V c main_v45 : S1x128.Idx → EReal) := by
  obtain ⟨-, -, -, -, -, -, -, -, -, -, -, -, -, -, -, -, -, -, e0, e1⟩ := idx0 t
  funext y
  unfold Gen.iblk0
  rw [View.read_apply]
  show V c main_v45 _ = V c main_v45 _
  congr 1
  funext a
  apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega

/-- The array the region leaves: at (r, q) the layer's entry of row r of the two large arrays, column q of the two
    weight matrices and entry q of the five row vectors, all as the region finds them. -/
def layerArr0 (c : Dev nD) : S100000x128.Idx → EReal := fun i =>
  Cert.Sage.layerAt (fun k => ((V c main_v24 : S100000x128.Idx → EReal) (ix2 (i 0) k))) (fun k => ((V c main_arg0 : S100000x128.Idx → EReal) (ix2 (i 0) k)))
    (fun k => ((V c main_v27 : S128x128.Idx → EReal) (ix2 k (i 1)))) (fun k => ((V c main_v30 : S128x128.Idx → EReal) (ix2 k (i 1))))
    ((V c main_v41 : S1x128.Idx → EReal) (ix2 0 (i 1))) ((V c main_v42 : S1x128.Idx → EReal) (ix2 0 (i 1))) ((V c main_v43 : S1x128.Idx → EReal) (ix2 0 (i 1)))
    ((V c main_v44 : S1x128.Idx → EReal) (ix2 0 (i 1))) ((V c main_v45 : S1x128.Idx → EReal) (ix2 0 (i 1)))

/-- One entry of the body's result over any blocks whose two large ones are known to be rows of two arrays. -/
theorem point0 (x0 x1 : Vec Ideal S5000x128 .f32) (x2 : Vec Ideal S128x128 .f32) (x3 : Vec Ideal S1x128 .f32) (x4 : Vec Ideal S128x128 .f32)
    (x5 x6 x7 x8 : Vec Ideal S1x128 .f32) (a0 a1 : S100000x128.Idx → EReal) (p : Fin 5000) (q : Fin 128) (r : Fin 100000)
    (h0 : ∀ k : Fin 128, x0 (ix2 p k) = a0 (ix2 r k)) (h1 : ∀ k : Fin 128, x1 (ix2 p k) = a1 (ix2 r k)) :
    Gen.out0_9 (F := Ideal) x0 x1 x2 x3 x4 x5 x6 x7 x8 (ix2 p q)
      = Cert.Sage.layerAt (fun k => a0 (ix2 r k)) (fun k => a1 (ix2 r k)) (fun k => x2 (ix2 k q)) (fun k => x4 (ix2 k q))
          (x3 (ix2 0 q)) (x5 (ix2 0 q)) (x6 (ix2 0 q)) (x7 (ix2 0 q)) (x8 (ix2 0 q)) := by
  rw [block0, funext h0, funext h1]

/-- What point `t` leaves in the output's staging buffer, entry by entry: the array's entries of the block's rows. -/
theorem flushedAt0 (c : Dev nD) (t : Fin cfg0.N) (j : S5000x128.Idx) :
    Gen.out0_9 (F := Ideal) (Gen.iblk0 V c 0 t) (Gen.iblk0 V c 1 t) (Gen.iblk0 V c 2 t) (Gen.iblk0 V c 3 t) (Gen.iblk0 V c 4 t)
        (Gen.iblk0 V c 5 t) (Gen.iblk0 V c 6 t) (Gen.iblk0 V c 7 t) (Gen.iblk0 V c 8 t) j
      = layerArr0 V c (((cfg0.win 9).blk t).view.emb j) := by
  obtain ⟨p, q, rfl⟩ : ∃ (p : Fin 5000) (q : Fin 128), j = ix2 p q := ⟨j 0, j 1, eq_ix2 j⟩
  obtain ⟨e0, e1, -⟩ := idx0 t
  have ht : t.val < 20 := lt_of_lt_of_eq t.isLt Gen.N_0
  have hemb : ((cfg0.win 9).blk t).view.emb (ix2 p q) = (ix2 (⟨5000 * t.val + p.val, by omega⟩ : Fin 100000) q : S100000x128.Idx) := by
    funext a
    apply Fin.ext
    match a with
    | ⟨0, _⟩ => show win0_9.index t (0 : Fin 2) * 5000 + 1 * p.val = 5000 * t.val + p.val; omega
    | ⟨1, _⟩ => show win0_9.index t (1 : Fin 2) * 128 + 1 * q.val = q.val; omega
  refine Eq.trans ?_ (congrArg (layerArr0 V c) hemb).symm
  refine (point0 (Gen.iblk0 V c 0 t) (Gen.iblk0 V c 1 t) (Gen.iblk0 V c 2 t) (Gen.iblk0 V c 3 t) (Gen.iblk0 V c 4 t)
    (Gen.iblk0 V c 5 t) (Gen.iblk0 V c 6 t) (Gen.iblk0 V c 7 t) (Gen.iblk0 V c 8 t) (V c main_v24) (V c main_arg0) p q
    ⟨5000 * t.val + p.val, by omega⟩ (fun k => rows0_0 V c t p k _ rfl) (fun k => rows0_1 V c t p k _ rfl)).trans ?_
  rw [whole0_2 V c t, whole0_3 V c t, whole0_4 V c t, whole0_5 V c t, whole0_6 V c t, whole0_7 V c t, whole0_8 V c t]
  rfl

/-- What point `t` writes back is block `t` of that array. -/
theorem flushed0 (c : Dev nD) (t : Fin cfg0.N) :
    (Gen.dat0 (F := Ideal) V c).flushed 9 t = ((cfg0.win 9).blk t).view.read (Elt Ideal) (layerArr0 V c) := by
  show (cfg0.win 9).cut (grid0.coords t) ((Gen.dat0 V c).after 9 t) = _
  rw [Gen.after0_9]
  funext j
  exact flushedAt0 V c t j

/-- Every row is in some point's block: row `r` in block `r / 5000`. -/
theorem cover0 (i : S100000x128.Idx) : ∃ t : Fin cfg0.N, (cfg0.win 9).flush t = true ∧ i ∈ ((cfg0.win 9).blk t).view.set := by
  have h0 : (i 0).val < 100000 := idx2_lt0 i
  have h1 : (i 1).val < 128 := idx2_lt1 i
  obtain ⟨t, ht⟩ : ∃ t : Fin cfg0.N, t.val = (i 0).val / 5000 := ⟨⟨(i 0).val / 5000, by rw [show cfg0.N = 20 from Gen.N_0]; omega⟩, rfl⟩
  obtain ⟨e0, e1, -⟩ := idx0 t
  refine ⟨t, Gen.flush0_9 t, ?_⟩
  show i ∈ ((View.whole main_v46).slice (win0_9.rect t)).set
  rw [View.set_slice_whole, Rect.mem_set_unit]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 128 ≤ (i 1).val ∧ (i 1).val < win0_9.index t (1 : Fin 2) * 128 + 128; omega

/-- The output array after the region is that array. -/
theorem layer0_array (c : Dev nD) : (Gen.dat0 (F := Ideal) V c).arrAt 9 cfg0.N = layerArr0 V c :=
  (Gen.dat0 V c).arrAt_eq_of_cover 9 (layerArr0 V c) (fun t _ => flushed0 V c t) cover0

/-- The output array after the region, entry by entry. -/
theorem layer0_final (c : Dev nD) (r : Fin 100000) (q : Fin 128) :
    ((Gen.dat0 (F := Ideal) V c).arrAt 9 cfg0.N : S100000x128.Idx → EReal) (ix2 r q)
      = Cert.Sage.layerAt (fun k => ((V c main_v24 : S100000x128.Idx → EReal) (ix2 r k))) (fun k => ((V c main_arg0 : S100000x128.Idx → EReal) (ix2 r k)))
          (fun k => ((V c main_v27 : S128x128.Idx → EReal) (ix2 k q))) (fun k => ((V c main_v30 : S128x128.Idx → EReal) (ix2 k q)))
          ((V c main_v41 : S1x128.Idx → EReal) (ix2 0 q)) ((V c main_v42 : S1x128.Idx → EReal) (ix2 0 q)) ((V c main_v43 : S1x128.Idx → EReal) (ix2 0 q))
          ((V c main_v44 : S1x128.Idx → EReal) (ix2 0 q)) ((V c main_v45 : S1x128.Idx → EReal) (ix2 0 q)) :=
  congrFun (layer0_array V c) (ix2 r q)

end Region0

/-! ## Region 1: one entry of the body's result -/

/-- The body's result block at (p, q), over any nine input blocks. -/
theorem block1 (x0 x1 : Vec Ideal S5000x128 .f32) (x2 : Vec Ideal S128x128 .f32) (x3 : Vec Ideal S1x128 .f32) (x4 : Vec Ideal S128x128 .f32)
    (x5 x6 x7 x8 : Vec Ideal S1x128 .f32) (p : Fin 5000) (q : Fin 128) :
    Gen.out1_9 (F := Ideal) x0 x1 x2 x3 x4 x5 x6 x7 x8 (ix2 p q)
      = Cert.Sage.layerAt (fun k => x0 (ix2 p k)) (fun k => x1 (ix2 p k)) (fun k => x2 (ix2 k q)) (fun k => x4 (ix2 k q))
          (x3 (ix2 0 q)) (x5 (ix2 0 q)) (x6 (ix2 0 q)) (x7 (ix2 0 q)) (x8 (ix2 0 q)) := by
  unfold Gen.out1_9
  rw [View.canon_unit_zero zeroOff]
  simp only [View.ld_unit_zero (S := S5000x128) zeroOff, View.ld_unit_zero (S := S128x128) zeroOff, View.ld_unit_zero (S := S1x128) zeroOff]
  unfold Gen.k1_pay1 Gen.k1_pay2
  simp only [shapeCast_self]
  exact body_entry x0 x1 x2 x4 x3 x5 x6 x7 x8 bitsLt_bf16_f32 broadcasts_S1x128_S5000x128 p q

/-! ## Region 1: from the blocks to the array -/

section Region1

variable (V : (c : Dev nD) → (b : Ref sig .tc) → Buf (Elt Ideal) ((c : Thread nD τ).loc b))

/-- The printed index maps over the grid: the three row-blocked windows sit at block row `t`, the small windows at block 0. -/
theorem idx1 : ∀ t : Fin cfg1.N,
    win1_9.index t (0 : Fin 2) = t.val ∧ win1_9.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- Window 0's block at point `t` is rows `5000 t …` of its array. -/
theorem rows1_0 (c : Dev nD) (t : Fin cfg1.N) (p : Fin 5000) (k : Fin 128) (r : Fin 100000) (hr : r.val = 5000 * t.val + p.val) :
    (Gen.iblk1 V c 0 t : Vec Ideal S5000x128 .f32) (ix2 p k) = (V c main_v58 : S100000x128.Idx → EReal) (ix2 r k) := by
  obtain ⟨-, -, e0, e1, -⟩ := idx1 t
  unfold Gen.iblk1
  rw [View.read_apply]
  show V c main_v58 _ = V c main_v58 _
  congr 1
  funext a
  apply Fin.ext
  match a with
  | ⟨0, _⟩ => show win1_0.index t (0 : Fin 2) * 5000 + 1 * p.val = r.val; omega
  | ⟨1, _⟩ => show win1_0.index t (1 : Fin 2) * 128 + 1 * k.val = k.val; omega

/-- Window 1's block at point `t` is rows `5000 t …` of its array. -/
theorem rows1_1 (c : Dev nD) (t : Fin cfg1.N) (p : Fin 5000) (k : Fin 128) (r : Fin 100000) (hr : r.val = 5000 * t.val + p.val) :
    (Gen.iblk1 V c 1 t : Vec Ideal S5000x128 .f32) (ix2 p k) = (V c main_v46 : S100000x128.Idx → EReal) (ix2 r k) := by
  obtain ⟨-, -, -, -, e0, e1, -⟩ := idx1 t
  unfold Gen.iblk1
  rw [View.read_apply]
  show V c main_v46 _ = V c main_v46 _
  congr 1
  funext a
  apply Fin.ext
  match a with
  | ⟨0, _⟩ => show win1_1.index t (0 : Fin 2) * 5000 + 1 * p.val = r.val; omega
  | ⟨1, _⟩ => show win1_1.index t (1 : Fin 2) * 128 + 1 * k.val = k.val; omega

/-- Each small window's block, at every point, is its whole array. -/
theorem whole1_2 (c : Dev nD) (t : Fin cfg1.N) : (Gen.iblk1 V c 2 t : Vec Ideal S128x128 .f32) = (V c main_v61 : S128x128.Idx → EReal) := by
  obtain ⟨-, -, -, -, -, -, e0, e1, -⟩ := idx1 t
  funext y
  unfold Gen.iblk1
  rw [View.read_apply]
  show V c main_v61 _ = V c main_v61 _
  congr 1
  funext a
  apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega
theorem whole1_3 (c : Dev nD) (t : Fin cfg1.N) : (Gen.iblk1 V c 3 t : Vec Ideal S1x128 .f32) = (V c main_v75 : S1x128.Idx → EReal) := by
  obtain ⟨-, -, -, -, -, -, -, -, e0, e1, -⟩ := idx1 t
  funext y
  unfold Gen.iblk1
  rw [View.read_apply]
  show V c main_v75 _ = V c main_v75 _
  congr 1
  funext a
  apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega
theorem whole1_4 (c : Dev nD) (t : Fin cfg1.N) : (Gen.iblk1 V c 4 t : Vec Ideal S128x128 .f32) = (V c main_v64 : S128x128.Idx → EReal) := by
  obtain ⟨-, -, -, -, -, -, -, -, -, -, e0, e1, -⟩ := idx1 t
  funext y
  unfold Gen.iblk1
  rw [View.read_apply]
  show V c main_v64 _ = V c main_v64 _
  congr 1
  funext a
  apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega
theorem whole1_5 (c : Dev nD) (t : Fin cfg1.N) : (Gen.iblk1 V c 5 t : Vec Ideal S1x128 .f32) = (V c main_v76 : S1x128.Idx → EReal) := by
  obtain ⟨-, -, -, -, -, -, -, -, -, -, -, -, e0, e1, -⟩ := idx1 t
  funext y
  unfold Gen.iblk1
  rw [View.read_apply]
  show V c main_v76 _ = V c main_v76 _
  congr 1
  funext a
  apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega
theorem whole1_6 (c : Dev nD) (t : Fin cfg1.N) : (Gen.iblk1 V c 6 t : Vec Ideal S1x128 .f32) = (V c main_v77 : S1x128.Idx → EReal) := by
  obtain ⟨-, -, -, -, -, -, -, -, -, -, -, -, -, -, e0, e1, -⟩ := idx1 t
  funext y
  unfold Gen.iblk1
  rw [View.read_apply]
  show V c main_v77 _ = V c main_v77 _
  congr 1
  funext a
  apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega
theorem whole1_7 (c : Dev nD) (t : Fin cfg1.N) : (Gen.iblk1 V c 7 t : Vec Ideal S1x128 .f32) = (V c main_v78 : S1x128.Idx → EReal) := by
  obtain ⟨-, -, -, -, -, -, -, -, -, -, -, -, -, -, -, -, e0, e1, -⟩ := idx1 t
  funext y
  unfold Gen.iblk1
  rw [View.read_apply]
  show V c main_v78 _ = V c main_v78 _
  congr 1
  funext a
  apply Fin.ext
  match a with
  | ⟨0, _⟩ => show win1_7.index t (0 : Fin 2) * 1 + 1 * (y 0).val = (y 0).val; omega
  | ⟨1, _⟩ => show win1_7.index t (1 : Fin 2) * 128 + 1 * (y 1).val = (y 1).val; omega
theorem whole1_8 (c : Dev nD) (t : Fin cfg1.N) : (Gen.iblk1 V c 8 t : Vec Ideal S1x128 .f32) = (V c main_v79 : S1x128.Idx → EReal) := by
  obtain ⟨-, -, -, -, -, -, -, -, -, -, -, -, -, -, -, -, -, -, e0, e1⟩ := idx1 t
  funext y
  unfold Gen.iblk1
  rw [View.read_apply]
  show V c main_v79 _ = V c main_v79 _
  congr 1
  funext a
  apply Fin.ext
  match a with
  | ⟨0, _⟩ => show win1_8.index t (0 : Fin 2) * 1 + 1 * (y 0).val = (y 0).val; omega
  | ⟨1, _⟩ => show win1_8.index t (1 : Fin 2) * 128 + 1 * (y 1).val = (y 1).val; omega

/-- The array the region leaves: at (r, q) the layer's entry of row r of the two large arrays, column q of the two
    weight matrices and entry q of the five row vectors, all as the region finds them. -/
def layerArr1 (c : Dev nD) : S100000x128.Idx → EReal := fun i =>
  Cert.Sage.layerAt (fun k => ((V c main_v58 : S100000x128.Idx → EReal) (ix2 (i 0) k))) (fun k => ((V c main_v46 : S100000x128.Idx → EReal) (ix2 (i 0) k)))
    (fun k => ((V c main_v61 : S128x128.Idx → EReal) (ix2 k (i 1)))) (fun k => ((V c main_v64 : S128x128.Idx → EReal) (ix2 k (i 1))))
    ((V c main_v75 : S1x128.Idx → EReal) (ix2 0 (i 1))) ((V c main_v76 : S1x128.Idx → EReal) (ix2 0 (i 1))) ((V c main_v77 : S1x128.Idx → EReal) (ix2 0 (i 1)))
    ((V c main_v78 : S1x128.Idx → EReal) (ix2 0 (i 1))) ((V c main_v79 : S1x128.Idx → EReal) (ix2 0 (i 1)))

/-- One entry of the body's result over any blocks whose two large ones are known to be rows of two arrays. -/
theorem point1 (x0 x1 : Vec Ideal S5000x128 .f32) (x2 : Vec Ideal S128x128 .f32) (x3 : Vec Ideal S1x128 .f32) (x4 : Vec Ideal S128x128 .f32)
    (x5 x6 x7 x8 : Vec Ideal S1x128 .f32) (a0 a1 : S100000x128.Idx → EReal) (p : Fin 5000) (q : Fin 128) (r : Fin 100000)
    (h0 : ∀ k : Fin 128, x0 (ix2 p k) = a0 (ix2 r k)) (h1 : ∀ k : Fin 128, x1 (ix2 p k) = a1 (ix2 r k)) :
    Gen.out1_9 (F := Ideal) x0 x1 x2 x3 x4 x5 x6 x7 x8 (ix2 p q)
      = Cert.Sage.layerAt (fun k => a0 (ix2 r k)) (fun k => a1 (ix2 r k)) (fun k => x2 (ix2 k q)) (fun k => x4 (ix2 k q))
          (x3 (ix2 0 q)) (x5 (ix2 0 q)) (x6 (ix2 0 q)) (x7 (ix2 0 q)) (x8 (ix2 0 q)) := by
  rw [block1, funext h0, funext h1]

/-- What point `t` leaves in the output's staging buffer, entry by entry: the array's entries of the block's rows. -/
theorem flushedAt1 (c : Dev nD) (t : Fin cfg1.N) (j : S5000x128.Idx) :
    Gen.out1_9 (F := Ideal) (Gen.iblk1 V c 0 t) (Gen.iblk1 V c 1 t) (Gen.iblk1 V c 2 t) (Gen.iblk1 V c 3 t) (Gen.iblk1 V c 4 t)
        (Gen.iblk1 V c 5 t) (Gen.iblk1 V c 6 t) (Gen.iblk1 V c 7 t) (Gen.iblk1 V c 8 t) j
      = layerArr1 V c (((cfg1.win 9).blk t).view.emb j) := by
  obtain ⟨p, q, rfl⟩ : ∃ (p : Fin 5000) (q : Fin 128), j = ix2 p q := ⟨j 0, j 1, eq_ix2 j⟩
  obtain ⟨e0, e1, -⟩ := idx1 t
  have ht : t.val < 20 := lt_of_lt_of_eq t.isLt Gen.N_1
  have hemb : ((cfg1.win 9).blk t).view.emb (ix2 p q) = (ix2 (⟨5000 * t.val + p.val, by omega⟩ : Fin 100000) q : S100000x128.Idx) := by
    funext a
    apply Fin.ext
    match a with
    | ⟨0, _⟩ => show win1_9.index t (0 : Fin 2) * 5000 + 1 * p.val = 5000 * t.val + p.val; omega
    | ⟨1, _⟩ => show win1_9.index t (1 : Fin 2) * 128 + 1 * q.val = q.val; omega
  refine Eq.trans ?_ (congrArg (layerArr1 V c) hemb).symm
  refine (point1 (Gen.iblk1 V c 0 t) (Gen.iblk1 V c 1 t) (Gen.iblk1 V c 2 t) (Gen.iblk1 V c 3 t) (Gen.iblk1 V c 4 t)
    (Gen.iblk1 V c 5 t) (Gen.iblk1 V c 6 t) (Gen.iblk1 V c 7 t) (Gen.iblk1 V c 8 t) (V c main_v58) (V c main_v46) p q
    ⟨5000 * t.val + p.val, by omega⟩ (fun k => rows1_0 V c t p k _ rfl) (fun k => rows1_1 V c t p k _ rfl)).trans ?_
  rw [whole1_2 V c t, whole1_3 V c t, whole1_4 V c t, whole1_5 V c t, whole1_6 V c t, whole1_7 V c t, whole1_8 V c t]
  rfl

/-- What point `t` writes back is block `t` of that array. -/
theorem flushed1 (c : Dev nD) (t : Fin cfg1.N) :
    (Gen.dat1 (F := Ideal) V c).flushed 9 t = ((cfg1.win 9).blk t).view.read (Elt Ideal) (layerArr1 V c) := by
  show (cfg1.win 9).cut (grid1.coords t) ((Gen.dat1 V c).after 9 t) = _
  rw [Gen.after1_9]
  funext j
  exact flushedAt1 V c t j

/-- Every row is in some point's block: row `r` in block `r / 5000`. -/
theorem cover1 (i : S100000x128.Idx) : ∃ t : Fin cfg1.N, (cfg1.win 9).flush t = true ∧ i ∈ ((cfg1.win 9).blk t).view.set := by
  have h0 : (i 0).val < 100000 := idx2_lt0 i
  have h1 : (i 1).val < 128 := idx2_lt1 i
  obtain ⟨t, ht⟩ : ∃ t : Fin cfg1.N, t.val = (i 0).val / 5000 := ⟨⟨(i 0).val / 5000, by rw [show cfg1.N = 20 from Gen.N_1]; omega⟩, rfl⟩
  obtain ⟨e0, e1, -⟩ := idx1 t
  refine ⟨t, Gen.flush1_9 t, ?_⟩
  show i ∈ ((View.whole main_v80).slice (win1_9.rect t)).set
  rw [View.set_slice_whole, Rect.mem_set_unit]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 128 ≤ (i 1).val ∧ (i 1).val < win1_9.index t (1 : Fin 2) * 128 + 128; omega

/-- The output array after the region is that array. -/
theorem layer1_array (c : Dev nD) : (Gen.dat1 (F := Ideal) V c).arrAt 9 cfg1.N = layerArr1 V c :=
  (Gen.dat1 V c).arrAt_eq_of_cover 9 (layerArr1 V c) (fun t _ => flushed1 V c t) cover1

/-- The output array after the region, entry by entry. -/
theorem layer1_final (c : Dev nD) (r : Fin 100000) (q : Fin 128) :
    ((Gen.dat1 (F := Ideal) V c).arrAt 9 cfg1.N : S100000x128.Idx → EReal) (ix2 r q)
      = Cert.Sage.layerAt (fun k => ((V c main_v58 : S100000x128.Idx → EReal) (ix2 r k))) (fun k => ((V c main_v46 : S100000x128.Idx → EReal) (ix2 r k)))
          (fun k => ((V c main_v61 : S128x128.Idx → EReal) (ix2 k q))) (fun k => ((V c main_v64 : S128x128.Idx → EReal) (ix2 k q)))
          ((V c main_v75 : S1x128.Idx → EReal) (ix2 0 q)) ((V c main_v76 : S1x128.Idx → EReal) (ix2 0 q)) ((V c main_v77 : S1x128.Idx → EReal) (ix2 0 q))
          ((V c main_v78 : S1x128.Idx → EReal) (ix2 0 q)) ((V c main_v79 : S1x128.Idx → EReal) (ix2 0 q)) :=
  congrFun (layer1_array V c) (ix2 r q)

end Region1

/-! ## Region 2: one entry of the body's result -/

/-- The body's result block at (p, q), over any nine input blocks. -/
theorem block2 (x0 x1 : Vec Ideal S5000x128 .f32) (x2 : Vec Ideal S128x128 .f32) (x3 : Vec Ideal S1x128 .f32) (x4 : Vec Ideal S128x128 .f32)
    (x5 x6 x7 x8 : Vec Ideal S1x128 .f32) (p : Fin 5000) (q : Fin 128) :
    Gen.out2_9 (F := Ideal) x0 x1 x2 x3 x4 x5 x6 x7 x8 (ix2 p q)
      = Cert.Sage.layerAt (fun k => x0 (ix2 p k)) (fun k => x1 (ix2 p k)) (fun k => x2 (ix2 k q)) (fun k => x4 (ix2 k q))
          (x3 (ix2 0 q)) (x5 (ix2 0 q)) (x6 (ix2 0 q)) (x7 (ix2 0 q)) (x8 (ix2 0 q)) := by
  unfold Gen.out2_9
  rw [View.canon_unit_zero zeroOff]
  simp only [View.ld_unit_zero (S := S5000x128) zeroOff, View.ld_unit_zero (S := S128x128) zeroOff, View.ld_unit_zero (S := S1x128) zeroOff]
  unfold Gen.k2_pay1 Gen.k2_pay2
  simp only [shapeCast_self]
  exact body_entry x0 x1 x2 x4 x3 x5 x6 x7 x8 bitsLt_bf16_f32 broadcasts_S1x128_S5000x128 p q

/-! ## Region 2: from the blocks to the array -/

section Region2

variable (V : (c : Dev nD) → (b : Ref sig .tc) → Buf (Elt Ideal) ((c : Thread nD τ).loc b))

/-- The printed index maps over the grid: the three row-blocked windows sit at block row `t`, the small windows at block 0. -/
theorem idx2 : ∀ t : Fin cfg2.N,
    win2_9.index t (0 : Fin 2) = t.val ∧ win2_9.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- Window 0's block at point `t` is rows `5000 t …` of its array. -/
theorem rows2_0 (c : Dev nD) (t : Fin cfg2.N) (p : Fin 5000) (k : Fin 128) (r : Fin 100000) (hr : r.val = 5000 * t.val + p.val) :
    (Gen.iblk2 V c 0 t : Vec Ideal S5000x128 .f32) (ix2 p k) = (V c main_v92 : S100000x128.Idx → EReal) (ix2 r k) := by
  obtain ⟨-, -, e0, e1, -⟩ := idx2 t
  unfold Gen.iblk2
  rw [View.read_apply]
  show V c main_v92 _ = V c main_v92 _
  congr 1
  funext a
  apply Fin.ext
  match a with
  | ⟨0, _⟩ => show win2_0.index t (0 : Fin 2) * 5000 + 1 * p.val = r.val; omega
  | ⟨1, _⟩ => show win2_0.index t (1 : Fin 2) * 128 + 1 * k.val = k.val; omega

/-- Window 1's block at point `t` is rows `5000 t …` of its array. -/
theorem rows2_1 (c : Dev nD) (t : Fin cfg2.N) (p : Fin 5000) (k : Fin 128) (r : Fin 100000) (hr : r.val = 5000 * t.val + p.val) :
    (Gen.iblk2 V c 1 t : Vec Ideal S5000x128 .f32) (ix2 p k) = (V c main_v80 : S100000x128.Idx → EReal) (ix2 r k) := by
  obtain ⟨-, -, -, -, e0, e1, -⟩ := idx2 t
  unfold Gen.iblk2
  rw [View.read_apply]
  show V c main_v80 _ = V c main_v80 _
  congr 1
  funext a
  apply Fin.ext
  match a with
  | ⟨0, _⟩ => show win2_1.index t (0 : Fin 2) * 5000 + 1 * p.val = r.val; omega
  | ⟨1, _⟩ => show win2_1.index t (1 : Fin 2) * 128 + 1 * k.val = k.val; omega

/-- Each small window's block, at every point, is its whole array. -/
theorem whole2_2 (c : Dev nD) (t : Fin cfg2.N) : (Gen.iblk2 V c 2 t : Vec Ideal S128x128 .f32) = (V c main_v95 : S128x128.Idx → EReal) := by
  obtain ⟨-, -, -, -, -, -, e0, e1, -⟩ := idx2 t
  funext y
  unfold Gen.iblk2
  rw [View.read_apply]
  show V c main_v95 _ = V c main_v95 _
  congr 1
  funext a
  apply Fin.ext
  match a with
  | ⟨0, _⟩ => show win2_2.index t (0 : Fin 2) * 128 + 1 * (y 0).val = (y 0).val; omega
  | ⟨1, _⟩ => show win2_2.index t (1 : Fin 2) * 128 + 1 * (y 1).val = (y 1).val; omega
theorem whole2_3 (c : Dev nD) (t : Fin cfg2.N) : (Gen.iblk2 V c 3 t : Vec Ideal S1x128 .f32) = (V c main_v109 : S1x128.Idx → EReal) := by
  obtain ⟨-, -, -, -, -, -, -, -, e0, e1, -⟩ := idx2 t
  funext y
  unfold Gen.iblk2
  rw [View.read_apply]
  show V c main_v109 _ = V c main_v109 _
  congr 1
  funext a
  apply Fin.ext
  match a with
  | ⟨0, _⟩ => show win2_3.index t (0 : Fin 2) * 1 + 1 * (y 0).val = (y 0).val; omega
  | ⟨1, _⟩ => show win2_3.index t (1 : Fin 2) * 128 + 1 * (y 1).val = (y 1).val; omega
theorem whole2_4 (c : Dev nD) (t : Fin cfg2.N) : (Gen.iblk2 V c 4 t : Vec Ideal S128x128 .f32) = (V c main_v98 : S128x128.Idx → EReal) := by
  obtain ⟨-, -, -, -, -, -, -, -, -, -, e0, e1, -⟩ := idx2 t
  funext y
  unfold Gen.iblk2
  rw [View.read_apply]
  show V c main_v98 _ = V c main_v98 _
  congr 1
  funext a
  apply Fin.ext
  match a with
  | ⟨0, _⟩ => show win2_4.index t (0 : Fin 2) * 128 + 1 * (y 0).val = (y 0).val; omega
  | ⟨1, _⟩ => show win2_4.index t (1 : Fin 2) * 128 + 1 * (y 1).val = (y 1).val; omega
theorem whole2_5 (c : Dev nD) (t : Fin cfg2.N) : (Gen.iblk2 V c 5 t : Vec Ideal S1x128 .f32) = (V c main_v110 : S1x128.Idx → EReal) := by
  obtain ⟨-, -, -, -, -, -, -, -, -, -, -, -, e0, e1, -⟩ := idx2 t
  funext y
  unfold Gen.iblk2
  rw [View.read_apply]
  show V c main_v110 _ = V c main_v110 _
  congr 1
  funext a
  apply Fin.ext
  match a with
  | ⟨0, _⟩ => show win2_5.index t (0 : Fin 2) * 1 + 1 * (y 0).val = (y 0).val; omega
  | ⟨1, _⟩ => show win2_5.index t (1 : Fin 2) * 128 + 1 * (y 1).val = (y 1).val; omega
theorem whole2_6 (c : Dev nD) (t : Fin cfg2.N) : (Gen.iblk2 V c 6 t : Vec Ideal S1x128 .f32) = (V c main_v111 : S1x128.Idx → EReal) := by
  obtain ⟨-, -, -, -, -, -, -, -, -, -, -, -, -, -, e0, e1, -⟩ := idx2 t
  funext y
  unfold Gen.iblk2
  rw [View.read_apply]
  show V c main_v111 _ = V c main_v111 _
  congr 1
  funext a
  apply Fin.ext
  match a with
  | ⟨0, _⟩ => show win2_6.index t (0 : Fin 2) * 1 + 1 * (y 0).val = (y 0).val; omega
  | ⟨1, _⟩ => show win2_6.index t (1 : Fin 2) * 128 + 1 * (y 1).val = (y 1).val; omega
theorem whole2_7 (c : Dev nD) (t : Fin cfg2.N) : (Gen.iblk2 V c 7 t : Vec Ideal S1x128 .f32) = (V c main_v112 : S1x128.Idx → EReal) := by
  obtain ⟨-, -, -, -, -, -, -, -, -, -, -, -, -, -, -, -, e0, e1, -⟩ := idx2 t
  funext y
  unfold Gen.iblk2
  rw [View.read_apply]
  show V c main_v112 _ = V c main_v112 _
  congr 1
  funext a
  apply Fin.ext
  match a with
  | ⟨0, _⟩ => show win2_7.index t (0 : Fin 2) * 1 + 1 * (y 0).val = (y 0).val; omega
  | ⟨1, _⟩ => show win2_7.index t (1 : Fin 2) * 128 + 1 * (y 1).val = (y 1).val; omega
theorem whole2_8 (c : Dev nD) (t : Fin cfg2.N) : (Gen.iblk2 V c 8 t : Vec Ideal S1x128 .f32) = (V c main_v113 : S1x128.Idx → EReal) := by
  obtain ⟨-, -, -, -, -, -, -, -, -, -, -, -, -, -, -, -, -, -, e0, e1⟩ := idx2 t
  funext y
  unfold Gen.iblk2
  rw [View.read_apply]
  show V c main_v113 _ = V c main_v113 _
  congr 1
  funext a
  apply Fin.ext
  match a with
  | ⟨0, _⟩ => show win2_8.index t (0 : Fin 2) * 1 + 1 * (y 0).val = (y 0).val; omega
  | ⟨1, _⟩ => show win2_8.index t (1 : Fin 2) * 128 + 1 * (y 1).val = (y 1).val; omega

/-- The array the region leaves: at (r, q) the layer's entry of row r of the two large arrays, column q of the two
    weight matrices and entry q of the five row vectors, all as the region finds them. -/
def layerArr2 (c : Dev nD) : S100000x128.Idx → EReal := fun i =>
  Cert.Sage.layerAt (fun k => ((V c main_v92 : S100000x128.Idx → EReal) (ix2 (i 0) k))) (fun k => ((V c main_v80 : S100000x128.Idx → EReal) (ix2 (i 0) k)))
    (fun k => ((V c main_v95 : S128x128.Idx → EReal) (ix2 k (i 1)))) (fun k => ((V c main_v98 : S128x128.Idx → EReal) (ix2 k (i 1))))
    ((V c main_v109 : S1x128.Idx → EReal) (ix2 0 (i 1))) ((V c main_v110 : S1x128.Idx → EReal) (ix2 0 (i 1))) ((V c main_v111 : S1x128.Idx → EReal) (ix2 0 (i 1)))
    ((V c main_v112 : S1x128.Idx → EReal) (ix2 0 (i 1))) ((V c main_v113 : S1x128.Idx → EReal) (ix2 0 (i 1)))

/-- One entry of the body's result over any blocks whose two large ones are known to be rows of two arrays. -/
theorem point2 (x0 x1 : Vec Ideal S5000x128 .f32) (x2 : Vec Ideal S128x128 .f32) (x3 : Vec Ideal S1x128 .f32) (x4 : Vec Ideal S128x128 .f32)
    (x5 x6 x7 x8 : Vec Ideal S1x128 .f32) (a0 a1 : S100000x128.Idx → EReal) (p : Fin 5000) (q : Fin 128) (r : Fin 100000)
    (h0 : ∀ k : Fin 128, x0 (ix2 p k) = a0 (ix2 r k)) (h1 : ∀ k : Fin 128, x1 (ix2 p k) = a1 (ix2 r k)) :
    Gen.out2_9 (F := Ideal) x0 x1 x2 x3 x4 x5 x6 x7 x8 (ix2 p q)
      = Cert.Sage.layerAt (fun k => a0 (ix2 r k)) (fun k => a1 (ix2 r k)) (fun k => x2 (ix2 k q)) (fun k => x4 (ix2 k q))
          (x3 (ix2 0 q)) (x5 (ix2 0 q)) (x6 (ix2 0 q)) (x7 (ix2 0 q)) (x8 (ix2 0 q)) := by
  rw [block2, funext h0, funext h1]

/-- What point `t` leaves in the output's staging buffer, entry by entry: the array's entries of the block's rows. -/
theorem flushedAt2 (c : Dev nD) (t : Fin cfg2.N) (j : S5000x128.Idx) :
    Gen.out2_9 (F := Ideal) (Gen.iblk2 V c 0 t) (Gen.iblk2 V c 1 t) (Gen.iblk2 V c 2 t) (Gen.iblk2 V c 3 t) (Gen.iblk2 V c 4 t)
        (Gen.iblk2 V c 5 t) (Gen.iblk2 V c 6 t) (Gen.iblk2 V c 7 t) (Gen.iblk2 V c 8 t) j
      = layerArr2 V c (((cfg2.win 9).blk t).view.emb j) := by
  obtain ⟨p, q, rfl⟩ : ∃ (p : Fin 5000) (q : Fin 128), j = ix2 p q := ⟨j 0, j 1, eq_ix2 j⟩
  obtain ⟨e0, e1, -⟩ := idx2 t
  have ht : t.val < 20 := lt_of_lt_of_eq t.isLt Gen.N_2
  have hemb : ((cfg2.win 9).blk t).view.emb (ix2 p q) = (ix2 (⟨5000 * t.val + p.val, by omega⟩ : Fin 100000) q : S100000x128.Idx) := by
    funext a
    apply Fin.ext
    match a with
    | ⟨0, _⟩ => show win2_9.index t (0 : Fin 2) * 5000 + 1 * p.val = 5000 * t.val + p.val; omega
    | ⟨1, _⟩ => show win2_9.index t (1 : Fin 2) * 128 + 1 * q.val = q.val; omega
  refine Eq.trans ?_ (congrArg (layerArr2 V c) hemb).symm
  refine (point2 (Gen.iblk2 V c 0 t) (Gen.iblk2 V c 1 t) (Gen.iblk2 V c 2 t) (Gen.iblk2 V c 3 t) (Gen.iblk2 V c 4 t)
    (Gen.iblk2 V c 5 t) (Gen.iblk2 V c 6 t) (Gen.iblk2 V c 7 t) (Gen.iblk2 V c 8 t) (V c main_v92) (V c main_v80) p q
    ⟨5000 * t.val + p.val, by omega⟩ (fun k => rows2_0 V c t p k _ rfl) (fun k => rows2_1 V c t p k _ rfl)).trans ?_
  rw [whole2_2 V c t, whole2_3 V c t, whole2_4 V c t, whole2_5 V c t, whole2_6 V c t, whole2_7 V c t, whole2_8 V c t]
  rfl

/-- What point `t` writes back is block `t` of that array. -/
theorem flushed2 (c : Dev nD) (t : Fin cfg2.N) :
    (Gen.dat2 (F := Ideal) V c).flushed 9 t = ((cfg2.win 9).blk t).view.read (Elt Ideal) (layerArr2 V c) := by
  show (cfg2.win 9).cut (grid2.coords t) ((Gen.dat2 V c).after 9 t) = _
  rw [Gen.after2_9]
  funext j
  exact flushedAt2 V c t j

/-- Every row is in some point's block: row `r` in block `r / 5000`. -/
theorem cover2 (i : S100000x128.Idx) : ∃ t : Fin cfg2.N, (cfg2.win 9).flush t = true ∧ i ∈ ((cfg2.win 9).blk t).view.set := by
  have h0 : (i 0).val < 100000 := idx2_lt0 i
  have h1 : (i 1).val < 128 := idx2_lt1 i
  obtain ⟨t, ht⟩ : ∃ t : Fin cfg2.N, t.val = (i 0).val / 5000 := ⟨⟨(i 0).val / 5000, by rw [show cfg2.N = 20 from Gen.N_2]; omega⟩, rfl⟩
  obtain ⟨e0, e1, -⟩ := idx2 t
  refine ⟨t, Gen.flush2_9 t, ?_⟩
  show i ∈ ((View.whole main_v114).slice (win2_9.rect t)).set
  rw [View.set_slice_whole, Rect.mem_set_unit]
  intro a
  match a with
  | ⟨0, _⟩ => show win2_9.index t (0 : Fin 2) * 5000 ≤ (i 0).val ∧ (i 0).val < win2_9.index t (0 : Fin 2) * 5000 + 5000; omega
  | ⟨1, _⟩ => show win2_9.index t (1 : Fin 2) * 128 ≤ (i 1).val ∧ (i 1).val < win2_9.index t (1 : Fin 2) * 128 + 128; omega

/-- The output array after the region is that array. -/
theorem layer2_array (c : Dev nD) : (Gen.dat2 (F := Ideal) V c).arrAt 9 cfg2.N = layerArr2 V c :=
  (Gen.dat2 V c).arrAt_eq_of_cover 9 (layerArr2 V c) (fun t _ => flushed2 V c t) cover2

/-- The output array after the region, entry by entry. -/
theorem layer2_final (c : Dev nD) (r : Fin 100000) (q : Fin 128) :
    ((Gen.dat2 (F := Ideal) V c).arrAt 9 cfg2.N : S100000x128.Idx → EReal) (ix2 r q)
      = Cert.Sage.layerAt (fun k => ((V c main_v92 : S100000x128.Idx → EReal) (ix2 r k))) (fun k => ((V c main_v80 : S100000x128.Idx → EReal) (ix2 r k)))
          (fun k => ((V c main_v95 : S128x128.Idx → EReal) (ix2 k q))) (fun k => ((V c main_v98 : S128x128.Idx → EReal) (ix2 k q)))
          ((V c main_v109 : S1x128.Idx → EReal) (ix2 0 q)) ((V c main_v110 : S1x128.Idx → EReal) (ix2 0 q)) ((V c main_v111 : S1x128.Idx → EReal) (ix2 0 q))
          ((V c main_v112 : S1x128.Idx → EReal) (ix2 0 q)) ((V c main_v113 : S1x128.Idx → EReal) (ix2 0 q)) :=
  congrFun (layer2_array V c) (ix2 r q)

end Region2

/-! ## Region 3: one entry of the body's result -/

/-- The body's result block at (p, q), over any nine input blocks. -/
theorem block3 (x0 x1 : Vec Ideal S5000x128 .f32) (x2 : Vec Ideal S128x128 .f32) (x3 : Vec Ideal S1x128 .f32) (x4 : Vec Ideal S128x128 .f32)
    (x5 x6 x7 x8 : Vec Ideal S1x128 .f32) (p : Fin 5000) (q : Fin 128) :
    Gen.out3_9 (F := Ideal) x0 x1 x2 x3 x4 x5 x6 x7 x8 (ix2 p q)
      = Cert.Sage.layerAt (fun k => x0 (ix2 p k)) (fun k => x1 (ix2 p k)) (fun k => x2 (ix2 k q)) (fun k => x4 (ix2 k q))
          (x3 (ix2 0 q)) (x5 (ix2 0 q)) (x6 (ix2 0 q)) (x7 (ix2 0 q)) (x8 (ix2 0 q)) := by
  unfold Gen.out3_9
  rw [View.canon_unit_zero zeroOff]
  simp only [View.ld_unit_zero (S := S5000x128) zeroOff, View.ld_unit_zero (S := S128x128) zeroOff, View.ld_unit_zero (S := S1x128) zeroOff]
  unfold Gen.k3_pay1 Gen.k3_pay2
  simp only [shapeCast_self]
  exact body_entry x0 x1 x2 x4 x3 x5 x6 x7 x8 bitsLt_bf16_f32 broadcasts_S1x128_S5000x128 p q

/-! ## Region 3: from the blocks to the array -/

section Region3

variable (V : (c : Dev nD) → (b : Ref sig .tc) → Buf (Elt Ideal) ((c : Thread nD τ).loc b))

/-- The printed index maps over the grid: the three row-blocked windows sit at block row `t`, the small windows at block 0. -/
theorem idx3 : ∀ t : Fin cfg3.N,
    win3_9.index t (0 : Fin 2) = t.val ∧ win3_9.index t (1 : Fin 2) = 0
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0 :=
  (by decide +kernel : ∀ t : Fin grid3.N, _)

/-- Window 0's block at point `t` is rows `5000 t …` of its array. -/
theorem rows3_0 (c : Dev nD) (t : Fin cfg3.N) (p : Fin 5000) (k : Fin 128) (r : Fin 100000) (hr : r.val = 5000 * t.val + p.val) :
    (Gen.iblk3 V c 0 t : Vec Ideal S5000x128 .f32) (ix2 p k) = (V c main_v126 : S100000x128.Idx → EReal) (ix2 r k) := by
  obtain ⟨-, -, e0, e1, -⟩ := idx3 t
  unfold Gen.iblk3
  rw [View.read_apply]
  show V c main_v126 _ = V c main_v126 _
  congr 1
  funext a
  apply Fin.ext
  match a with
  | ⟨0, _⟩ => show win3_0.index t (0 : Fin 2) * 5000 + 1 * p.val = r.val; omega
  | ⟨1, _⟩ => show win3_0.index t (1 : Fin 2) * 128 + 1 * k.val = k.val; omega

/-- Window 1's block at point `t` is rows `5000 t …` of its array. -/
theorem rows3_1 (c : Dev nD) (t : Fin cfg3.N) (p : Fin 5000) (k : Fin 128) (r : Fin 100000) (hr : r.val = 5000 * t.val + p.val) :
    (Gen.iblk3 V c 1 t : Vec Ideal S5000x128 .f32) (ix2 p k) = (V c main_v114 : S100000x128.Idx → EReal) (ix2 r k) := by
  obtain ⟨-, -, -, -, e0, e1, -⟩ := idx3 t
  unfold Gen.iblk3
  rw [View.read_apply]
  show V c main_v114 _ = V c main_v114 _
  congr 1
  funext a
  apply Fin.ext
  match a with
  | ⟨0, _⟩ => show win3_1.index t (0 : Fin 2) * 5000 + 1 * p.val = r.val; omega
  | ⟨1, _⟩ => show win3_1.index t (1 : Fin 2) * 128 + 1 * k.val = k.val; omega

/-- Each small window's block, at every point, is its whole array. -/
theorem whole3_2 (c : Dev nD) (t : Fin cfg3.N) : (Gen.iblk3 V c 2 t : Vec Ideal S128x128 .f32) = (V c main_v129 : S128x128.Idx → EReal) := by
  obtain ⟨-, -, -, -, -, -, e0, e1, -⟩ := idx3 t
  funext y
  unfold Gen.iblk3
  rw [View.read_apply]
  show V c main_v129 _ = V c main_v129 _
  congr 1
  funext a
  apply Fin.ext
  match a with
  | ⟨0, _⟩ => show win3_2.index t (0 : Fin 2) * 128 + 1 * (y 0).val = (y 0).val; omega
  | ⟨1, _⟩ => show win3_2.index t (1 : Fin 2) * 128 + 1 * (y 1).val = (y 1).val; omega
theorem whole3_3 (c : Dev nD) (t : Fin cfg3.N) : (Gen.iblk3 V c 3 t : Vec Ideal S1x128 .f32) = (V c main_v143 : S1x128.Idx → EReal) := by
  obtain ⟨-, -, -, -, -, -, -, -, e0, e1, -⟩ := idx3 t
  funext y
  unfold Gen.iblk3
  rw [View.read_apply]
  show V c main_v143 _ = V c main_v143 _
  congr 1
  funext a
  apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega
theorem whole3_4 (c : Dev nD) (t : Fin cfg3.N) : (Gen.iblk3 V c 4 t : Vec Ideal S128x128 .f32) = (V c main_v132 : S128x128.Idx → EReal) := by
  obtain ⟨-, -, -, -, -, -, -, -, -, -, e0, e1, -⟩ := idx3 t
  funext y
  unfold Gen.iblk3
  rw [View.read_apply]
  show V c main_v132 _ = V c main_v132 _
  congr 1
  funext a
  apply Fin.ext
  match a with
  | ⟨0, _⟩ => show win3_4.index t (0 : Fin 2) * 128 + 1 * (y 0).val = (y 0).val; omega
  | ⟨1, _⟩ => show win3_4.index t (1 : Fin 2) * 128 + 1 * (y 1).val = (y 1).val; omega
theorem whole3_5 (c : Dev nD) (t : Fin cfg3.N) : (Gen.iblk3 V c 5 t : Vec Ideal S1x128 .f32) = (V c main_v144 : S1x128.Idx → EReal) := by
  obtain ⟨-, -, -, -, -, -, -, -, -, -, -, -, e0, e1, -⟩ := idx3 t
  funext y
  unfold Gen.iblk3
  rw [View.read_apply]
  show V c main_v144 _ = V c main_v144 _
  congr 1
  funext a
  apply Fin.ext
  match a with
  | ⟨0, _⟩ => show win3_5.index t (0 : Fin 2) * 1 + 1 * (y 0).val = (y 0).val; omega
  | ⟨1, _⟩ => show win3_5.index t (1 : Fin 2) * 128 + 1 * (y 1).val = (y 1).val; omega
theorem whole3_6 (c : Dev nD) (t : Fin cfg3.N) : (Gen.iblk3 V c 6 t : Vec Ideal S1x128 .f32) = (V c main_v145 : S1x128.Idx → EReal) := by
  obtain ⟨-, -, -, -, -, -, -, -, -, -, -, -, -, -, e0, e1, -⟩ := idx3 t
  funext y
  unfold Gen.iblk3
  rw [View.read_apply]
  show V c main_v145 _ = V c main_v145 _
  congr 1
  funext a
  apply Fin.ext
  match a with
  | ⟨0, _⟩ => show win3_6.index t (0 : Fin 2) * 1 + 1 * (y 0).val = (y 0).val; omega
  | ⟨1, _⟩ => show win3_6.index t (1 : Fin 2) * 128 + 1 * (y 1).val = (y 1).val; omega
theorem whole3_7 (c : Dev nD) (t : Fin cfg3.N) : (Gen.iblk3 V c 7 t : Vec Ideal S1x128 .f32) = (V c main_v146 : S1x128.Idx → EReal) := by
  obtain ⟨-, -, -, -, -, -, -, -, -, -, -, -, -, -, -, -, e0, e1, -⟩ := idx3 t
  funext y
  unfold Gen.iblk3
  rw [View.read_apply]
  show V c main_v146 _ = V c main_v146 _
  congr 1
  funext a
  apply Fin.ext
  match a with
  | ⟨0, _⟩ => show win3_7.index t (0 : Fin 2) * 1 + 1 * (y 0).val = (y 0).val; omega
  | ⟨1, _⟩ => show win3_7.index t (1 : Fin 2) * 128 + 1 * (y 1).val = (y 1).val; omega
theorem whole3_8 (c : Dev nD) (t : Fin cfg3.N) : (Gen.iblk3 V c 8 t : Vec Ideal S1x128 .f32) = (V c main_v147 : S1x128.Idx → EReal) := by
  obtain ⟨-, -, -, -, -, -, -, -, -, -, -, -, -, -, -, -, -, -, e0, e1⟩ := idx3 t
  funext y
  unfold Gen.iblk3
  rw [View.read_apply]
  show V c main_v147 _ = V c main_v147 _
  congr 1
  funext a
  apply Fin.ext
  match a with
  | ⟨0, _⟩ => show win3_8.index t (0 : Fin 2) * 1 + 1 * (y 0).val = (y 0).val; omega
  | ⟨1, _⟩ => show win3_8.index t (1 : Fin 2) * 128 + 1 * (y 1).val = (y 1).val; omega

/-- The array the region leaves: at (r, q) the layer's entry of row r of the two large arrays, column q of the two
    weight matrices and entry q of the five row vectors, all as the region finds them. -/
def layerArr3 (c : Dev nD) : S100000x128.Idx → EReal := fun i =>
  Cert.Sage.layerAt (fun k => ((V c main_v126 : S100000x128.Idx → EReal) (ix2 (i 0) k))) (fun k => ((V c main_v114 : S100000x128.Idx → EReal) (ix2 (i 0) k)))
    (fun k => ((V c main_v129 : S128x128.Idx → EReal) (ix2 k (i 1)))) (fun k => ((V c main_v132 : S128x128.Idx → EReal) (ix2 k (i 1))))
    ((V c main_v143 : S1x128.Idx → EReal) (ix2 0 (i 1))) ((V c main_v144 : S1x128.Idx → EReal) (ix2 0 (i 1))) ((V c main_v145 : S1x128.Idx → EReal) (ix2 0 (i 1)))
    ((V c main_v146 : S1x128.Idx → EReal) (ix2 0 (i 1))) ((V c main_v147 : S1x128.Idx → EReal) (ix2 0 (i 1)))

/-- One entry of the body's result over any blocks whose two large ones are known to be rows of two arrays. -/
theorem point3 (x0 x1 : Vec Ideal S5000x128 .f32) (x2 : Vec Ideal S128x128 .f32) (x3 : Vec Ideal S1x128 .f32) (x4 : Vec Ideal S128x128 .f32)
    (x5 x6 x7 x8 : Vec Ideal S1x128 .f32) (a0 a1 : S100000x128.Idx → EReal) (p : Fin 5000) (q : Fin 128) (r : Fin 100000)
    (h0 : ∀ k : Fin 128, x0 (ix2 p k) = a0 (ix2 r k)) (h1 : ∀ k : Fin 128, x1 (ix2 p k) = a1 (ix2 r k)) :
    Gen.out3_9 (F := Ideal) x0 x1 x2 x3 x4 x5 x6 x7 x8 (ix2 p q)
      = Cert.Sage.layerAt (fun k => a0 (ix2 r k)) (fun k => a1 (ix2 r k)) (fun k => x2 (ix2 k q)) (fun k => x4 (ix2 k q))
          (x3 (ix2 0 q)) (x5 (ix2 0 q)) (x6 (ix2 0 q)) (x7 (ix2 0 q)) (x8 (ix2 0 q)) := by
  rw [block3, funext h0, funext h1]

/-- What point `t` leaves in the output's staging buffer, entry by entry: the array's entries of the block's rows. -/
theorem flushedAt3 (c : Dev nD) (t : Fin cfg3.N) (j : S5000x128.Idx) :
    Gen.out3_9 (F := Ideal) (Gen.iblk3 V c 0 t) (Gen.iblk3 V c 1 t) (Gen.iblk3 V c 2 t) (Gen.iblk3 V c 3 t) (Gen.iblk3 V c 4 t)
        (Gen.iblk3 V c 5 t) (Gen.iblk3 V c 6 t) (Gen.iblk3 V c 7 t) (Gen.iblk3 V c 8 t) j
      = layerArr3 V c (((cfg3.win 9).blk t).view.emb j) := by
  obtain ⟨p, q, rfl⟩ : ∃ (p : Fin 5000) (q : Fin 128), j = ix2 p q := ⟨j 0, j 1, eq_ix2 j⟩
  obtain ⟨e0, e1, -⟩ := idx3 t
  have ht : t.val < 20 := lt_of_lt_of_eq t.isLt Gen.N_3
  have hemb : ((cfg3.win 9).blk t).view.emb (ix2 p q) = (ix2 (⟨5000 * t.val + p.val, by omega⟩ : Fin 100000) q : S100000x128.Idx) := by
    funext a
    apply Fin.ext
    match a with
    | ⟨0, _⟩ => show win3_9.index t (0 : Fin 2) * 5000 + 1 * p.val = 5000 * t.val + p.val; omega
    | ⟨1, _⟩ => show win3_9.index t (1 : Fin 2) * 128 + 1 * q.val = q.val; omega
  refine Eq.trans ?_ (congrArg (layerArr3 V c) hemb).symm
  refine (point3 (Gen.iblk3 V c 0 t) (Gen.iblk3 V c 1 t) (Gen.iblk3 V c 2 t) (Gen.iblk3 V c 3 t) (Gen.iblk3 V c 4 t)
    (Gen.iblk3 V c 5 t) (Gen.iblk3 V c 6 t) (Gen.iblk3 V c 7 t) (Gen.iblk3 V c 8 t) (V c main_v126) (V c main_v114) p q
    ⟨5000 * t.val + p.val, by omega⟩ (fun k => rows3_0 V c t p k _ rfl) (fun k => rows3_1 V c t p k _ rfl)).trans ?_
  rw [whole3_2 V c t, whole3_3 V c t, whole3_4 V c t, whole3_5 V c t, whole3_6 V c t, whole3_7 V c t, whole3_8 V c t]
  rfl

/-- What point `t` writes back is block `t` of that array. -/
theorem flushed3 (c : Dev nD) (t : Fin cfg3.N) :
    (Gen.dat3 (F := Ideal) V c).flushed 9 t = ((cfg3.win 9).blk t).view.read (Elt Ideal) (layerArr3 V c) := by
  show (cfg3.win 9).cut (grid3.coords t) ((Gen.dat3 V c).after 9 t) = _
  rw [Gen.after3_9]
  funext j
  exact flushedAt3 V c t j

/-- Every row is in some point's block: row `r` in block `r / 5000`. -/
theorem cover3 (i : S100000x128.Idx) : ∃ t : Fin cfg3.N, (cfg3.win 9).flush t = true ∧ i ∈ ((cfg3.win 9).blk t).view.set := by
  have h0 : (i 0).val < 100000 := idx2_lt0 i
  have h1 : (i 1).val < 128 := idx2_lt1 i
  obtain ⟨t, ht⟩ : ∃ t : Fin cfg3.N, t.val = (i 0).val / 5000 := ⟨⟨(i 0).val / 5000, by rw [show cfg3.N = 20 from Gen.N_3]; omega⟩, rfl⟩
  obtain ⟨e0, e1, -⟩ := idx3 t
  refine ⟨t, Gen.flush3_9 t, ?_⟩
  show i ∈ ((View.whole main_v148).slice (win3_9.rect t)).set
  rw [View.set_slice_whole, Rect.mem_set_unit]
  intro a
  match a with
  | ⟨0, _⟩ => show win3_9.index t (0 : Fin 2) * 5000 ≤ (i 0).val ∧ (i 0).val < win3_9.index t (0 : Fin 2) * 5000 + 5000; omega
  | ⟨1, _⟩ => show win3_9.index t (1 : Fin 2) * 128 ≤ (i 1).val ∧ (i 1).val < win3_9.index t (1 : Fin 2) * 128 + 128; omega

/-- The output array after the region is that array. -/
theorem layer3_array (c : Dev nD) : (Gen.dat3 (F := Ideal) V c).arrAt 9 cfg3.N = layerArr3 V c :=
  (Gen.dat3 V c).arrAt_eq_of_cover 9 (layerArr3 V c) (fun t _ => flushed3 V c t) cover3

/-- The output array after the region, entry by entry. -/
theorem layer3_final (c : Dev nD) (r : Fin 100000) (q : Fin 128) :
    ((Gen.dat3 (F := Ideal) V c).arrAt 9 cfg3.N : S100000x128.Idx → EReal) (ix2 r q)
      = Cert.Sage.layerAt (fun k => ((V c main_v126 : S100000x128.Idx → EReal) (ix2 r k))) (fun k => ((V c main_v114 : S100000x128.Idx → EReal) (ix2 r k)))
          (fun k => ((V c main_v129 : S128x128.Idx → EReal) (ix2 k q))) (fun k => ((V c main_v132 : S128x128.Idx → EReal) (ix2 k q)))
          ((V c main_v143 : S1x128.Idx → EReal) (ix2 0 q)) ((V c main_v144 : S1x128.Idx → EReal) (ix2 0 q)) ((V c main_v145 : S1x128.Idx → EReal) (ix2 0 q))
          ((V c main_v146 : S1x128.Idx → EReal) (ix2 0 q)) ((V c main_v147 : S1x128.Idx → EReal) (ix2 0 q)) :=
  congrFun (layer3_array V c) (ix2 r q)

end Region3

end Cert.KernelIdeal.LayerValue

end
-- ==== Proof.HeadKernel.lean ====
/-
  The head region, entry by entry. Each grid point stages 5000 rows of the [100000,128] feature array and the whole of
  the five heads' weights and biases, and writes back a [5000,5] block whose entry (p, h) is
      σ ( Σₒ max (Σₖ x(p,k) · w1(h,k,o) + b1(h,o)) 0 · w2(h,o,0) + b2(h,0) ) ,
  the two-layer sigmoid head `Cert.Sage.headAt` of row p and of head h's slices. The body computes each head's column by
  two products into zero accumulators (a change of float format is the identity on exact values), a bias row added to
  every row, the rectifier, the second bias and the sigmoid, and stores the five columns side by side. The twenty blocks
  of 5000 rows tile the output array, so after the region its entry (r, h) is the head's entry of row r of the features
  and of head h's weights and biases as the region finds them.
-/
import proofs.«110522_j10282151707181_1_alg».proof.Proof.Gen.KernelIdeal.Frame
import proofs.«110522_j10282151707181_1_alg».proof.Proof.SageSpec
import proofs.«110522_j10282151707181_1_alg».proof.Proof.LibMatProd
import proofs.«110522_j10282151707181_1_alg».proof.Proof.LibRowBias
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.HeadValue

open Idealize.ShloMosaic Idealize.ShloMosaic.ValueIdx Idealize.ShloMosaic.TcCoe
open Idealize.ShloMosaic.Pipeline (Dat Cfg Window)
open Cert.KernelIdeal Cert.KernelIdeal.Gen

/-! ## The two products' records, coordinate by coordinate -/

/-- The [5000,128] by [128,64] product's record. -/
abbrev D1 : DotDims S5000x128 S128x64 S5000x64 := dot_S5000x128_S128x64_S5000x64_1_0_0_1_n_n
/-- The [5000,64] by [64,1] product's record. -/
abbrev D2 : DotDims S5000x64 S64x1 S5000x1 := dot_S5000x64_S64x1_S5000x1_1_0_0_1_n_n

theorem D1_l0 (j : S5000x64.Idx) (k : D1.contr.Idx) : (D1.lhsIdx j k 0).val = (j 0).val := by
  unfold DotDims.lhsIdx
  rw [dif_neg (show ¬(0 : Fin S5000x128.rank) ∈ D1.lhsBatch by decide), dif_pos (show (0 : Fin S5000x128.rank) ∈ D1.lhsNonContracting by decide)]
  rfl
theorem D1_l1 (j : S5000x64.Idx) (k : D1.contr.Idx) : (D1.lhsIdx j k 1).val = (k ⟨0, by decide⟩).val :=
  D1.lhsIdx_val_of_single rfl j k
theorem D1_r0 (j : S5000x64.Idx) (k : D1.contr.Idx) : (D1.rhsIdx j k 0).val = (k ⟨0, by decide⟩).val :=
  D1.rhsIdx_val_of_single rfl j k
theorem D1_r1 (j : S5000x64.Idx) (k : D1.contr.Idx) : (D1.rhsIdx j k 1).val = (j 1).val := by
  unfold DotDims.rhsIdx
  rw [dif_neg (show ¬(1 : Fin S128x64.rank) ∈ D1.rhsBatch by decide), dif_pos (show (1 : Fin S128x64.rank) ∈ D1.rhsNonContracting by decide)]
  rfl

theorem D2_l0 (j : S5000x1.Idx) (k : D2.contr.Idx) : (D2.lhsIdx j k 0).val = (j 0).val := by
  unfold DotDims.lhsIdx
  rw [dif_neg (show ¬(0 : Fin S5000x64.rank) ∈ D2.lhsBatch by decide), dif_pos (show (0 : Fin S5000x64.rank) ∈ D2.lhsNonContracting by decide)]
  rfl
theorem D2_l1 (j : S5000x1.Idx) (k : D2.contr.Idx) : (D2.lhsIdx j k 1).val = (k ⟨0, by decide⟩).val :=
  D2.lhsIdx_val_of_single rfl j k
theorem D2_r0 (j : S5000x1.Idx) (k : D2.contr.Idx) : (D2.rhsIdx j k 0).val = (k ⟨0, by decide⟩).val :=
  D2.rhsIdx_val_of_single rfl j k
theorem D2_r1 (j : S5000x1.Idx) (k : D2.contr.Idx) : (D2.rhsIdx j k 1).val = (j 1).val := by
  unfold DotDims.rhsIdx
  rw [dif_neg (show ¬(1 : Fin S64x1.rank) ∈ D2.rhsBatch by decide), dif_pos (show (1 : Fin S64x1.rank) ∈ D2.rhsNonContracting by decide)]
  rfl

/-! ## One head's column -/

/-- One head's column before the sigmoid, from the narrowed row block and the head's slices: the first product
    into zero, the bias row added to every row, the rectifier, the second product into zero, the second bias. -/
def preCol (X : FVec Ideal S5000x128 .bf16) (W1 : FVec Ideal S128x64 .bf16) (b1 : FVec Ideal S64 .f32)
    (W2 : FVec Ideal S64x1 .bf16) (b2 : FVec Ideal S1 .f32) : FVec Ideal S5000x1 .f32 :=
  addf (matmul D2 none (truncf .bf16 (maximumf (addf (matmul D1 none X W1 (constant S5000x64 .f32 0x00000000#32))
      (broadcastTo S5000x64 (shapeCast S1x64 b1 shapeCasts_S64_S1x64) broadcasts_S1x64_S5000x64))
      (broadcast S5000x64 (Scalar.ofBits .f32 0x00000000#32))) bitsLt_bf16_f32) W2 (constant S5000x1 .f32 0x00000000#32))
    (broadcastTo S5000x1 (shapeCast S1x1 b2 shapeCasts_S1_S1x1) broadcasts_S1x1_S5000x1)

/-- The column at row `p`: Σₒ max (Σₖ A(p,k)·W1(k,o) + b1(o)) 0 · W2(o,0) + b2(0). -/
theorem preCol_apply (A : FVec Ideal S5000x128 .f32) (W1 : FVec Ideal S128x64 .f32) (b1 : FVec Ideal S64 .f32)
    (W2 : FVec Ideal S64x1 .f32) (b2 : FVec Ideal S1 .f32) (p : Fin 5000) :
    preCol (truncf .bf16 A bitsLt_bf16_f32) (truncf .bf16 W1 bitsLt_bf16_f32) b1 (truncf .bf16 W2 bitsLt_bf16_f32) b2 (ix2 p (0 : Fin 1))
      = (∑ o : Fin 64, max ((∑ k : Fin 128, A (ix2 p k) * W1 (ix2 k o)) + b1 (ix1 o)) Cert.Sage.zero * W2 (ix2 o (0 : Fin 1)))
        + b2 (ix1 (0 : Fin 1)) := by
  unfold preCol
  refine congrArg₂ (· + ·) ?_ ?_
  · refine (Cert.MatProd.tileDot_apply D2 rfl rfl D2_l0 D2_l1 D2_r0 D2_r1 _ W2 bitsLt_bf16_f32 (ix2 p (0 : Fin 1))).trans ?_
    unfold Cert.Spec.rowsByCols
    refine Finset.sum_congr rfl fun o _ => ?_
    refine congrArg₂ (· * ·) ?_ rfl
    refine congrArg₂ max (congrArg₂ (· + ·) ?_ ?_) rfl
    · exact Cert.MatProd.tileDot_apply D1 rfl rfl D1_l0 D1_l1 D1_r0 D1_r1 A W1 bitsLt_bf16_f32 (ix2 p o)
    · exact (Cert.RowBias.bcastRow_apply _ broadcasts_S1x64_S5000x64 (ix2 p o)).trans (Cert.RowBias.rowOf_apply b1 shapeCasts_S64_S1x64 o)
  · exact (Cert.RowBias.bcastRow_apply _ broadcasts_S1x1_S5000x1 (ix2 p (0 : Fin 1))).trans (Cert.RowBias.rowOf_apply b2 shapeCasts_S1_S1x1 (0 : Fin 1))

/-- The column from the blocks as loaded: every leading unit axis dropped, every change of float format the identity. -/
theorem col_apply (v0 : Vec Ideal S5000x128 .f32) (v3 : Vec Ideal S1x128x64 .f32) (v6 : Vec Ideal S1x64 .f32)
    (v8 : Vec Ideal S1x64x1 .f32) (v11 : Vec Ideal S1x1 .f32) (p : Fin 5000) :
    preCol (truncf .bf16 (shapeCast S5000x128 v0 shapeCasts_S5000x128_S5000x128) bitsLt_bf16_f32)
        (truncf .bf16 (shapeCast S128x64 v3 shapeCasts_S1x128x64_S128x64) bitsLt_bf16_f32)
        (shapeCast S64 v6 shapeCasts_S1x64_S64)
        (truncf .bf16 (shapeCast S64x1 v8 shapeCasts_S1x64x1_S64x1) bitsLt_bf16_f32)
        (shapeCast S1 v11 shapeCasts_S1x1_S1) (ix2 p (0 : Fin 1))
      = (∑ o : Fin 64, max ((∑ k : Fin 128, v0 (ix2 p k) * v3 (ix3 (0 : Fin 1) k o)) + v6 (ix2 (0 : Fin 1) o)) Cert.Sage.zero
            * v8 (ix3 (0 : Fin 1) o (0 : Fin 1)))
        + v11 (ix2 (0 : Fin 1) (0 : Fin 1)) := by
  refine (preCol_apply _ _ _ _ _ p).trans ?_
  refine congrArg₂ (· + ·) (Finset.sum_congr rfl fun o _ => congrArg₂ (· * ·) (congrArg₂ max (congrArg₂ (· + ·)
    (Finset.sum_congr rfl fun k _ => congrArg₂ (· * ·) ?_ ?_) ?_) rfl) ?_) ?_
  · exact congrFun (shapeCast_self v0 shapeCasts_S5000x128_S5000x128) (ix2 p k)
  · exact shapeCast_1ab_ab_apply v3 shapeCasts_S1x128x64_S128x64 k o
  · exact shapeCast_1a_a_apply v6 shapeCasts_S1x64_S64 o
  · exact shapeCast_1ab_ab_apply v8 shapeCasts_S1x64x1_S64x1 o (0 : Fin 1)
  · exact shapeCast_1a_a_apply v11 shapeCasts_S1x1_S1 (0 : Fin 1)

/-! ## The loads: slice `h` of each small array -/

theorem ld_w1 (x1 : Vec Ideal S5x128x64 .f32) (h : Fin 5) (inb) (k : Fin 128) (o : Fin 64) :
    View.ld x1 (Rect.unit (s := S5x128x64) ![h.val, 0, 0] S1x128x64.size inb) (ix3 (0 : Fin 1) k o) = x1 (ix3 h k o) := by
  show x1 _ = x1 _
  refine congrArg x1 (funext fun a => Fin.ext ?_)
  match a with
  | ⟨0, _⟩ => show h.val + 1 * 0 = h.val; omega
  | ⟨1, _⟩ => show 0 + 1 * k.val = k.val; omega
  | ⟨2, _⟩ => show 0 + 1 * o.val = o.val; omega

theorem ld_b1 (x2 : Vec Ideal S5x64 .f32) (h : Fin 5) (inb) (o : Fin 64) :
    View.ld x2 (Rect.unit (s := S5x64) ![h.val, 0] S1x64.size inb) (ix2 (0 : Fin 1) o) = x2 (ix2 h o) := by
  show x2 _ = x2 _
  refine congrArg x2 (funext fun a => Fin.ext ?_)
  match a with
  | ⟨0, _⟩ => show h.val + 1 * 0 = h.val; omega
  | ⟨1, _⟩ => show 0 + 1 * o.val = o.val; omega

theorem ld_w2 (x3 : Vec Ideal S5x64x1 .f32) (h : Fin 5) (inb) (o : Fin 64) :
    View.ld x3 (Rect.unit (s := S5x64x1) ![h.val, 0, 0] S1x64x1.size inb) (ix3 (0 : Fin 1) o (0 : Fin 1)) = x3 (ix3 h o (0 : Fin 1)) := by
  show x3 _ = x3 _
  refine congrArg x3 (funext fun a => Fin.ext ?_)
  match a with
  | ⟨0, _⟩ => show h.val + 1 * 0 = h.val; omega
  | ⟨1, _⟩ => show 0 + 1 * o.val = o.val; omega
  | ⟨2, _⟩ => show 0 + 1 * 0 = 0; omega

theorem ld_b2 (x4 : Vec Ideal S5x1 .f32) (h : Fin 5) (inb) :
    View.ld x4 (Rect.unit (s := S5x1) ![h.val, 0] S1x1.size inb) (ix2 (0 : Fin 1) (0 : Fin 1)) = x4 (ix2 h (0 : Fin 1)) := by
  show x4 _ = x4 _
  refine congrArg x4 (funext fun a => Fin.ext ?_)
  match a with
  | ⟨0, _⟩ => show h.val + 1 * 0 = h.val; omega
  | ⟨1, _⟩ => show 0 + 1 * 0 = 0; omega

/-- Head `h`'s column from the whole row block `x0` and the slices `h` of the four small arrays, before the sigmoid. -/
theorem headCol_apply (x0 : Vec Ideal S5000x128 .f32) (x1 : Vec Ideal S5x128x64 .f32) (x2 : Vec Ideal S5x64 .f32)
    (x3 : Vec Ideal S5x64x1 .f32) (x4 : Vec Ideal S5x1 .f32) (h : Fin 5) (i1 i2 i3 i4) (p : Fin 5000) :
    Ideal.logistic (preCol (truncf .bf16 (shapeCast S5000x128 x0 shapeCasts_S5000x128_S5000x128) bitsLt_bf16_f32)
        (truncf .bf16 (shapeCast S128x64 (View.ld x1 (Rect.unit (s := S5x128x64) ![h.val, 0, 0] S1x128x64.size i1)) shapeCasts_S1x128x64_S128x64) bitsLt_bf16_f32)
        (shapeCast S64 (View.ld x2 (Rect.unit (s := S5x64) ![h.val, 0] S1x64.size i2)) shapeCasts_S1x64_S64)
        (truncf .bf16 (shapeCast S64x1 (View.ld x3 (Rect.unit (s := S5x64x1) ![h.val, 0, 0] S1x64x1.size i3)) shapeCasts_S1x64x1_S64x1) bitsLt_bf16_f32)
        (shapeCast S1 (View.ld x4 (Rect.unit (s := S5x1) ![h.val, 0] S1x1.size i4)) shapeCasts_S1x1_S1) (ix2 p (0 : Fin 1)))
      = Cert.Sage.headAt (fun k => x0 (ix2 p k)) (fun k o => x1 (ix3 h k o)) (fun o => x2 (ix2 h o))
          (fun o => x3 (ix3 h o (0 : Fin 1))) (x4 (ix2 h (0 : Fin 1))) := by
  unfold Cert.Sage.headAt
  refine congrArg Ideal.logistic ?_
  refine (col_apply x0 _ _ _ _ p).trans ?_
  refine congrArg₂ (· + ·) (Finset.sum_congr rfl fun o _ => congrArg₂ (· * ·) (congrArg₂ max (congrArg₂ (· + ·)
    (Finset.sum_congr rfl fun k _ => congrArg₂ (· * ·) rfl ?_) ?_) rfl) ?_) ?_
  · exact ld_w1 x1 h i1 k o
  · exact ld_b1 x2 h i2 o
  · exact ld_w2 x3 h i3 o
  · exact ld_b2 x4 h i4

/-! ## The five columns side by side -/

/-- Five one-column blocks concatenated along the columns, read at column `h`: block `h`. -/
theorem cat_apply (c0 c1 c2 c3 c4 : FVec Ideal S5000x1 .f32) (p : Fin 5000) (h : Fin 5) :
    concatenate S5000x5 1 [⟨S5000x1, c0⟩, ⟨S5000x1, c1⟩, ⟨S5000x1, c2⟩, ⟨S5000x1, c3⟩, ⟨S5000x1, c4⟩]
        concatenates_S5000x1_S5000x1_S5000x1_S5000x1_S5000x1_S5000x5_d1 (ix2 p h)
      = (match h with | ⟨0, _⟩ => c0 | ⟨1, _⟩ => c1 | ⟨2, _⟩ => c2 | ⟨3, _⟩ => c3 | ⟨4, _⟩ => c4) (ix2 p (0 : Fin 1)) := by
  have off : ∀ b : Fin S5000x1.rank, b.cast (rfl : S5000x1.rank = S5000x5.rank) ≠ (1 : Fin S5000x5.rank) →
      ((ix2 p (0 : Fin 1) : S5000x1.Idx) b).val = ((ix2 p h : S5000x5.Idx) (b.cast rfl)).val := fun b hb => by
    match b with
    | ⟨0, _⟩ => rfl
    | ⟨1, _⟩ => exact absurd rfl hb
  match h with
  | ⟨0, _⟩ => exact concatenate_apply_piece (1 : Fin S5000x5.rank) _ _ _ 0 (by show 0 < 5; omega) S5000x1 c0 rfl rfl 0 rfl (ix2 p (0 : Fin 1)) off rfl
  | ⟨1, _⟩ => exact concatenate_apply_piece (1 : Fin S5000x5.rank) _ _ _ 1 (by show 1 < 5; omega) S5000x1 c1 rfl rfl 1 rfl (ix2 p (0 : Fin 1)) off rfl
  | ⟨2, _⟩ => exact concatenate_apply_piece (1 : Fin S5000x5.rank) _ _ _ 2 (by show 2 < 5; omega) S5000x1 c2 rfl rfl 2 rfl (ix2 p (0 : Fin 1)) off rfl
  | ⟨3, _⟩ => exact concatenate_apply_piece (1 : Fin S5000x5.rank) _ _ _ 3 (by show 3 < 5; omega) S5000x1 c3 rfl rfl 3 rfl (ix2 p (0 : Fin 1)) off rfl
  | ⟨4, _⟩ => exact concatenate_apply_piece (1 : Fin S5000x5.rank) _ _ _ 4 (by show 4 < 5; omega) S5000x1 c4 rfl rfl 4 rfl (ix2 p (0 : Fin 1)) off rfl

/-! ## The block the body leaves -/

theorem hz2 : (![0, 0] : Fin 2 → Nat) = fun _ => 0 := funext fun a => by fin_cases a <;> rfl

/-- Entry (p, h) of the block the body stores is the head's entry of row `p` of the row block and of head `h`'s slices. -/
theorem block_apply (x0 : Vec Ideal S5000x128 .f32) (x1 : Vec Ideal S5x128x64 .f32) (x2 : Vec Ideal S5x64 .f32)
    (x3 : Vec Ideal S5x64x1 .f32) (x4 : Vec Ideal S5x1 .f32) (p : Fin 5000) (h : Fin 5) :
    out4_5 (F := Ideal) x0 x1 x2 x3 x4 (ix2 p h)
      = Cert.Sage.headAt (fun k => x0 (ix2 p k)) (fun k o => x1 (ix3 h k o)) (fun o => x2 (ix2 h o))
          (fun o => x3 (ix3 h o (0 : Fin 1))) (x4 (ix2 h (0 : Fin 1))) := by
  unfold out4_5
  rw [View.canon_unit_zero hz2, View.ld_unit_zero (S := S5000x128) hz2]
  refine (cat_apply _ _ _ _ _ p h).trans ?_
  match h with
  | ⟨0, _⟩ => exact headCol_apply x0 x1 x2 x3 x4 (0 : Fin 5) _ _ _ _ p
  | ⟨1, _⟩ => exact headCol_apply x0 x1 x2 x3 x4 (1 : Fin 5) _ _ _ _ p
  | ⟨2, _⟩ => exact headCol_apply x0 x1 x2 x3 x4 (2 : Fin 5) _ _ _ _ p
  | ⟨3, _⟩ => exact headCol_apply x0 x1 x2 x3 x4 (3 : Fin 5) _ _ _ _ p
  | ⟨4, _⟩ => exact headCol_apply x0 x1 x2 x3 x4 (4 : Fin 5) _ _ _ _ p

/-! ## From the blocks to the array -/

/-- The head's entry at (r, h) of the arrays the region finds: the function the output array ends holding. -/
def headArr (x0 : S100000x128.Idx → EReal) (x1 : S5x128x64.Idx → EReal) (x2 : S5x64.Idx → EReal)
    (x3 : S5x64x1.Idx → EReal) (x4 : S5x1.Idx → EReal) : S100000x5.Idx → EReal := fun i =>
  Cert.Sage.headAt (fun k => x0 (ix2 (i 0) k)) (fun k o => x1 (ix3 (i 1) k o)) (fun o => x2 (ix2 (i 1) o))
    (fun o => x3 (ix3 (i 1) o (0 : Fin 1))) (x4 (ix2 (i 1) (0 : Fin 1)))

/-- The printed index maps, decided over the grid: the row block moves with the output block along the rows, every
    other block index is zero, and the output's row-block index is the point's number. -/
theorem idx_facts : ∀ t : Fin cfg4.N,
    win4_0.index t (0 : Fin 2) = win4_5.index t (0 : Fin 2) ∧ win4_0.index t (1 : Fin 2) = 0
    ∧ win4_5.index t (0 : Fin 2) = t.val ∧ win4_5.index t (1 : Fin 2) = 0
    ∧ win4_1.index t (0 : Fin 3) = 0 ∧ win4_1.index t (1 : Fin 3) = 0 ∧ win4_1.index t (2 : Fin 3) = 0
    ∧ win4_2.index t (0 : Fin 2) = 0 ∧ win4_2.index t (1 : Fin 2) = 0
    ∧ win4_3.index t (0 : Fin 3) = 0 ∧ win4_3.index t (1 : Fin 3) = 0 ∧ win4_3.index t (2 : Fin 3) = 0
    ∧ win4_4.index t (0 : Fin 2) = 0 ∧ win4_4.index t (1 : Fin 2) = 0 :=
  (by decide +kernel : ∀ t : Fin grid4.N, _)

section Array

variable (V : (c : Dev nD) → (b : Ref sig .tc) → Buf (Elt Ideal) ((c : Thread nD τ).loc b))

/-- What point `t` writes back is block `t` of the head function of the arrays as the region finds them. -/
theorem flushed_eq (c : Dev nD) (t : Fin cfg4.N) :
    (dat4 (F := Ideal) V c).flushed 5 t = ((cfg4.win 5).blk t).view.read (Elt Ideal)
      (headArr (V c main_v148) (V c main_v149) (V c main_arg10) (V c main_v150) (V c main_arg12)) := by
  show (cfg4.win 5).cut (grid4.coords t) ((dat4 (F := Ideal) V c).after 5 t) = _
  rw [after4_5]
  obtain ⟨e0, e1, e2, e3, f10, f11, f12, f20, f21, f30, f31, f32, f40, f41⟩ := idx_facts t
  funext j
  show out4_5 (F := Ideal) (iblk4 V c 0 t) (iblk4 V c 1 t) (iblk4 V c 2 t) (iblk4 V c 3 t) (iblk4 V c 4 t) j
    = headArr (V c main_v148) (V c main_v149) (V c main_arg10) (V c main_v150) (V c main_arg12) (((cfg4.win 5).blk t).view.emb j)
  refine (congrArg (out4_5 (F := Ideal) (iblk4 V c 0 t) (iblk4 V c 1 t) (iblk4 V c 2 t) (iblk4 V c 3 t) (iblk4 V c 4 t))
    (eq_ix2 (n0 := 5000) (n1 := 5) j)).trans ?_
  refine (block_apply (iblk4 V c 0 t) (iblk4 V c 1 t) (iblk4 V c 2 t) (iblk4 V c 3 t) (iblk4 V c 4 t) (j 0) (j 1)).trans ?_
  unfold headArr
  refine congr (congr (congr (congr (congrArg Cert.Sage.headAt ?_) ?_) ?_) ?_) ?_
  · funext k
    show V c main_v148 (((cfg4.win 0).blk t).view.emb (ix2 (n0 := 5000) (n1 := 128) (j 0) k))
      = V c main_v148 (ix2 (n0 := 100000) (n1 := 128) (((cfg4.win 5).blk t).view.emb j 0) k)
    refine congrArg (V c main_v148) (funext fun a => Fin.ext ?_)
    match a with
    | ⟨0, _⟩ => show win4_0.index t (0 : Fin 2) * 5000 + 1 * (j 0).val = win4_5.index t (0 : Fin 2) * 5000 + 1 * (j 0).val; rw [e0]
    | ⟨1, _⟩ => show win4_0.index t (1 : Fin 2) * 128 + 1 * k.val = k.val; rw [e1]; omega
  · funext k o
    show V c main_v149 (((cfg4.win 1).blk t).view.emb (ix3 (n0 := 5) (n1 := 128) (n2 := 64) (j 1) k o))
      = V c main_v149 (ix3 (n0 := 5) (n1 := 128) (n2 := 64) (((cfg4.win 5).blk t).view.emb j 1) k o)
    refine congrArg (V c main_v149) (funext fun a => Fin.ext ?_)
    match a with
    | ⟨0, _⟩ => show win4_1.index t (0 : Fin 3) * 5 + 1 * (j 1).val = win4_5.index t (1 : Fin 2) * 5 + 1 * (j 1).val; rw [f10, e3]
    | ⟨1, _⟩ => show win4_1.index t (1 : Fin 3) * 128 + 1 * k.val = k.val; rw [f11]; omega
    | ⟨2, _⟩ => show win4_1.index t (2 : Fin 3) * 64 + 1 * o.val = o.val; rw [f12]; omega
  · funext o
    show V c main_arg10 (((cfg4.win 2).blk t).view.emb (ix2 (n0 := 5) (n1 := 64) (j 1) o))
      = V c main_arg10 (ix2 (n0 := 5) (n1 := 64) (((cfg4.win 5).blk t).view.emb j 1) o)
    refine congrArg (V c main_arg10) (funext fun a => Fin.ext ?_)
    match a with
    | ⟨0, _⟩ => show win4_2.index t (0 : Fin 2) * 5 + 1 * (j 1).val = win4_5.index t (1 : Fin 2) * 5 + 1 * (j 1).val; rw [f20, e3]
    | ⟨1, _⟩ => show win4_2.index t (1 : Fin 2) * 64 + 1 * o.val = o.val; rw [f21]; omega
  · funext o
    show V c main_v150 (((cfg4.win 3).blk t).view.emb (ix3 (n0 := 5) (n1 := 64) (n2 := 1) (j 1) o (0 : Fin 1)))
      = V c main_v150 (ix3 (n0 := 5) (n1 := 64) (n2 := 1) (((cfg4.win 5).blk t).view.emb j 1) o (0 : Fin 1))
    refine congrArg (V c main_v150) (funext fun a => Fin.ext ?_)
    match a with
    | ⟨0, _⟩ => show win4_3.index t (0 : Fin 3) * 5 + 1 * (j 1).val = win4_5.index t (1 : Fin 2) * 5 + 1 * (j 1).val; rw [f30, e3]
    | ⟨1, _⟩ => show win4_3.index t (1 : Fin 3) * 64 + 1 * o.val = o.val; rw [f31]; omega
    | ⟨2, _⟩ => show win4_3.index t (2 : Fin 3) * 1 + 1 * 0 = 0; rw [f32]
  · show V c main_arg12 (((cfg4.win 4).blk t).view.emb (ix2 (n0 := 5) (n1 := 1) (j 1) (0 : Fin 1)))
      = V c main_arg12 (ix2 (n0 := 5) (n1 := 1) (((cfg4.win 5).blk t).view.emb j 1) (0 : Fin 1))
    refine congrArg (V c main_arg12) (funext fun a => Fin.ext ?_)
    match a with
    | ⟨0, _⟩ => show win4_4.index t (0 : Fin 2) * 5 + 1 * (j 1).val = win4_5.index t (1 : Fin 2) * 5 + 1 * (j 1).val; rw [f40, e3]
    | ⟨1, _⟩ => show win4_4.index t (1 : Fin 2) * 1 + 1 * 0 = 0; rw [f41]

end Array

/-- An index of the output array is in point `t`'s block iff each coordinate is in the block's range on its axis. -/
theorem mem_blk (t : Fin cfg4.N) (i : S100000x5.Idx) :
    i ∈ ((cfg4.win 5).blk t).view.set ↔ ∀ a : Fin 2, win4_5.index t a * S5000x5.size a ≤ (i a).val
      ∧ (i a).val < win4_5.index t a * S5000x5.size a + S5000x5.size a := by
  show i ∈ ((View.whole main_v151).slice (win4_5.rect t)).set ↔ _
  rw [View.set_slice_whole, Rect.mem_set_unit]
  exact Iff.rfl

/-- Row `r` is written back by point `r / 5000`: the twenty blocks of 5000 rows tile the array. -/
theorem cover (i : S100000x5.Idx) :
    ∃ t : Fin cfg4.N, (cfg4.win 5).flush t = true ∧ i ∈ ((cfg4.win 5).blk t).view.set := by
  have hi0 : (i 0).val < 100000 := (i 0).isLt
  have hi1 : (i 1).val < 5 := (i 1).isLt
  obtain ⟨t, ht⟩ : ∃ t : Fin cfg4.N, t.val = (i 0).val / 5000 :=
    ⟨⟨(i 0).val / 5000, by show (i 0).val / 5000 < grid4.N; rw [N_4]; omega⟩, rfl⟩
  obtain ⟨-, -, e2, e3, -⟩ := idx_facts t
  refine ⟨t, flush4_5 t, ?_⟩
  rw [mem_blk]
  intro a
  match a with
  | ⟨0, _⟩ =>
    show win4_5.index t (0 : Fin 2) * 5000 ≤ (i 0).val ∧ (i 0).val < win4_5.index t (0 : Fin 2) * 5000 + 5000
    rw [e2, ht]; omega
  | ⟨1, _⟩ =>
    show win4_5.index t (1 : Fin 2) * 5 ≤ (i 1).val ∧ (i 1).val < win4_5.index t (1 : Fin 2) * 5 + 5
    rw [e3]; omega

section Final

variable (V : (c : Dev nD) → (b : Ref sig .tc) → Buf (Elt Ideal) ((c : Thread nD τ).loc b))

/-- The output array after the region: the head function of the arrays as the region finds them. -/
theorem head_arr (c : Dev nD) :
    (dat4 (F := Ideal) V c).arrAt 5 cfg4.N
      = headArr (V c main_v148) (V c main_v149) (V c main_arg10) (V c main_v150) (V c main_arg12) :=
  (dat4 (F := Ideal) V c).arrAt_eq_of_cover 5 _ (fun t _ => flushed_eq V c t) cover

/-- Entry (r, h) of the output array after the region is the head's entry of row `r` of the features and of head `h`'s
    weights and biases, as the region finds them. -/
theorem head_final (c : Dev nD) (r : Fin 100000) (h : Fin 5) :
    ((dat4 (F := Ideal) V c).arrAt 5 cfg4.N : S100000x5.Idx → EReal) (ix2 r h)
      = Cert.Sage.headAt (fun k => (V c main_v148 : S100000x128.Idx → EReal) (ix2 r k))
          (fun k o => (V c main_v149 : S5x128x64.Idx → EReal) (ix3 h k o))
          (fun o => (V c main_arg10 : S5x64.Idx → EReal) (ix2 h o))
          (fun o => (V c main_v150 : S5x64x1.Idx → EReal) (ix3 h o 0))
          ((V c main_arg12 : S5x1.Idx → EReal) (ix2 h 0)) :=
  congrFun (head_arr V c) (ix2 r h)

end Final

end Cert.KernelIdeal.HeadValue

end
-- ==== Proof.RefLayers.lean ====
/-
  The reference's four graph layers, one entry at a time. Each layer's output at (node r, channel q) is the
  specification's layer entry of row r of the aggregated features and of the node features, of column q of the two
  weight matrices, and of entry q of the bias and of the four normalisation vectors. The aggregated features, the
  weight matrices, the [128] vectors and the previous layer's output are kept as the functions they are.
-/
import proofs.«110522_j10282151707181_1_alg».proof.Proof.RefRead
import proofs.«110522_j10282151707181_1_alg».proof.Proof.SageSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.LayerValue

open Cert.ReferenceIdeal Cert.ReferenceIdeal.Gen Cert.ReferenceIdeal.ReadP Idealize.ShloMosaic Idealize.ShloMosaic.ValueIdx

/-- Layer 1 of the reference at (r, q): the aggregated row and the node row against column q of the two weights,
    the bias, the normalisation by the running statistics, the affine map and the rectifier. -/
theorem ref_layer1_apply (x0 : (⟨S100000x128, .f32⟩ : BufTy).Contents (Elt Ideal)) (x1 : (⟨S2x1600000, .i32⟩ : BufTy).Contents (Elt Ideal)) (x2 : (⟨S4x128x128, .f32⟩ : BufTy).Contents (Elt Ideal)) (x3 : (⟨S4x128, .f32⟩ : BufTy).Contents (Elt Ideal)) (x4 : (⟨S4x128x128, .f32⟩ : BufTy).Contents (Elt Ideal)) (x5 x6 x7 x8 : (⟨S4x128, .f32⟩ : BufTy).Contents (Elt Ideal)) (r : Fin 100000) (q : Fin 128) :
    val_main_v60 (F := Ideal) x0 x1 x2 x3 x4 x5 x6 x7 x8 (ix2 r q)
      = Cert.Sage.layerAt (fun k => val_main_v24 (F := Ideal) x0 x1 (ix2 r k)) (fun k => x0 (ix2 r k))
          (fun k => val_main_v27 (F := Ideal) x2 (ix2 k q)) (fun k => val_main_v36 (F := Ideal) x4 (ix2 k q))
          (val_main_v30 (F := Ideal) x3 (ix1 q)) (val_main_v45 (F := Ideal) x5 (ix1 q)) (val_main_v56 (F := Ideal) x6 (ix1 q))
          (val_main_v40 (F := Ideal) x7 (ix1 q)) (val_main_v47 (F := Ideal) x8 (ix1 q)) := by
  -- the index functions of the two products and of the broadcast chains, at (r, q)
  have hl1 : ∀ k : Fin 128, lidx_main_v28 (ix2 r q) k = ix2 r k := fun k => funext fun a => by match a with | ⟨0, _⟩ => rfl | ⟨1, _⟩ => rfl
  have hr1 : ∀ k : Fin 128, ridx_main_v28 (ix2 r q) k = ix2 k q := fun k => funext fun a => by match a with | ⟨0, _⟩ => rfl | ⟨1, _⟩ => rfl
  have hl2 : ∀ k : Fin 128, lidx_main_v37 (ix2 r q) k = ix2 r k := fun k => funext fun a => by match a with | ⟨0, _⟩ => rfl | ⟨1, _⟩ => rfl
  have hr2 : ∀ k : Fin 128, ridx_main_v37 (ix2 r q) k = ix2 k q := fun k => funext fun a => by match a with | ⟨0, _⟩ => rfl | ⟨1, _⟩ => rfl
  have hb : idx_main_v31 (idx_main_v32 (ix2 r q)) = ix1 q := funext fun a => by match a with | ⟨0, _⟩ => rfl
  have hm : idx_main_v41 (idx_main_v42 (ix2 r q)) = ix1 q := funext fun a => by match a with | ⟨0, _⟩ => rfl
  have hg : idx_main_v52 (idx_main_v53 (ix2 r q)) = ix1 q := funext fun a => by match a with | ⟨0, _⟩ => rfl
  have he : idx_main_v57 (idx_main_v58 (ix2 r q)) = ix1 q := funext fun a => by match a with | ⟨0, _⟩ => rfl
  -- the elementwise operations, outermost first, down to the two products and the [128] vectors
  rw [val_main_v60_apply, val_main_v59_apply, val_main_v54_apply, val_main_v43_apply, val_main_v38_apply, val_main_v33_apply, val_main_v28_apply, val_main_v37_apply,
    val_main_v32_apply, val_main_v31_apply, val_main_v42_apply, val_main_v41_apply, val_main_v53_apply, val_main_v52_apply, val_main_v51_apply, val_main_v50_apply, val_main_v49_apply,
    val_main_v48_apply, val_main_cst_5_apply, val_main_v58_apply, val_main_v57_apply, val_main_call0_v0_apply, val_main_call0_cst_apply, hb, hm, hg, he]
  simp only [hl1, hr1, hl2, hr2]
  -- from here on the stages that stay closed are variables
  generalize val_main_v24 (F := Ideal) x0 x1 = A
  generalize val_main_v27 (F := Ideal) x2 = WL
  generalize val_main_v36 (F := Ideal) x4 = WR
  generalize val_main_v30 (F := Ideal) x3 = B
  generalize val_main_v45 (F := Ideal) x5 = G
  generalize val_main_v56 (F := Ideal) x6 = BE
  generalize val_main_v40 (F := Ideal) x7 = M
  generalize val_main_v47 (F := Ideal) x8 = Vr
  -- the reference adds the bias before the second product; the specification after it
  show max ((((∑ k : Fin 128, A (ix2 r k) * WL (ix2 k q)) + B (ix1 q)
        + ∑ k : Fin 128, x0 (ix2 r k) * WR (ix2 k q)) - M (ix1 q))
      * (G (ix1 q) * Ideal.rsqrt (Vr (ix1 q) + Cert.Sage.eps)) + BE (ix1 q)) Cert.Sage.zero = _
  rw [add_right_comm]
  rfl

/-- Layer 2 of the reference at (r, q): the aggregated row and the node row against column q of the two weights,
    the bias, the normalisation by the running statistics, the affine map and the rectifier. -/
theorem ref_layer2_apply (x0 : (⟨S100000x128, .f32⟩ : BufTy).Contents (Elt Ideal)) (x1 : (⟨S2x1600000, .i32⟩ : BufTy).Contents (Elt Ideal)) (x2 : (⟨S4x128x128, .f32⟩ : BufTy).Contents (Elt Ideal)) (x3 : (⟨S4x128, .f32⟩ : BufTy).Contents (Elt Ideal)) (x4 : (⟨S4x128x128, .f32⟩ : BufTy).Contents (Elt Ideal)) (x5 x6 x7 x8 : (⟨S4x128, .f32⟩ : BufTy).Contents (Elt Ideal)) (r : Fin 100000) (q : Fin 128) :
    val_main_v108 (F := Ideal) x0 x1 x2 x3 x4 x5 x6 x7 x8 (ix2 r q)
      = Cert.Sage.layerAt (fun k => val_main_v72 (F := Ideal) x0 x1 x2 x3 x4 x5 x6 x7 x8 (ix2 r k)) (fun k => (val_main_v60 (F := Ideal) x0 x1 x2 x3 x4 x5 x6 x7 x8) (ix2 r k))
          (fun k => val_main_v75 (F := Ideal) x2 (ix2 k q)) (fun k => val_main_v84 (F := Ideal) x4 (ix2 k q))
          (val_main_v78 (F := Ideal) x3 (ix1 q)) (val_main_v93 (F := Ideal) x5 (ix1 q)) (val_main_v104 (F := Ideal) x6 (ix1 q))
          (val_main_v88 (F := Ideal) x7 (ix1 q)) (val_main_v95 (F := Ideal) x8 (ix1 q)) := by
  -- the index functions of the two products and of the broadcast chains, at (r, q)
  have hl1 : ∀ k : Fin 128, lidx_main_v76 (ix2 r q) k = ix2 r k := fun k => funext fun a => by match a with | ⟨0, _⟩ => rfl | ⟨1, _⟩ => rfl
  have hr1 : ∀ k : Fin 128, ridx_main_v76 (ix2 r q) k = ix2 k q := fun k => funext fun a => by match a with | ⟨0, _⟩ => rfl | ⟨1, _⟩ => rfl
  have hl2 : ∀ k : Fin 128, lidx_main_v85 (ix2 r q) k = ix2 r k := fun k => funext fun a => by match a with | ⟨0, _⟩ => rfl | ⟨1, _⟩ => rfl
  have hr2 : ∀ k : Fin 128, ridx_main_v85 (ix2 r q) k = ix2 k q := fun k => funext fun a => by match a with | ⟨0, _⟩ => rfl | ⟨1, _⟩ => rfl
  have hb : idx_main_v79 (idx_main_v80 (ix2 r q)) = ix1 q := funext fun a => by match a with | ⟨0, _⟩ => rfl
  have hm : idx_main_v89 (idx_main_v90 (ix2 r q)) = ix1 q := funext fun a => by match a with | ⟨0, _⟩ => rfl
  have hg : idx_main_v100 (idx_main_v101 (ix2 r q)) = ix1 q := funext fun a => by match a with | ⟨0, _⟩ => rfl
  have he : idx_main_v105 (idx_main_v106 (ix2 r q)) = ix1 q := funext fun a => by match a with | ⟨0, _⟩ => rfl
  -- the elementwise operations, outermost first, down to the two products and the [128] vectors
  rw [val_main_v108_apply, val_main_v107_apply, val_main_v102_apply, val_main_v91_apply, val_main_v86_apply, val_main_v81_apply, val_main_v76_apply, val_main_v85_apply,
    val_main_v80_apply, val_main_v79_apply, val_main_v90_apply, val_main_v89_apply, val_main_v101_apply, val_main_v100_apply, val_main_v99_apply, val_main_v98_apply, val_main_v97_apply,
    val_main_v96_apply, val_main_cst_9_apply, val_main_v106_apply, val_main_v105_apply, val_main_call1_v0_apply, val_main_call1_cst_apply, hb, hm, hg, he]
  simp only [hl1, hr1, hl2, hr2]
  -- from here on the stages that stay closed are variables
  generalize val_main_v72 (F := Ideal) x0 x1 x2 x3 x4 x5 x6 x7 x8 = A
  generalize val_main_v75 (F := Ideal) x2 = WL
  generalize val_main_v84 (F := Ideal) x4 = WR
  generalize val_main_v78 (F := Ideal) x3 = B
  generalize val_main_v93 (F := Ideal) x5 = G
  generalize val_main_v104 (F := Ideal) x6 = BE
  generalize val_main_v88 (F := Ideal) x7 = M
  generalize val_main_v95 (F := Ideal) x8 = Vr
  generalize val_main_v60 (F := Ideal) x0 x1 x2 x3 x4 x5 x6 x7 x8 = X
  -- the reference adds the bias before the second product; the specification after it
  show max ((((∑ k : Fin 128, A (ix2 r k) * WL (ix2 k q)) + B (ix1 q)
        + ∑ k : Fin 128, X (ix2 r k) * WR (ix2 k q)) - M (ix1 q))
      * (G (ix1 q) * Ideal.rsqrt (Vr (ix1 q) + Cert.Sage.eps)) + BE (ix1 q)) Cert.Sage.zero = _
  rw [add_right_comm]
  rfl

/-- Layer 3 of the reference at (r, q): the aggregated row and the node row against column q of the two weights,
    the bias, the normalisation by the running statistics, the affine map and the rectifier. -/
theorem ref_layer3_apply (x0 : (⟨S100000x128, .f32⟩ : BufTy).Contents (Elt Ideal)) (x1 : (⟨S2x1600000, .i32⟩ : BufTy).Contents (Elt Ideal)) (x2 : (⟨S4x128x128, .f32⟩ : BufTy).Contents (Elt Ideal)) (x3 : (⟨S4x128, .f32⟩ : BufTy).Contents (Elt Ideal)) (x4 : (⟨S4x128x128, .f32⟩ : BufTy).Contents (Elt Ideal)) (x5 x6 x7 x8 : (⟨S4x128, .f32⟩ : BufTy).Contents (Elt Ideal)) (r : Fin 100000) (q : Fin 128) :
    val_main_v156 (F := Ideal) x0 x1 x2 x3 x4 x5 x6 x7 x8 (ix2 r q)
      = Cert.Sage.layerAt (fun k => val_main_v120 (F := Ideal) x0 x1 x2 x3 x4 x5 x6 x7 x8 (ix2 r k)) (fun k => (val_main_v108 (F := Ideal) x0 x1 x2 x3 x4 x5 x6 x7 x8) (ix2 r k))
          (fun k => val_main_v123 (F := Ideal) x2 (ix2 k q)) (fun k => val_main_v132 (F := Ideal) x4 (ix2 k q))
          (val_main_v126 (F := Ideal) x3 (ix1 q)) (val_main_v141 (F := Ideal) x5 (ix1 q)) (val_main_v152 (F := Ideal) x6 (ix1 q))
          (val_main_v136 (F := Ideal) x7 (ix1 q)) (val_main_v143 (F := Ideal) x8 (ix1 q)) := by
  -- the index functions of the two products and of the broadcast chains, at (r, q)
  have hl1 : ∀ k : Fin 128, lidx_main_v124 (ix2 r q) k = ix2 r k := fun k => funext fun a => by match a with | ⟨0, _⟩ => rfl | ⟨1, _⟩ => rfl
  have hr1 : ∀ k : Fin 128, ridx_main_v124 (ix2 r q) k = ix2 k q := fun k => funext fun a => by match a with | ⟨0, _⟩ => rfl | ⟨1, _⟩ => rfl
  have hl2 : ∀ k : Fin 128, lidx_main_v133 (ix2 r q) k = ix2 r k := fun k => funext fun a => by match a with | ⟨0, _⟩ => rfl | ⟨1, _⟩ => rfl
  have hr2 : ∀ k : Fin 128, ridx_main_v133 (ix2 r q) k = ix2 k q := fun k => funext fun a => by match a with | ⟨0, _⟩ => rfl | ⟨1, _⟩ => rfl
  have hb : idx_main_v127 (idx_main_v128 (ix2 r q)) = ix1 q := funext fun a => by match a with | ⟨0, _⟩ => rfl
  have hm : idx_main_v137 (idx_main_v138 (ix2 r q)) = ix1 q := funext fun a => by match a with | ⟨0, _⟩ => rfl
  have hg : idx_main_v148 (idx_main_v149 (ix2 r q)) = ix1 q := funext fun a => by match a with | ⟨0, _⟩ => rfl
  have he : idx_main_v153 (idx_main_v154 (ix2 r q)) = ix1 q := funext fun a => by match a with | ⟨0, _⟩ => rfl
  -- the elementwise operations, outermost first, down to the two products and the [128] vectors
  rw [val_main_v156_apply, val_main_v155_apply, val_main_v150_apply, val_main_v139_apply, val_main_v134_apply, val_main_v129_apply, val_main_v124_apply, val_main_v133_apply,
    val_main_v128_apply, val_main_v127_apply, val_main_v138_apply, val_main_v137_apply, val_main_v149_apply, val_main_v148_apply, val_main_v147_apply, val_main_v146_apply, val_main_v145_apply,
    val_main_v144_apply, val_main_cst_13_apply, val_main_v154_apply, val_main_v153_apply, val_main_call2_v0_apply, val_main_call2_cst_apply, hb, hm, hg, he]
  simp only [hl1, hr1, hl2, hr2]
  -- from here on the stages that stay closed are variables
  generalize val_main_v120 (F := Ideal) x0 x1 x2 x3 x4 x5 x6 x7 x8 = A
  generalize val_main_v123 (F := Ideal) x2 = WL
  generalize val_main_v132 (F := Ideal) x4 = WR
  generalize val_main_v126 (F := Ideal) x3 = B
  generalize val_main_v141 (F := Ideal) x5 = G
  generalize val_main_v152 (F := Ideal) x6 = BE
  generalize val_main_v136 (F := Ideal) x7 = M
  generalize val_main_v143 (F := Ideal) x8 = Vr
  generalize val_main_v108 (F := Ideal) x0 x1 x2 x3 x4 x5 x6 x7 x8 = X
  -- the reference adds the bias before the second product; the specification after it
  show max ((((∑ k : Fin 128, A (ix2 r k) * WL (ix2 k q)) + B (ix1 q)
        + ∑ k : Fin 128, X (ix2 r k) * WR (ix2 k q)) - M (ix1 q))
      * (G (ix1 q) * Ideal.rsqrt (Vr (ix1 q) + Cert.Sage.eps)) + BE (ix1 q)) Cert.Sage.zero = _
  rw [add_right_comm]
  rfl

/-- Layer 4 of the reference at (r, q): the aggregated row and the node row against column q of the two weights,
    the bias, the normalisation by the running statistics, the affine map and the rectifier. -/
theorem ref_layer4_apply (x0 : (⟨S100000x128, .f32⟩ : BufTy).Contents (Elt Ideal)) (x1 : (⟨S2x1600000, .i32⟩ : BufTy).Contents (Elt Ideal)) (x2 : (⟨S4x128x128, .f32⟩ : BufTy).Contents (Elt Ideal)) (x3 : (⟨S4x128, .f32⟩ : BufTy).Contents (Elt Ideal)) (x4 : (⟨S4x128x128, .f32⟩ : BufTy).Contents (Elt Ideal)) (x5 x6 x7 x8 : (⟨S4x128, .f32⟩ : BufTy).Contents (Elt Ideal)) (r : Fin 100000) (q : Fin 128) :
    val_main_v204 (F := Ideal) x0 x1 x2 x3 x4 x5 x6 x7 x8 (ix2 r q)
      = Cert.Sage.layerAt (fun k => val_main_v168 (F := Ideal) x0 x1 x2 x3 x4 x5 x6 x7 x8 (ix2 r k)) (fun k => (val_main_v156 (F := Ideal) x0 x1 x2 x3 x4 x5 x6 x7 x8) (ix2 r k))
          (fun k => val_main_v171 (F := Ideal) x2 (ix2 k q)) (fun k => val_main_v180 (F := Ideal) x4 (ix2 k q))
          (val_main_v174 (F := Ideal) x3 (ix1 q)) (val_main_v189 (F := Ideal) x5 (ix1 q)) (val_main_v200 (F := Ideal) x6 (ix1 q))
          (val_main_v184 (F := Ideal) x7 (ix1 q)) (val_main_v191 (F := Ideal) x8 (ix1 q)) := by
  -- the index functions of the two products and of the broadcast chains, at (r, q)
  have hl1 : ∀ k : Fin 128, lidx_main_v172 (ix2 r q) k = ix2 r k := fun k => funext fun a => by match a with | ⟨0, _⟩ => rfl | ⟨1, _⟩ => rfl
  have hr1 : ∀ k : Fin 128, ridx_main_v172 (ix2 r q) k = ix2 k q := fun k => funext fun a => by match a with | ⟨0, _⟩ => rfl | ⟨1, _⟩ => rfl
  have hl2 : ∀ k : Fin 128, lidx_main_v181 (ix2 r q) k = ix2 r k := fun k => funext fun a => by match a with | ⟨0, _⟩ => rfl | ⟨1, _⟩ => rfl
  have hr2 : ∀ k : Fin 128, ridx_main_v181 (ix2 r q) k = ix2 k q := fun k => funext fun a => by match a with | ⟨0, _⟩ => rfl | ⟨1, _⟩ => rfl
  have hb : idx_main_v175 (idx_main_v176 (ix2 r q)) = ix1 q := funext fun a => by match a with | ⟨0, _⟩ => rfl
  have hm : idx_main_v185 (idx_main_v186 (ix2 r q)) = ix1 q := funext fun a => by match a with | ⟨0, _⟩ => rfl
  have hg : idx_main_v196 (idx_main_v197 (ix2 r q)) = ix1 q := funext fun a => by match a with | ⟨0, _⟩ => rfl
  have he : idx_main_v201 (idx_main_v202 (ix2 r q)) = ix1 q := funext fun a => by match a with | ⟨0, _⟩ => rfl
  -- the elementwise operations, outermost first, down to the two products and the [128] vectors
  rw [val_main_v204_apply, val_main_v203_apply, val_main_v198_apply, val_main_v187_apply, val_main_v182_apply, val_main_v177_apply, val_main_v172_apply, val_main_v181_apply,
    val_main_v176_apply, val_main_v175_apply, val_main_v186_apply, val_main_v185_apply, val_main_v197_apply, val_main_v196_apply, val_main_v195_apply, val_main_v194_apply, val_main_v193_apply,
    val_main_v192_apply, val_main_cst_17_apply, val_main_v202_apply, val_main_v201_apply, val_main_call3_v0_apply, val_main_call3_cst_apply, hb, hm, hg, he]
  simp only [hl1, hr1, hl2, hr2]
  -- from here on the stages that stay closed are variables
  generalize val_main_v168 (F := Ideal) x0 x1 x2 x3 x4 x5 x6 x7 x8 = A
  generalize val_main_v171 (F := Ideal) x2 = WL
  generalize val_main_v180 (F := Ideal) x4 = WR
  generalize val_main_v174 (F := Ideal) x3 = B
  generalize val_main_v189 (F := Ideal) x5 = G
  generalize val_main_v200 (F := Ideal) x6 = BE
  generalize val_main_v184 (F := Ideal) x7 = M
  generalize val_main_v191 (F := Ideal) x8 = Vr
  generalize val_main_v156 (F := Ideal) x0 x1 x2 x3 x4 x5 x6 x7 x8 = X
  -- the reference adds the bias before the second product; the specification after it
  show max ((((∑ k : Fin 128, A (ix2 r k) * WL (ix2 k q)) + B (ix1 q)
        + ∑ k : Fin 128, X (ix2 r k) * WR (ix2 k q)) - M (ix1 q))
      * (G (ix1 q) * Ideal.rsqrt (Vr (ix1 q) + Cert.Sage.eps)) + BE (ix1 q)) Cert.Sage.zero = _
  rw [add_right_comm]
  rfl

end Cert.ReferenceIdeal.LayerValue

end
-- ==== Proof.RefHead.lean ====
/-
  The last stages of the reference program, read at one entry.

  The program ends with five two-layer heads computed together. With X the node features (a
  [100000,128] array, kept here as one opaque function of the first nine arguments), W1 [5,64,128],
  B1 [5,64], W2 [5,1,64], B2 [5,1] the remaining arguments, the program forms
      P(h,o,r) = Σₖ W1(h,o,k) · X(r,k)                 a contraction with the weight on the left,
      Q(h,r,o) = P(h,o,r) + B1(h,o)                    a transposition and a broadcast bias,
      R(h,r,o) = max (Q(h,r,o)) 0                      the rectifier, its floor the printed zero word,
      T(h,r,0) = Σₒ R(h,r,o) · W2(h,0,o) + B2(h,0)     a batched contraction and a broadcast bias,
      Y(h,r,0) = 1 / (1 + exp (− T(h,r,0)))            negate, exponential, add one, divide into one.
  On the extended reals the last line is the logistic function by definition, the word 0x3F800000
  is one, and the products of the first line commute, so Y(h,r,0) is the head entry of the
  specification at row r of X and at head h's weights and biases.
-/
import proofs.«110522_j10282151707181_1_alg».proof.Proof.RefRead
import proofs.«110522_j10282151707181_1_alg».proof.Proof.SageSpec
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.ReferenceIdeal.HeadValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

/-! ## The composed index maps at explicit coordinates -/

/-- Entry (h,r,o) of the transposed product reads the weight at (h,o,k). -/
theorem lidx205_eq (h : Fin 5) (r : Fin 100000) (o : Fin 64) (k : Fin 128) :
    lidx_main_v205 (idx_main_v206 (ix3 h r o)) k = ix3 h o k :=
  funext fun a => match a with | ⟨0, _⟩ => rfl | ⟨1, _⟩ => rfl | ⟨2, _⟩ => rfl

/-- Entry (h,r,o) of the transposed product reads the features at (r,k). -/
theorem ridx205_eq (h : Fin 5) (r : Fin 100000) (o : Fin 64) (k : Fin 128) :
    ridx_main_v205 (idx_main_v206 (ix3 h r o)) k = ix2 r k :=
  funext fun a => match a with | ⟨0, _⟩ => rfl | ⟨1, _⟩ => rfl

/-- Entry (h,r,o) of the twice-broadcast first bias reads it at (h,o). -/
theorem idx207_eq (h : Fin 5) (r : Fin 100000) (o : Fin 64) :
    idx_main_v207 (idx_main_v208 (ix3 h r o)) = ix2 h o :=
  funext fun a => match a with | ⟨0, _⟩ => rfl | ⟨1, _⟩ => rfl

/-- Entry (h,r,0) of the batched contraction reads the hidden layer at (h,r,o). -/
theorem lidx211_eq (h : Fin 5) (r : Fin 100000) (o : Fin 64) :
    lidx_main_v211 (ix3 h r (0 : Fin 1)) o = ix3 h r o :=
  funext fun a => match a with | ⟨0, _⟩ => rfl | ⟨1, _⟩ => rfl | ⟨2, _⟩ => rfl

/-- Entry (h,r,0) of the batched contraction reads the second weight at (h,0,o). -/
theorem ridx211_eq (h : Fin 5) (r : Fin 100000) (o : Fin 64) :
    ridx_main_v211 (ix3 h r (0 : Fin 1)) o = ix3 h (0 : Fin 1) o :=
  funext fun a => match a with | ⟨0, _⟩ => rfl | ⟨1, _⟩ => rfl | ⟨2, _⟩ => rfl

/-- Entry (h,r,0) of the twice-broadcast second bias reads it at (h,0). -/
theorem idx212_eq (h : Fin 5) (r : Fin 100000) :
    idx_main_v212 (idx_main_v213 (ix3 h r (0 : Fin 1))) = ix2 h (0 : Fin 1) :=
  funext fun a => match a with | ⟨0, _⟩ => rfl | ⟨1, _⟩ => rfl

/-! ## The stages at an entry -/

variable (x0 : (⟨S100000x128, .f32⟩ : BufTy).Contents (Elt Ideal))
  (x1 : (⟨S2x1600000, .i32⟩ : BufTy).Contents (Elt Ideal))
  (x2 : (⟨S4x128x128, .f32⟩ : BufTy).Contents (Elt Ideal))
  (x3 : (⟨S4x128, .f32⟩ : BufTy).Contents (Elt Ideal))
  (x4 : (⟨S4x128x128, .f32⟩ : BufTy).Contents (Elt Ideal))
  (x5 : (⟨S4x128, .f32⟩ : BufTy).Contents (Elt Ideal))
  (x6 : (⟨S4x128, .f32⟩ : BufTy).Contents (Elt Ideal))
  (x7 : (⟨S4x128, .f32⟩ : BufTy).Contents (Elt Ideal))
  (x8 : (⟨S4x128, .f32⟩ : BufTy).Contents (Elt Ideal))
  (x9 : (⟨S5x64x128, .f32⟩ : BufTy).Contents (Elt Ideal))
  (x10 : (⟨S5x64, .f32⟩ : BufTy).Contents (Elt Ideal))
  (x11 : (⟨S5x1x64, .f32⟩ : BufTy).Contents (Elt Ideal))
  (x12 : (⟨S5x1, .f32⟩ : BufTy).Contents (Elt Ideal))

/-- The first layer before the rectifier, at (h,r,o): row r of the features against head h's column o,
    plus the bias. -/
theorem pre_apply (h : Fin 5) (r : Fin 100000) (o : Fin 64) :
    val_main_v209 (F := Ideal) x0 x1 x2 x3 x4 x5 x6 x7 x8 x9 x10 (ix3 h r o)
      = (∑ k : Fin 128, val_main_v204 (F := Ideal) x0 x1 x2 x3 x4 x5 x6 x7 x8 (ix2 r k) * x9 (ix3 h o k)) + x10 (ix2 h o) := by
  rw [val_main_v209_apply, val_main_v206_apply, val_main_v205_apply, val_main_v208_apply, val_main_v207_apply]
  simp only [lidx205_eq, ridx205_eq, idx207_eq, Ideal.addf_def]
  exact congrArg (· + x10 (ix2 h o)) (Finset.sum_congr rfl fun k _ => mul_comm _ _)

/-- The hidden layer at (h,r,o): the rectifier of the first layer, its floor the printed zero word. -/
theorem hid_apply (h : Fin 5) (r : Fin 100000) (o : Fin 64) :
    val_main_v210 (F := Ideal) x0 x1 x2 x3 x4 x5 x6 x7 x8 x9 x10 (ix3 h r o)
      = max ((∑ k : Fin 128, val_main_v204 (F := Ideal) x0 x1 x2 x3 x4 x5 x6 x7 x8 (ix2 r k) * x9 (ix3 h o k)) + x10 (ix2 h o))
          Cert.Sage.zero := by
  rw [val_main_v210_apply, val_main_call4_v0_apply, val_main_call4_cst_apply, pre_apply]
  rfl

/-- The head's argument at (h,r,0): the hidden layer against head h's second weight, plus the bias. -/
theorem logit_apply (h : Fin 5) (r : Fin 100000) :
    val_main_v214 (F := Ideal) x0 x1 x2 x3 x4 x5 x6 x7 x8 x9 x10 x11 x12 (ix3 h r (0 : Fin 1))
      = (∑ o : Fin 64,
            max ((∑ k : Fin 128, val_main_v204 (F := Ideal) x0 x1 x2 x3 x4 x5 x6 x7 x8 (ix2 r k) * x9 (ix3 h o k)) + x10 (ix2 h o))
              Cert.Sage.zero * x11 (ix3 h (0 : Fin 1) o))
          + x12 (ix2 h (0 : Fin 1)) := by
  rw [val_main_v214_apply, val_main_v211_apply, val_main_v213_apply, val_main_v212_apply]
  simp only [lidx211_eq, ridx211_eq, idx212_eq, hid_apply, Ideal.addf_def]

/-- The program's result at (h,r,0) is the specification's head entry at row r of the features and at
    head h's two weight arrays and biases. -/
theorem ref_head_apply (h : Fin 5) (r : Fin 100000) :
    val_main_v220 (F := Ideal) x0 x1 x2 x3 x4 x5 x6 x7 x8 x9 x10 x11 x12 (ix3 h r (0 : Fin 1))
      = Cert.Sage.headAt (fun k => val_main_v204 (F := Ideal) x0 x1 x2 x3 x4 x5 x6 x7 x8 (ix2 r k))
          (fun k o => x9 (ix3 h o k)) (fun o => x10 (ix2 h o)) (fun o => x11 (ix3 h (0 : Fin 1) o))
          (x12 (ix2 h (0 : Fin 1))) := by
  rw [val_main_v220_apply, val_main_v219_apply, val_main_cst_19_apply, val_main_v218_apply, val_main_v217_apply,
    val_main_cst_18_apply, val_main_v216_apply, val_main_v215_apply, logit_apply]
  simp only [Ideal.hostDivf_def, Ideal.addf_def, Ideal.hostUnary_exp_def, Ideal.hostNegf_def, Ideal.negf_def,
    Ideal.ofBits_def, Ideal.ofBits_one_f32]
  rfl

end Cert.ReferenceIdeal.HeadValue

end
-- ==== Proof.Bridge.lean ====
/-
  The idealized kernel program's result array is the reference's last stage of the same arguments.

  By induction along the four layers: the array a layer kernel leaves holds, entry by entry, one layer entry
  (Cert.Sage.layerAt) of the rows and columns of its nine input arrays; the reference's stage holds the same layer entry
  of its own stages; and the kernel's input arrays ARE the reference's stages (the aggregated features, the node
  features of the previous layer, the two transposed weight slices as whole arrays; the bias and the four
  normalisation vectors as the reference's [128] vectors read as one row). The head kernel's [100000,5] array holds one
  head entry (Cert.Sage.headAt) per (node, head), the reference's [5,100000,1] stage the same head entry at
  (head, node, 0), and the last two host operations transpose the kernel's array into that arrangement.
-/
import proofs.«110522_j10282151707181_1_alg».proof.Proof.KernelChain
import proofs.«110522_j10282151707181_1_alg».proof.Proof.LayerKernel
import proofs.«110522_j10282151707181_1_alg».proof.Proof.HeadKernel
import proofs.«110522_j10282151707181_1_alg».proof.Proof.RefLayers
import proofs.«110522_j10282151707181_1_alg».proof.Proof.RefHead
import proofs.«110522_j10282151707181_1_alg».proof.Proof.LibRowBias
import Idealize.ShloMosaic.Lib.ValueLayout
import Idealize.ShloMosaic.Lib.Pipeline.Value

set_option maxRecDepth 16384
-- the argument shorthands below mention a projection, which the notation pre-check cannot look into
set_option quotPrecheck false

noncomputable section

namespace Cert.KernelIdeal.Bridge

open Cert.KernelIdeal Cert.KernelIdeal.Gen Cert.KernelIdeal.Chain Cert.ReferenceIdeal.ReadP
open Cert.KernelIdeal.LayerValue Cert.KernelIdeal.HeadValue Cert.ReferenceIdeal.LayerValue Cert.ReferenceIdeal.HeadValue
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
local notation "A10" => m ((c : Thread nD τ).loc main_arg10)
local notation "A11" => m ((c : Thread nD τ).loc main_arg11)
local notation "A12" => m ((c : Thread nD τ).loc main_arg12)

/-! ## The four layers -/

/-- Layer 1: the array the layer kernel leaves is the reference's layer output. -/
theorem out0 : W2 m ρ c (Proc.devRef .tc main_v46) = val_main_v60 (F := Ideal) A0 A1 A2 A3 A4 A5 A6 A7 A8 := by
  refine (W2_arr m ρ c 9).trans ?_
  funext i
  obtain ⟨r, q, rfl⟩ : ∃ (r : Fin 100000) (q : Fin 128), i = ix2 r q := ⟨i 0, i 1, eq_ix2 i⟩
  have ea : (V1 m ρ c main_v24 : S100000x128.Idx → EReal) = val_main_v24 (F := Ideal) A0 A1 := in0_agg m ρ c
  have ex : (V1 m ρ c main_arg0 : S100000x128.Idx → EReal) = A0 := in0_x m ρ c
  have el : (V1 m ρ c main_v27 : S128x128.Idx → EReal) = val_main_v27 (F := Ideal) A2 := in0_wl m ρ c
  have er : (V1 m ρ c main_v30 : S128x128.Idx → EReal) = val_main_v36 (F := Ideal) A4 := in0_wr m ρ c
  have e_bl : (V1 m ρ c main_v41 : S1x128.Idx → EReal) (ix2 0 q) = val_main_v30 (F := Ideal) A3 (ix1 q) := by
    rw [show (V1 m ρ c main_v41 : S1x128.Idx → EReal) = _ from in0_bl m ρ c]; exact Cert.RowBias.rowOf_apply _ _ q
  have e_g : (V1 m ρ c main_v42 : S1x128.Idx → EReal) (ix2 0 q) = val_main_v45 (F := Ideal) A5 (ix1 q) := by
    rw [show (V1 m ρ c main_v42 : S1x128.Idx → EReal) = _ from in0_g m ρ c]; exact Cert.RowBias.rowOf_apply _ _ q
  have e_be : (V1 m ρ c main_v43 : S1x128.Idx → EReal) (ix2 0 q) = val_main_v56 (F := Ideal) A6 (ix1 q) := by
    rw [show (V1 m ρ c main_v43 : S1x128.Idx → EReal) = _ from in0_be m ρ c]; exact Cert.RowBias.rowOf_apply _ _ q
  have e_rm : (V1 m ρ c main_v44 : S1x128.Idx → EReal) (ix2 0 q) = val_main_v40 (F := Ideal) A7 (ix1 q) := by
    rw [show (V1 m ρ c main_v44 : S1x128.Idx → EReal) = _ from in0_rm m ρ c]; exact Cert.RowBias.rowOf_apply _ _ q
  have e_rv : (V1 m ρ c main_v45 : S1x128.Idx → EReal) (ix2 0 q) = val_main_v47 (F := Ideal) A8 (ix1 q) := by
    rw [show (V1 m ρ c main_v45 : S1x128.Idx → EReal) = _ from in0_rv m ρ c]; exact Cert.RowBias.rowOf_apply _ _ q
  rw [layer0_final (V1 m ρ) c r q, ref_layer1_apply, ea, ex, el, er, e_bl, e_g, e_be, e_rm, e_rv]

/-- Layer 2: the array the layer kernel leaves is the reference's layer output. -/
theorem out1 : W4 m ρ c (Proc.devRef .tc main_v80) = val_main_v108 (F := Ideal) A0 A1 A2 A3 A4 A5 A6 A7 A8 := by
  refine (W4_arr m ρ c 9).trans ?_
  funext i
  obtain ⟨r, q, rfl⟩ : ∃ (r : Fin 100000) (q : Fin 128), i = ix2 r q := ⟨i 0, i 1, eq_ix2 i⟩
  have ea : (V3 m ρ c main_v58 : S100000x128.Idx → EReal) = val_main_v72 (F := Ideal) A0 A1 A2 A3 A4 A5 A6 A7 A8 := in1_agg m ρ c (out0 m ρ c)
  have ex : (V3 m ρ c main_v46 : S100000x128.Idx → EReal) = val_main_v60 (F := Ideal) A0 A1 A2 A3 A4 A5 A6 A7 A8 := in1_x m ρ c (out0 m ρ c)
  have el : (V3 m ρ c main_v61 : S128x128.Idx → EReal) = val_main_v75 (F := Ideal) A2 := in1_wl m ρ c
  have er : (V3 m ρ c main_v64 : S128x128.Idx → EReal) = val_main_v84 (F := Ideal) A4 := in1_wr m ρ c
  have e_bl : (V3 m ρ c main_v75 : S1x128.Idx → EReal) (ix2 0 q) = val_main_v78 (F := Ideal) A3 (ix1 q) := by
    rw [show (V3 m ρ c main_v75 : S1x128.Idx → EReal) = _ from in1_bl m ρ c]; exact Cert.RowBias.rowOf_apply _ _ q
  have e_g : (V3 m ρ c main_v76 : S1x128.Idx → EReal) (ix2 0 q) = val_main_v93 (F := Ideal) A5 (ix1 q) := by
    rw [show (V3 m ρ c main_v76 : S1x128.Idx → EReal) = _ from in1_g m ρ c]; exact Cert.RowBias.rowOf_apply _ _ q
  have e_be : (V3 m ρ c main_v77 : S1x128.Idx → EReal) (ix2 0 q) = val_main_v104 (F := Ideal) A6 (ix1 q) := by
    rw [show (V3 m ρ c main_v77 : S1x128.Idx → EReal) = _ from in1_be m ρ c]; exact Cert.RowBias.rowOf_apply _ _ q
  have e_rm : (V3 m ρ c main_v78 : S1x128.Idx → EReal) (ix2 0 q) = val_main_v88 (F := Ideal) A7 (ix1 q) := by
    rw [show (V3 m ρ c main_v78 : S1x128.Idx → EReal) = _ from in1_rm m ρ c]; exact Cert.RowBias.rowOf_apply _ _ q
  have e_rv : (V3 m ρ c main_v79 : S1x128.Idx → EReal) (ix2 0 q) = val_main_v95 (F := Ideal) A8 (ix1 q) := by
    rw [show (V3 m ρ c main_v79 : S1x128.Idx → EReal) = _ from in1_rv m ρ c]; exact Cert.RowBias.rowOf_apply _ _ q
  rw [layer1_final (V3 m ρ) c r q, ref_layer2_apply, ea, ex, el, er, e_bl, e_g, e_be, e_rm, e_rv]

/-- Layer 3: the array the layer kernel leaves is the reference's layer output. -/
theorem out2 : W6 m ρ c (Proc.devRef .tc main_v114) = val_main_v156 (F := Ideal) A0 A1 A2 A3 A4 A5 A6 A7 A8 := by
  refine (W6_arr m ρ c 9).trans ?_
  funext i
  obtain ⟨r, q, rfl⟩ : ∃ (r : Fin 100000) (q : Fin 128), i = ix2 r q := ⟨i 0, i 1, eq_ix2 i⟩
  have ea : (V5 m ρ c main_v92 : S100000x128.Idx → EReal) = val_main_v120 (F := Ideal) A0 A1 A2 A3 A4 A5 A6 A7 A8 := in2_agg m ρ c (out1 m ρ c)
  have ex : (V5 m ρ c main_v80 : S100000x128.Idx → EReal) = val_main_v108 (F := Ideal) A0 A1 A2 A3 A4 A5 A6 A7 A8 := in2_x m ρ c (out1 m ρ c)
  have el : (V5 m ρ c main_v95 : S128x128.Idx → EReal) = val_main_v123 (F := Ideal) A2 := in2_wl m ρ c
  have er : (V5 m ρ c main_v98 : S128x128.Idx → EReal) = val_main_v132 (F := Ideal) A4 := in2_wr m ρ c
  have e_bl : (V5 m ρ c main_v109 : S1x128.Idx → EReal) (ix2 0 q) = val_main_v126 (F := Ideal) A3 (ix1 q) := by
    rw [show (V5 m ρ c main_v109 : S1x128.Idx → EReal) = _ from in2_bl m ρ c]; exact Cert.RowBias.rowOf_apply _ _ q
  have e_g : (V5 m ρ c main_v110 : S1x128.Idx → EReal) (ix2 0 q) = val_main_v141 (F := Ideal) A5 (ix1 q) := by
    rw [show (V5 m ρ c main_v110 : S1x128.Idx → EReal) = _ from in2_g m ρ c]; exact Cert.RowBias.rowOf_apply _ _ q
  have e_be : (V5 m ρ c main_v111 : S1x128.Idx → EReal) (ix2 0 q) = val_main_v152 (F := Ideal) A6 (ix1 q) := by
    rw [show (V5 m ρ c main_v111 : S1x128.Idx → EReal) = _ from in2_be m ρ c]; exact Cert.RowBias.rowOf_apply _ _ q
  have e_rm : (V5 m ρ c main_v112 : S1x128.Idx → EReal) (ix2 0 q) = val_main_v136 (F := Ideal) A7 (ix1 q) := by
    rw [show (V5 m ρ c main_v112 : S1x128.Idx → EReal) = _ from in2_rm m ρ c]; exact Cert.RowBias.rowOf_apply _ _ q
  have e_rv : (V5 m ρ c main_v113 : S1x128.Idx → EReal) (ix2 0 q) = val_main_v143 (F := Ideal) A8 (ix1 q) := by
    rw [show (V5 m ρ c main_v113 : S1x128.Idx → EReal) = _ from in2_rv m ρ c]; exact Cert.RowBias.rowOf_apply _ _ q
  rw [layer2_final (V5 m ρ) c r q, ref_layer3_apply, ea, ex, el, er, e_bl, e_g, e_be, e_rm, e_rv]

/-- Layer 4: the array the layer kernel leaves is the reference's layer output. -/
theorem out3 : W8 m ρ c (Proc.devRef .tc main_v148) = val_main_v204 (F := Ideal) A0 A1 A2 A3 A4 A5 A6 A7 A8 := by
  refine (W8_arr m ρ c 9).trans ?_
  funext i
  obtain ⟨r, q, rfl⟩ : ∃ (r : Fin 100000) (q : Fin 128), i = ix2 r q := ⟨i 0, i 1, eq_ix2 i⟩
  have ea : (V7 m ρ c main_v126 : S100000x128.Idx → EReal) = val_main_v168 (F := Ideal) A0 A1 A2 A3 A4 A5 A6 A7 A8 := in3_agg m ρ c (out2 m ρ c)
  have ex : (V7 m ρ c main_v114 : S100000x128.Idx → EReal) = val_main_v156 (F := Ideal) A0 A1 A2 A3 A4 A5 A6 A7 A8 := in3_x m ρ c (out2 m ρ c)
  have el : (V7 m ρ c main_v129 : S128x128.Idx → EReal) = val_main_v171 (F := Ideal) A2 := in3_wl m ρ c
  have er : (V7 m ρ c main_v132 : S128x128.Idx → EReal) = val_main_v180 (F := Ideal) A4 := in3_wr m ρ c
  have e_bl : (V7 m ρ c main_v143 : S1x128.Idx → EReal) (ix2 0 q) = val_main_v174 (F := Ideal) A3 (ix1 q) := by
    rw [show (V7 m ρ c main_v143 : S1x128.Idx → EReal) = _ from in3_bl m ρ c]; exact Cert.RowBias.rowOf_apply _ _ q
  have e_g : (V7 m ρ c main_v144 : S1x128.Idx → EReal) (ix2 0 q) = val_main_v189 (F := Ideal) A5 (ix1 q) := by
    rw [show (V7 m ρ c main_v144 : S1x128.Idx → EReal) = _ from in3_g m ρ c]; exact Cert.RowBias.rowOf_apply _ _ q
  have e_be : (V7 m ρ c main_v145 : S1x128.Idx → EReal) (ix2 0 q) = val_main_v200 (F := Ideal) A6 (ix1 q) := by
    rw [show (V7 m ρ c main_v145 : S1x128.Idx → EReal) = _ from in3_be m ρ c]; exact Cert.RowBias.rowOf_apply _ _ q
  have e_rm : (V7 m ρ c main_v146 : S1x128.Idx → EReal) (ix2 0 q) = val_main_v184 (F := Ideal) A7 (ix1 q) := by
    rw [show (V7 m ρ c main_v146 : S1x128.Idx → EReal) = _ from in3_rm m ρ c]; exact Cert.RowBias.rowOf_apply _ _ q
  have e_rv : (V7 m ρ c main_v147 : S1x128.Idx → EReal) (ix2 0 q) = val_main_v191 (F := Ideal) A8 (ix1 q) := by
    rw [show (V7 m ρ c main_v147 : S1x128.Idx → EReal) = _ from in3_rv m ρ c]; exact Cert.RowBias.rowOf_apply _ _ q
  rw [layer3_final (V7 m ρ) c r q, ref_layer4_apply, ea, ex, el, er, e_bl, e_g, e_be, e_rm, e_rv]

/-! ## The heads and the last two host operations -/

/-- The head kernel's array at (node, head) is the reference's last stage at (head, node, 0). -/
theorem out4 (h : Fin 5) (r : Fin 100000) :
    (W10 m ρ c (Proc.devRef .tc main_v151) : S100000x5.Idx → EReal) (ix2 r h)
      = val_main_v220 (F := Ideal) A0 A1 A2 A3 A4 A5 A6 A7 A8 A9 A10 A11 A12 (ix3 h r (0 : Fin 1)) := by
  have ex : (V9 m ρ c main_v148 : S100000x128.Idx → EReal) = val_main_v204 (F := Ideal) A0 A1 A2 A3 A4 A5 A6 A7 A8 := in4_x m ρ c (out3 m ρ c)
  have e1 : ∀ (k : Fin 128) (o : Fin 64), (V9 m ρ c main_v149 : S5x128x64.Idx → EReal) (ix3 h k o) = A9 (ix3 h o k) := fun k o => by
    rw [show (V9 m ρ c main_v149 : S5x128x64.Idx → EReal) = _ from in4_w1 m ρ c]; exact transpose_ix3_021_apply _ _ h k o
  have e2 : (V9 m ρ c main_arg10 : S5x64.Idx → EReal) = A10 := at9_main_arg10 m ρ c
  have e3 : ∀ o : Fin 64, (V9 m ρ c main_v150 : S5x64x1.Idx → EReal) (ix3 h o (0 : Fin 1)) = A11 (ix3 h (0 : Fin 1) o) := fun o => by
    rw [show (V9 m ρ c main_v150 : S5x64x1.Idx → EReal) = _ from in4_w2 m ρ c]; exact transpose_ix3_021_apply _ _ h o 0
  have e4 : (V9 m ρ c main_arg12 : S5x1.Idx → EReal) = A12 := at9_main_arg12 m ρ c
  rw [show (W10 m ρ c (Proc.devRef .tc main_v151) : S100000x5.Idx → EReal) = _ from W10_arr m ρ c 5,
    head_final (V9 m ρ) c r h, ref_head_apply, ex, e2, e4]
  simp only [e1, e3]

/-- The kernel program's result array is the reference's last stage of the same arguments. -/
theorem kernel_result : W11 m ρ c (Proc.devRef .tc main_v153) = val_main_v220 (F := Ideal) A0 A1 A2 A3 A4 A5 A6 A7 A8 A9 A10 A11 A12 := by
  rw [tail m ρ c]
  funext i
  obtain ⟨h, r, z, rfl⟩ : ∃ (h : Fin 5) (r : Fin 100000) (z : Fin 1), i = ix3 h r z := ⟨i 0, i 1, i 2, eq_ix3 i⟩
  obtain rfl : z = 0 := Subsingleton.elim _ _
  rw [broadcastInDim_apply _ _ _ (ix3 h r (0 : Fin 1)) (ix2 h r) (fun a => match a with | ⟨0, _⟩ => rfl | ⟨1, _⟩ => rfl),
    transpose_ix2_apply _ _ h r]
  exact out4 m ρ c h r

end Cert.KernelIdeal.Bridge

end
-- ==== Proof.lean ====
/-
  The certificate of a four-layer mean-aggregation graph network with five sigmoid heads: the Pallas program (four
  fused layer kernels and one head kernel among host gathers, scatters and weight slices) against its plain jnp
  reference, equal as extended reals.

  Frames: the kernel program's two frames are the several-region launch theorem over the five class-A bodies; the
  reference, a host program, runs by its operation list.
  Preserves: the idealization rewrote nothing, so there is nothing to state.
  Algebraic: both programs are the same function of the thirteen arguments. Along the layers, a layer kernel's
  output entry and the reference's are the same layer entry — the kernel adds the bias after both matrix products,
  the reference between them, which agrees in the commutative monoid of the extended reals; the narrowing of the
  products' operands to bf16 is the identity there; the blocks of 5000 rows tile the array — and the gathers and
  scatters in between are the same host operations applied to equal arrays. A head is the same two contractions, the
  reference's batched over the five heads and the kernel's one head at a time into five columns, and the reference's
  1 / (1 + exp (−t)) is the logistic function by definition. No finiteness of the inputs is used.
-/
import proofs.«110522_j10282151707181_1_alg».proof.Defs
import proofs.«110522_j10282151707181_1_alg».proof.Proof.Gen.Kernel
import proofs.«110522_j10282151707181_1_alg».proof.Proof.Gen.Kernel.Skeleton
import proofs.«110522_j10282151707181_1_alg».proof.Proof.Gen.Kernel.Launch
import proofs.«110522_j10282151707181_1_alg».proof.Proof.Gen.Kernel.Points
import proofs.«110522_j10282151707181_1_alg».proof.Proof.Gen.Kernel.Frame
import proofs.«110522_j10282151707181_1_alg».proof.Proof.Gen.KernelIdeal
import proofs.«110522_j10282151707181_1_alg».proof.Proof.Gen.KernelIdeal.Skeleton
import proofs.«110522_j10282151707181_1_alg».proof.Proof.Gen.KernelIdeal.Launch
import proofs.«110522_j10282151707181_1_alg».proof.Proof.Gen.KernelIdeal.Points
import proofs.«110522_j10282151707181_1_alg».proof.Proof.Gen.KernelIdeal.Frame
import proofs.«110522_j10282151707181_1_alg».proof.Proof.Gen.ReferenceIdeal
import proofs.«110522_j10282151707181_1_alg».proof.Proof.Gen.Pre_finite_inputs
import proofs.«110522_j10282151707181_1_alg».proof.Proof.RefRun
import proofs.«110522_j10282151707181_1_alg».proof.Proof.RefRead
import proofs.«110522_j10282151707181_1_alg».proof.Proof.KernelRun
import proofs.«110522_j10282151707181_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the same result array: the kernel program's is the contents of its last boundary, which is
    the reference's last stage of the same arguments; the reference's run ends at that stage. -/
theorem algebraic : Cert.algebraic_KernelIdeal_ReferenceIdeal := by
  intro m ρ m' ρ' _ hagree
  refine ⟨fun c => Cert.KernelIdeal.Gen.W11 m ρ c (Proc.devRef .tc Cert.KernelIdeal.main_v153),
    Cert.KernelIdeal.GenP.run_main m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12⟩ := hagree c
  rw [Cert.ReferenceIdeal.ReadP.val_main_v220_eq, h0, h1, h2, h3, h4, h5, h6, h7, h8, h9, h10, h11, h12]
  exact (Cert.KernelIdeal.Bridge.kernel_result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
